-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_arg11 : FVec F S768 .f32) (main_arg12 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  main_v63

def fn_part2 {F : FTy → Type} [FloatOps F] (main_arg7 : FVec F S768x768 .f32) (main_arg8 : FVec F S768 .f32) (main_arg9 : FVec F S768 .f32) (main_arg10 : FVec F S768 .f32) (main_arg11 : FVec F S768 .f32) (main_arg12 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_v48 main_v49 main_v50

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_arg9 : FVec F S768 .f32) (main_arg10 : FVec F S768 .f32) (main_arg11 : FVec F S768 .f32) (main_arg12 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S768 .f32) (main_arg10 : FVec F S768 .f32) (main_arg11 : FVec F S768 .f32) (main_arg12 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_arg11 main_arg12 main_v13 main_v16
-- ==== Kernel.lean ====
abbrev S8x2048x768 : Shape := ⟨3, ![8, 2048, 768]⟩
abbrev S768x768 : Shape := ⟨2, ![768, 768]⟩
abbrev S768 : Shape := ⟨1, ![768]⟩
abbrev S16384x768 : Shape := ⟨2, ![16384, 768]⟩
abbrev S768x2304 : Shape := ⟨2, ![768, 2304]⟩
abbrev S2304 : Shape := ⟨1, ![2304]⟩
abbrev S1x2304 : Shape := ⟨2, ![1, 2304]⟩
abbrev S1024x768 : Shape := ⟨2, ![1024, 768]⟩
abbrev S1024x2304 : Shape := ⟨2, ![1024, 2304]⟩
abbrev S1x768 : Shape := ⟨2, ![1, 768]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 26
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S16384x768, .f32⟩
  | .hbm, ⟨14, _⟩ => ⟨S768x2304, .f32⟩
  | .hbm, ⟨15, _⟩ => ⟨S768x2304, .bf16⟩
  | .hbm, ⟨16, _⟩ => ⟨S2304, .f32⟩
  | .hbm, ⟨17, _⟩ => ⟨S1x2304, .f32⟩
  | .hbm, ⟨18, _⟩ => ⟨S16384x768, .bf16⟩
  | .hbm, ⟨19, _⟩ => ⟨S16384x768, .bf16⟩
  | .hbm, ⟨20, _⟩ => ⟨S16384x768, .bf16⟩
  | .hbm, ⟨21, _⟩ => ⟨S8x2048x768, .bf16⟩
  | .hbm, ⟨22, _⟩ => ⟨S8x2048x768, .bf16⟩
  | .hbm, ⟨23, _⟩ => ⟨S8x2048x768, .bf16⟩
  | .hbm, ⟨24, _⟩ => ⟨S1x768, .f32⟩
  | .hbm, ⟨25, _⟩ => ⟨S1x768, .f32⟩
  | .hbm, ⟨26, _⟩ => ⟨S768x768, .bf16⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S8x2048x768, .f32⟩
  | .local _ .vmem, ⟨0, _⟩ => ⟨S1024x768, .f32⟩
  | .local _ .vmem, ⟨1, _⟩ => ⟨S1024x768, .f32⟩
  | .local _ .vmem, ⟨2, _⟩ => ⟨S768x2304, .bf16⟩
  | .local _ .vmem, ⟨3, _⟩ => ⟨S1x2304, .f32⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .bf16⟩
  | .local _ .vmem, ⟨13, _⟩ => ⟨S1x256x768, .bf16⟩
  | .local _ .vmem, ⟨14, _⟩ => ⟨S1x2048x768, .bf16⟩
  | .local _ .vmem, ⟨15, _⟩ => ⟨S1x2048x768, .bf16⟩
  | .local _ .vmem, ⟨16, _⟩ => ⟨S1x2048x768, .bf16⟩
  | .local _ .vmem, ⟨17, _⟩ => ⟨S1x2048x768, .bf16⟩
  | .local _ .vmem, ⟨18, _⟩ => ⟨S1x768, .f32⟩
  | .local _ .vmem, ⟨19, _⟩ => ⟨S1x768, .f32⟩
  | .local _ .vmem, ⟨20, _⟩ => ⟨S768x768, .bf16⟩
  | .local _ .vmem, ⟨21, _⟩ => ⟨S1x768, .f32⟩
  | .local _ .vmem, ⟨22, _⟩ => ⟨S1x768, .f32⟩
  | .local _ .vmem, ⟨23, _⟩ => ⟨S1x768, .f32⟩
  | .local _ .vmem, ⟨24, _⟩ => ⟨S1x256x768, .f32⟩
  | .local _ .vmem, ⟨25, _⟩ => ⟨S1x256x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S768x768 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x256x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  shapeCasts_S8x2048x768_S16384x768 : S8x2048x768.ShapeCasts S16384x768
  concatenates_S768x768_S768x768_S768x768_S768x2304_d1 : Shape.Concatenates [S768x768, S768x768, S768x768] S768x2304 1
  bitsLt_bf16_f32 : FTy.bits .bf16 < FTy.bits .f32
  concatenates_S768_S768_S768_S2304_d0 : Shape.Concatenates [S768, S768, S768] S2304 0
  shapeCasts_S2304_S1x2304 : S2304.ShapeCasts S1x2304
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S1024x2304 : S1x2304.Broadcasts S1024x2304
  slices_S1024x2304_o0_0_S1024x768 : S1024x2304.Slices ![0, 0] S1024x768
  packedbf16_S1024x768_S1024x768_0_0 : (Rect.unit (s := S1024x768) ![0, 0] S1024x768.size inb_S1024x768_S1024x768_0_0).PackedRows (EltTy.packing .bf16)
  slices_S1024x2304_o0_768_S1024x768 : S1024x2304.Slices ![0, 768] S1024x768
  slices_S1024x2304_o0_1536_S1024x768 : S1024x2304.Slices ![0, 1536] S1024x768
  shapeCasts_S16384x768_S8x2048x768 : S16384x768.ShapeCasts S8x2048x768
  shapeCasts_S768_S1x768 : S768.ShapeCasts S1x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S256x2048_S256 : S256x2048.Reduces [1] S256
  shapeCasts_S256_S256x1 : S256.ShapeCasts S256x1
  broadcasts_S256x1_S256x2048 : S256x1.Broadcasts S256x2048
  broadcasts_S256x1_S256x768 : S256x1.Broadcasts S256x768
  reduces_S256x768_S256 : S256x768.Reduces [1] S256
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S256x768_S1x256x768 : S256x768.ShapeCasts S1x256x768
  dot_S1024x768_S768x2304_S1024x2304_1_0_0_1_n_n_wf : DotDims.WF S1024x768 S768x2304 S1024x2304 [1] [0] [0] [1] [] []
  dot_S256x768_S2048x768_S256x2048_1_1_0_0_n_n_wf : DotDims.WF S256x768 S2048x768 S256x2048 [1] [1] [0] [0] [] []
  dot_S256x2048_S2048x768_S256x768_1_0_0_1_n_n_wf : DotDims.WF S256x2048 S2048x768 S256x768 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S16384x768.size a
  hwx0_3 : ∀ i : grid0.Coords, EltTy.bits .bf16 = 32 ∨ (Rect.block (s := S16384x768) S1024x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S16384x768.size a
  hwx0_4 : ∀ i : grid0.Coords, EltTy.bits .bf16 = 32 ∨ (Rect.block (s := S16384x768) S1024x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S16384x768.size a
  hwx0_5 : ∀ i : grid0.Coords, EltTy.bits .bf16 = 32 ∨ (Rect.block (s := S16384x768) S1024x768.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S8x2048x768.size a
  hwx1_0 : ∀ i : grid1.Coords, EltTy.bits .f32 = 32 ∨ (Rect.block (s := S8x2048x768) S1x256x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x768.size a ≤ S8x2048x768.size a
  hwx1_1 : ∀ i : grid1.Coords, EltTy.bits .bf16 = 32 ∨ (Rect.block (s := S8x2048x768) S1x256x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S8x2048x768.size a
  hwx1_2 : ∀ i : grid1.Coords, EltTy.bits .bf16 = 32 ∨ (Rect.block (s := S8x2048x768) S1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x768.size a ≤ S8x2048x768.size a
  hwx1_3 : ∀ i : grid1.Coords, EltTy.bits .bf16 = 32 ∨ (Rect.block (s := S8x2048x768) S1x2048x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x768.size a ≤ S768x768.size a
  hwx1_6 : ∀ i : grid1.Coords, EltTy.bits .bf16 = 32 ∨ (Rect.block (s := S768x768) S768x768.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x768.size a ≤ S1x768.size a
  hwx1_7 : ∀ i : grid1.Coords, EltTy.bits .f32 = 32 ∨ (Rect.block (s := S1x768) S1x768.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x768.size a ≤ S1x768.size a
  hwx1_8 : ∀ i : grid1.Coords, EltTy.bits .f32 = 32 ∨ (Rect.block (s := S1x768) S1x768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x768.size a ≤ S1x768.size a
  hwx1_9 : ∀ i : grid1.Coords, EltTy.bits .f32 = 32 ∨ (Rect.block (s := S1x768) S1x768.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256x768.size a ≤ S8x2048x768.size a
  hwx1_10 : ∀ i : grid1.Coords, EltTy.bits .f32 = 32 ∨ (Rect.block (s := S8x2048x768) S1x256x768.size (cc1_transform_10 i) (hinb1_10 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x2048x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S768x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x768.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15) S1x256x768.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8x2048x768 : Shape := ⟨3, ![8, 2048, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S8x2048x768, .f32⟩
  | .hbm, ⟨14, _⟩ => ⟨S1x1x768, .f32⟩
  | .hbm, ⟨15, _⟩ => ⟨S8x2048x768, .f32⟩
  | .hbm, ⟨16, _⟩ => ⟨S8x2048x768, .f32⟩
  | .hbm, ⟨17, _⟩ => ⟨S_, .f32⟩
  | .hbm, ⟨18, _⟩ => ⟨S8x2048x768, .f32⟩
  | .hbm, ⟨19, _⟩ => ⟨S8x2048x768, .f32⟩
  | .hbm, ⟨20, _⟩ => ⟨S8x2048x768, .f32⟩
  | .hbm, ⟨21, _⟩ => ⟨S1x1x768, .f32⟩
  | .hbm, ⟨22, _⟩ => ⟨S8x2048x768, .f32⟩
  | .hbm, ⟨23, _⟩ => ⟨S8x2048x768, .f32⟩
  | .hbm, ⟨24, _⟩ => ⟨S_, .f32⟩
  | .hbm, ⟨25, _⟩ => ⟨S8x2048x768, .f32⟩
  | .hbm, ⟨26, _⟩ => ⟨S8x2048x768, .f32⟩
  | .hbm, ⟨27, _⟩ => ⟨S8x2048x768, .f32⟩
  | .hbm, ⟨28, _⟩ => ⟨S1x1x768, .f32⟩
  | .hbm, ⟨29, _⟩ => ⟨S8x2048x768, .f32⟩
  | .hbm, ⟨30, _⟩ => ⟨S8x2048x768, .f32⟩
  | .hbm, ⟨31, _⟩ => ⟨S_, .f32⟩
  | .hbm, ⟨32, _⟩ => ⟨S8x2048x768, .f32⟩
  | .hbm, ⟨33, _⟩ => ⟨S8x2048x768, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x768, .f32⟩
  | .hbm, ⟨50, _⟩ => ⟨S8x2048x768, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x768, .f32⟩
  | .hbm, ⟨58, _⟩ => ⟨S8x2048x768, .f32⟩
  | .hbm, ⟨59, _⟩ => ⟨S8x2048x768, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x768, .f32⟩
  | .hbm, ⟨67, _⟩ => ⟨S8x2048x768, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x768, .f32⟩
  | .hbm, ⟨73, _⟩ => ⟨S8x2048x768, .f32⟩
  | .hbm, ⟨74, _⟩ => ⟨S1x1x768, .f32⟩
  | .hbm, ⟨75, _⟩ => ⟨S8x2048x768, .f32⟩
  | .hbm, ⟨76, _⟩ => ⟨S8x2048x768, .f32⟩
  | .hbm, ⟨77, _⟩ => ⟨S1x1x768, .f32⟩
  | .hbm, ⟨78, _⟩ => ⟨S8x2048x768, .f32⟩
  | .hbm, ⟨79, _⟩ => ⟨S8x2048x768, .f32⟩
  | .hbm, ⟨80, _⟩ => ⟨S8x2048x768, .f32⟩
  | .hbm, ⟨81, _⟩ => ⟨S8x2048x768, .f32⟩
  | .hbm, ⟨82, _⟩ => ⟨S1x1x768, .f32⟩
  | .hbm, ⟨83, _⟩ => ⟨S8x2048x768, .f32⟩
  | .hbm, ⟨84, _⟩ => ⟨S8x2048x768, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S8x2048x768, .f32⟩
  | .hbm, ⟨92, _⟩ => ⟨S8x2048x768, .f32⟩
  | .hbm, ⟨93, _⟩ => ⟨S8x2048x768, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x768, .f32⟩
  | .hbm, ⟨101, _⟩ => ⟨S8x2048x768, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S8x2048x1, .f32⟩
  | .hbm, ⟨106, _⟩ => ⟨S8x2048x768, .f32⟩
  | .hbm, ⟨107, _⟩ => ⟨S8x2048x768, .f32⟩
  | .hbm, ⟨108, _⟩ => ⟨S1x1x768, .f32⟩
  | .hbm, ⟨109, _⟩ => ⟨S8x2048x768, .f32⟩
  | .hbm, ⟨110, _⟩ => ⟨S8x2048x768, .f32⟩
  | .hbm, ⟨111, _⟩ => ⟨S1x1x768, .f32⟩
  | .hbm, ⟨112, _⟩ => ⟨S8x2048x768, .f32⟩
  | .hbm, ⟨113, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S_S8x2048x768 : S_.BroadcastsInDim S8x2048x768 (![] : Fin 0 → Fin S8x2048x768.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x768_S8x2048_d2 : S8x2048x768.ReducesTo [2] S8x2048
  bcast_S_S8x2048x1 : S_.BroadcastsInDim S8x2048x1 (![] : Fin 0 → Fin S8x2048x1.rank)
  bcast_S8x2048x1_S8x2048x768_0_1_2 : S8x2048x1.BroadcastsInDim S8x2048x768 (![0, 1, 2] : Fin 3 → Fin S8x2048x768.rank)
  dot_S8x2048x768_S768x768_S8x2048x768_2_0_01_1_n_n_wf : DotDims.WF S8x2048x768 S768x768 S8x2048x768 [2] [0] [0, 1] [1] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.K0.lean ====
/-
  The first kernel region of the program (the fused projection: one matrix product of a 1024-row block of the
  flattened input with the 768 x 2304 concatenated weight, a bias, a maximum with zero, and three column slices
  rounded to bf16), run at every point of its 16-point grid, stated at a PARAMETER `V`: the contents of the
  arrays when the region is entered.

  Per point the body reads its three input blocks whole and overwrites each of its three output blocks whole, so
  what it leaves in an output block is a function of the three input blocks alone (`out0_3`, `out0_4`, `out0_5`:
  the three payloads laid over the block), and what it finds in an input block is the window's block of the
  array at that point. Everything is generic in the float instance: no fact about floats is used.
-/
import proofs.«107328_j81389630259580_2_alg».proof.Proof.Gen.Kernel.Launch
import proofs.«107328_j81389630259580_2_alg».proof.Proof.Gen.Kernel.Skeleton
import proofs.«107328_j81389630259580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of full extent is decided by structural recursion on the coordinates of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the arrays' contents when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every grid point, whether or not the block was
    fetched at that point: where it was not fetched the block index has not moved since the previous point, and the
    body leaves an input's buffer as it found it. Stated for any proof data whose array is the entry contents `V`
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each a whole block -/

abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0

/-! ## What the body leaves in each output block -/

/-- Output window 3's block after the body, as a function of the three input blocks: the one whole-block store's
    payload laid over the block. -/
def out0_3 (x0 : Vec F S1024x768 .f32) (x1 : Vec F S768x2304 .bf16) (x2 : Vec F S1x2304 .f32) : Vec F S1024x768 .bf16 :=
  View.canon [⟨r0_0, k0_pay2 (View.ld x0 r0_0) (View.ld x1 r0_1) (View.ld x2 r0_2)⟩]

/-- The one store covers the block: its rectangle is the whole block. -/
theorem cover0_3 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-- Output window 4's block after the body, as a function of the three input blocks: the one whole-block store's
    payload laid over the block. -/
def out0_4 (x0 : Vec F S1024x768 .f32) (x1 : Vec F S768x2304 .bf16) (x2 : Vec F S1x2304 .f32) : Vec F S1024x768 .bf16 :=
  View.canon [⟨r0_0, k0_pay3 (View.ld x0 r0_0) (View.ld x1 r0_1) (View.ld x2 r0_2)⟩]

/-- The one store covers the block: its rectangle is the whole block. -/
theorem cover0_4 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-- Output window 5's block after the body, as a function of the three input blocks: the one whole-block store's
    payload laid over the block. -/
def out0_5 (x0 : Vec F S1024x768 .f32) (x1 : Vec F S768x2304 .bf16) (x2 : Vec F S1x2304 .f32) : Vec F S1024x768 .bf16 :=
  View.canon [⟨r0_0, k0_pay4 (View.ld x0 r0_0) (View.ld x1 r0_1) (View.ld x2 r0_2)⟩]

/-- The one store covers the block: its rectangle is the whole block. -/
theorem cover0_5 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-! ## The body's triple -/

set_option maxHeartbeats 1000000 in
/-- The body on whole staging buffers, the inputs' reading `x0`, `x1`, `x2` and the outputs' holding anything, runs
    without fault to a state where the inputs' read as before and each output's reads `out0_W x0 x1 x2`. (The body
    also reads each output buffer once before overwriting it; the value read is not used.) -/
theorem sound_kernel0 (c : Dev nD) (E : Set ℕ) (i : grid0.Coords) (arg1 : Memref sig .tc .vmem S1024x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole)
    (x0 : Vec F S1024x768 .f32) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The region's proof data -/

/-- The proof data of the region on core `c`: the arrays as the region finds them; after the body at point `t` each
    input's buffer at its block and each output's at `out0_W` of the three input blocks; the invariant carries only
    what the body does not touch; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K1.lean ====
/-
  The second kernel region of the program (attention over a whole batch row with the softmax normalised after the
  product with the values, a residual and a row normalisation, a dense layer with bias and a residual, a second
  row normalisation), run at every point of its 8 x 8 grid, stated at a PARAMETER `V`: the contents of the arrays
  when the region is entered.

  Per point the body reads its ten input blocks whole (a 256-row block of the residual input and of the queries,
  the batch's 2048 rows of keys and of values, and six parameter blocks that are the same at every point) and
  overwrites its one output block whole, so what it leaves there is a function of the ten input blocks alone
  (`out1_10`), and what it finds in an input block is the window's block of the array at that point. Everything is
  generic in the float instance: no fact about floats is used.
-/
import proofs.«107328_j81389630259580_2_alg».proof.Proof.Gen.Kernel.Launch
import proofs.«107328_j81389630259580_2_alg».proof.Proof.Gen.Kernel.Skeleton
import proofs.«107328_j81389630259580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of full extent is decided by structural recursion on the coordinates of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the arrays' contents when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every grid point, whether or not the block was
    fetched at that point: where it was not fetched the block index has not moved since the previous point, and the
    body leaves an input's buffer as it found it. Stated for any proof data whose array is the entry contents `V`
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each a whole block -/

abbrev r1_0 : Rect S1x256x768 := Rect.unit (s := S1x256x768) ![0, 0, 0] S1x256x768.size inb_S1x256x768_S1x256x768_0_0_0
abbrev r1_2 : Rect S1x2048x768 := Rect.unit (s := S1x2048x768) ![0, 0, 0] S1x2048x768.size inb_S1x2048x768_S1x2048x768_0_0_0
abbrev r1_4 : Rect S1x768 := Rect.unit (s := S1x768) ![0, 0] S1x768.size inb_S1x768_S1x768_0_0
abbrev r1_6 : Rect S768x768 := Rect.unit (s := S768x768) ![0, 0] S768x768.size inb_S768x768_S768x768_0_0

/-! ## What the body leaves in the output block -/

/-- The output window's block after the body, as a function of the ten input blocks: the one whole-block store's
    payload laid over the block. The payload composes the two halves of the body: the attention rows with the
    first normalisation's centred rows and inverse deviations (from the query, key, value and residual blocks),
    then the scale and shift, the dense layer, the second normalisation and its scale (from the five parameter
    blocks), and last the second shift. -/
def out1_10 (x0 : Vec F S1x256x768 .f32) (x1 : Vec F S1x256x768 .bf16) (x2 : Vec F S1x2048x768 .bf16) (x3 : Vec F S1x2048x768 .bf16) (x4 : Vec F S1x768 .f32) (x5 : Vec F S1x768 .f32) (x6 : Vec F S768x768 .bf16) (x7 : Vec F S1x768 .f32) (x8 : Vec F S1x768 .f32) (x9 : Vec F S1x768 .f32) : Vec F S1x256x768 .f32 :=
  View.canon [⟨r1_0, k1_pay1 (k1_pay6 (k1_pay4 (View.ld x0 r1_0) (View.ld x1 r1_0) (View.ld x2 r1_2) (View.ld x3 r1_2)) (k1_pay5 (View.ld x0 r1_0) (View.ld x1 r1_0) (View.ld x2 r1_2) (View.ld x3 r1_2)) (View.ld x4 r1_4) (View.ld x5 r1_4) (View.ld x6 r1_6) (View.ld x7 r1_4) (View.ld x8 r1_4)) (View.ld x9 r1_4)⟩]

/-- The one store covers the block: its rectangle is the whole block. -/
theorem cover1_10 (p0 : Vec F S1x256x768 .f32) (y : S1x256x768.Idx) :
    ∃ pc ∈ ([⟨r1_0, p0⟩] : List (View.Piece (Elt F) S1x256x768 .f32)), y ∈ pc.1.set :=
  View.cover_of_tiled [⟨r1_0, p0⟩] S1x256x768.size (by rfl) y

/-! ## The body's triple -/

set_option maxHeartbeats 1000000 in
/-- The body on whole staging buffers, the ten inputs' reading `x0` … `x9` and the output's holding anything, runs
    without fault to a state where the inputs' read as before and the output's reads `out1_10 x0 … x9`. (The body
    also reads the output buffer once before overwriting it; the value read is not used.) -/
theorem sound_kernel1 (c : Dev nD) (E : Set ℕ) (i : grid1.Coords) (arg2 : Memref sig .tc .vmem S1x256x768 .f32) (harg2 : arg2.IsWhole) (arg3 : Memref sig .tc .vmem S1x256x768 .bf16) (harg3 : arg3.IsWhole) (arg4 : Memref sig .tc .vmem S1x2048x768 .bf16) (harg4 : arg4.IsWhole) (arg5 : Memref sig .tc .vmem S1x2048x768 .bf16) (harg5 : arg5.IsWhole) (arg6 : Memref sig .tc .vmem S1x768 .f32) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x256x768 .f32) (harg12 : arg12.IsWhole)
    (x0 : Vec F S1x256x768 .f32) (x1 : Vec F S1x256x768 .bf16) (x2 : Vec F S1x2048x768 .bf16) (x3 : Vec F S1x2048x768 .bf16) (x4 : Vec F S1x768 .f32) (x5 : Vec F S1x768 .f32) (x6 : Vec F S768x768 .bf16) (x7 : Vec F S1x768 .f32) (x8 : Vec F S1x768 .f32) (x9 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out1_10 x0 x1 x2 x3 x4 x5 x6 x7 x8 x9)) -∗ K ⟨⟩))
      ⊢ wp frame (wpE (defs₀ (F := F)) Variants.none c none) E (cc1__attn_ffn_kernel i arg2 harg2 arg3 harg3 arg4 harg4 arg5 harg5 arg6 harg6 arg7 harg7 arg8 harg8 arg9 harg9 arg10 harg10 arg11 harg11 arg12 harg12) K := by
  simp only [cc1__attn_ffn_kernel_eq_skeleton]; unfold cc1__attn_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The region's proof data -/

/-- The proof data of the region on core `c`: the arrays as the region finds them; after the body at point `t` each
    input's buffer at its block and the output's at `out1_10` of the ten input blocks; the invariant carries only
    what the body does not touch; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun.lean ====
/-
  The run of the whole program: five host operations (a reshape of the input, the two concatenations of the
  projection weights and biases, a rounding to bf16, a reshape), the first kernel region, nine host operations
  (reshapes of the three projections and of the parameter vectors, a rounding of the dense weight), the second
  kernel region.

  The contents of every unscoped buffer are followed through the four segments as a fold from the launch memory
  (`W0` … `W4`): a host stretch applies its operations, a region replaces its arrays by what its write-backs
  leave and keeps every other buffer. Every weakly fair execution terminates without fault with every unscoped
  buffer at `W4`; no segment writes an argument array, so each ends as launched. Generic in the float instance.
-/
import proofs.«107328_j81389630259580_2_alg».proof.Proof.K0
import proofs.«107328_j81389630259580_2_alg».proof.Proof.K1
import proofs.«107328_j81389630259580_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents at each segment boundary: a fold through the program -/

/-- Core `c`'s buffers at launch. -/
abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

/-- After the first host stretch (the first region's entry). -/
abbrev W1 : Dev nD → Valuation τ sig (Elt F) := fun c => StableHlo.after hostOps0 (W0 m ρ c)
/-- The same read at the core's own references (what the first region's proof data take). -/
abbrev E1 : (c : Dev nD) → (b : Ref sig .tc) → Buf (Elt F) ((c : Thread nD τ).loc b) := fun c b => W1 m ρ c b
/-- At the first region's exit: its arrays at what the region leaves (an input as entered, an output with every
    point's block written back), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references. -/
abbrev E2 : (c : Dev nD) → (b : Ref sig .tc) → Buf (Elt F) ((c : Thread nD τ).loc b) := fun c b => W2 m ρ c b
/-- At the first region's exit each of its arrays holds what the region leaves, and every other buffer what it held
    at entry. -/
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the core's own references (what the second region's proof data take). -/
abbrev E3 : (c : Dev nD) → (b : Ref sig .tc) → Buf (Elt F) ((c : Thread nD τ).loc b) := fun c b => W3 m ρ c b
/-- At the second region's exit: its arrays at what the region leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! ### The arguments end as launched: no host operation writes one and no region has one as an output (the second
    region reads the first argument through an input window, which leaves the array as entered), so the fold at an
    argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (E3 m ρ) c).arrAt_in 0 rfl _).trans (A_eq1 (E3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W4`,
    the generator register at some state. -/
abbrev Tₙ (c : Dev nD) : sProp 𝕄 := iprop(StableHlo.held (c : Thread nD τ) (Pipeline.ucRefs τ sig) (W4 m ρ c) ∗ ∃ r, prngReg c r)

/-! ## The regions as segments -/

-- applying a library lemma stated over a pinned pipeline configuration needs unification to unfold plain
-- definitions in the type of a metavariable
set_option backward.isDefEq.respectTransparency.types false in
/-- Region 0 as a segment of the run: entered with every unscoped buffer at `W1`, left with them at the
    region's exit contents. Its arrays are split out of the unscoped buffers at entry and put back at the exit
    contents; the generator register goes into the region's invariant and comes back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned pipeline configuration needs unification to unfold plain
-- definitions in the type of a metavariable
set_option backward.isDefEq.respectTransparency.types false in
/-- Region 1 as a segment of the run: entered with every unscoped buffer at `W3`, left with them at the
    region's exit contents. Its arrays are split out of the unscoped buffers at entry and put back at the exit
    contents; the generator register goes into the region's invariant and comes back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (msegs m ρ) := (main_chain c).trans (by chain_rfl)

set_option backward.isDefEq.respectTransparency.types false in
/-- THE RUN: from any memory `m` with every semaphore counter at zero, every weakly fair execution of the program
    terminates, nothing faulting, and in every final state every unscoped buffer of every core holds the last
    boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution terminates, nothing faulting, and every argument array ends holding its
    launch contents: each is an unscoped buffer, read at the last boundary's contents, which at an argument are the
    launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c)⟩) (run m ρ)

end Cert.Kernel.Hand

end
-- ==== Proof.KI0.lean ====
/-
  The first kernel region of the program (the fused projection: one matrix product of a 1024-row block of the
  flattened input with the 768 x 2304 concatenated weight, a bias, a maximum with zero, and three column slices
  rounded to bf16), run at every point of its 16-point grid, stated at a PARAMETER `V`: the contents of the
  arrays when the region is entered.

  Per point the body reads its three input blocks whole and overwrites each of its three output blocks whole, so
  what it leaves in an output block is a function of the three input blocks alone (`out0_3`, `out0_4`, `out0_5`:
  the three payloads laid over the block), and what it finds in an input block is the window's block of the
  array at that point. Everything is generic in the float instance: no fact about floats is used.
-/
import proofs.«107328_j81389630259580_2_alg».proof.Proof.Gen.KernelIdeal.Launch
import proofs.«107328_j81389630259580_2_alg».proof.Proof.Gen.KernelIdeal.Skeleton
import proofs.«107328_j81389630259580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of full extent is decided by structural recursion on the coordinates of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the arrays' contents when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every grid point, whether or not the block was
    fetched at that point: where it was not fetched the block index has not moved since the previous point, and the
    body leaves an input's buffer as it found it. Stated for any proof data whose array is the entry contents `V`
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each a whole block -/

abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0

/-! ## What the body leaves in each output block -/

/-- Output window 3's block after the body, as a function of the three input blocks: the one whole-block store's
    payload laid over the block. -/
def out0_3 (x0 : Vec F S1024x768 .f32) (x1 : Vec F S768x2304 .bf16) (x2 : Vec F S1x2304 .f32) : Vec F S1024x768 .bf16 :=
  View.canon [⟨r0_0, k0_pay2 (View.ld x0 r0_0) (View.ld x1 r0_1) (View.ld x2 r0_2)⟩]

/-- The one store covers the block: its rectangle is the whole block. -/
theorem cover0_3 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-- Output window 4's block after the body, as a function of the three input blocks: the one whole-block store's
    payload laid over the block. -/
def out0_4 (x0 : Vec F S1024x768 .f32) (x1 : Vec F S768x2304 .bf16) (x2 : Vec F S1x2304 .f32) : Vec F S1024x768 .bf16 :=
  View.canon [⟨r0_0, k0_pay3 (View.ld x0 r0_0) (View.ld x1 r0_1) (View.ld x2 r0_2)⟩]

/-- The one store covers the block: its rectangle is the whole block. -/
theorem cover0_4 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-- Output window 5's block after the body, as a function of the three input blocks: the one whole-block store's
    payload laid over the block. -/
def out0_5 (x0 : Vec F S1024x768 .f32) (x1 : Vec F S768x2304 .bf16) (x2 : Vec F S1x2304 .f32) : Vec F S1024x768 .bf16 :=
  View.canon [⟨r0_0, k0_pay4 (View.ld x0 r0_0) (View.ld x1 r0_1) (View.ld x2 r0_2)⟩]

/-- The one store covers the block: its rectangle is the whole block. -/
theorem cover0_5 (p0 : Vec F S1024x768 .bf16) (y : S1024x768.Idx) :
    ∃ pc ∈ ([⟨r0_0, p0⟩] : List (View.Piece (Elt F) S1024x768 .bf16)), y ∈ pc.1.set :=
  View.cover_of_tiled [⟨r0_0, p0⟩] S1024x768.size (by rfl) y

/-! ## The body's triple -/

set_option maxHeartbeats 1000000 in
/-- The body on whole staging buffers, the inputs' reading `x0`, `x1`, `x2` and the outputs' holding anything, runs
    without fault to a state where the inputs' read as before and each output's reads `out0_W x0 x1 x2`. (The body
    also reads each output buffer once before overwriting it; the value read is not used.) -/
theorem sound_kernel0 (c : Dev nD) (E : Set ℕ) (i : grid0.Coords) (arg1 : Memref sig .tc .vmem S1024x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole)
    (x0 : Vec F S1024x768 .f32) (x1 : Vec F S768x2304 .bf16) (x2 : Vec F S1x2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The region's proof data -/

/-- The proof data of the region on core `c`: the arrays as the region finds them; after the body at point `t` each
    input's buffer at its block and each output's at `out0_W` of the three input blocks; the invariant carries only
    what the body does not touch; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI1.lean ====
/-
  The second kernel region of the program (attention over a whole batch row with the softmax normalised after the
  product with the values, a residual and a row normalisation, a dense layer with bias and a residual, a second
  row normalisation), run at every point of its 8 x 8 grid, stated at a PARAMETER `V`: the contents of the arrays
  when the region is entered.

  Per point the body reads its ten input blocks whole (a 256-row block of the residual input and of the queries,
  the batch's 2048 rows of keys and of values, and six parameter blocks that are the same at every point) and
  overwrites its one output block whole, so what it leaves there is a function of the ten input blocks alone
  (`out1_10`), and what it finds in an input block is the window's block of the array at that point. Everything is
  generic in the float instance: no fact about floats is used.
-/
import proofs.«107328_j81389630259580_2_alg».proof.Proof.Gen.KernelIdeal.Launch
import proofs.«107328_j81389630259580_2_alg».proof.Proof.Gen.KernelIdeal.Skeleton
import proofs.«107328_j81389630259580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of full extent is decided by structural recursion on the coordinates of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the arrays' contents when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every grid point, whether or not the block was
    fetched at that point: where it was not fetched the block index has not moved since the previous point, and the
    body leaves an input's buffer as it found it. Stated for any proof data whose array is the entry contents `V`
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every grid point, whether or not the block was
    fetched at that point: where it was not fetched the block index has not moved since the previous point, and the
    body leaves an input's buffer as it found it. Stated for any proof data whose array is the entry contents `V`
    and whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each a whole block -/

abbrev r1_0 : Rect S1x256x768 := Rect.unit (s := S1x256x768) ![0, 0, 0] S1x256x768.size inb_S1x256x768_S1x256x768_0_0_0
abbrev r1_2 : Rect S1x2048x768 := Rect.unit (s := S1x2048x768) ![0, 0, 0] S1x2048x768.size inb_S1x2048x768_S1x2048x768_0_0_0
abbrev r1_4 : Rect S1x768 := Rect.unit (s := S1x768) ![0, 0] S1x768.size inb_S1x768_S1x768_0_0
abbrev r1_6 : Rect S768x768 := Rect.unit (s := S768x768) ![0, 0] S768x768.size inb_S768x768_S768x768_0_0

/-! ## What the body leaves in the output block -/

/-- The output window's block after the body, as a function of the ten input blocks: the one whole-block store's
    payload laid over the block. The payload composes the two halves of the body: the attention rows with the
    first normalisation's centred rows and inverse deviations (from the query, key, value and residual blocks),
    then the scale and shift, the dense layer, the second normalisation and its scale (from the five parameter
    blocks), and last the second shift. -/
def out1_10 (x0 : Vec F S1x256x768 .f32) (x1 : Vec F S1x256x768 .bf16) (x2 : Vec F S1x2048x768 .bf16) (x3 : Vec F S1x2048x768 .bf16) (x4 : Vec F S1x768 .f32) (x5 : Vec F S1x768 .f32) (x6 : Vec F S768x768 .bf16) (x7 : Vec F S1x768 .f32) (x8 : Vec F S1x768 .f32) (x9 : Vec F S1x768 .f32) : Vec F S1x256x768 .f32 :=
  View.canon [⟨r1_0, k1_pay1 (k1_pay6 (k1_pay4 (View.ld x0 r1_0) (View.ld x1 r1_0) (View.ld x2 r1_2) (View.ld x3 r1_2)) (k1_pay5 (View.ld x0 r1_0) (View.ld x1 r1_0) (View.ld x2 r1_2) (View.ld x3 r1_2)) (View.ld x4 r1_4) (View.ld x5 r1_4) (View.ld x6 r1_6) (View.ld x7 r1_4) (View.ld x8 r1_4)) (View.ld x9 r1_4)⟩]

/-- The one store covers the block: its rectangle is the whole block. -/
theorem cover1_10 (p0 : Vec F S1x256x768 .f32) (y : S1x256x768.Idx) :
    ∃ pc ∈ ([⟨r1_0, p0⟩] : List (View.Piece (Elt F) S1x256x768 .f32)), y ∈ pc.1.set :=
  View.cover_of_tiled [⟨r1_0, p0⟩] S1x256x768.size (by rfl) y

/-! ## The body's triple -/

set_option maxHeartbeats 1000000 in
/-- The body on whole staging buffers, the ten inputs' reading `x0` … `x9` and the output's holding anything, runs
    without fault to a state where the inputs' read as before and the output's reads `out1_10 x0 … x9`. (The body
    also reads the output buffer once before overwriting it; the value read is not used.) -/
theorem sound_kernel1 (c : Dev nD) (E : Set ℕ) (i : grid1.Coords) (arg2 : Memref sig .tc .vmem S1x256x768 .f32) (harg2 : arg2.IsWhole) (arg3 : Memref sig .tc .vmem S1x256x768 .bf16) (harg3 : arg3.IsWhole) (arg4 : Memref sig .tc .vmem S1x2048x768 .bf16) (harg4 : arg4.IsWhole) (arg5 : Memref sig .tc .vmem S1x2048x768 .bf16) (harg5 : arg5.IsWhole) (arg6 : Memref sig .tc .vmem S1x768 .f32) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x256x768 .f32) (harg12 : arg12.IsWhole)
    (x0 : Vec F S1x256x768 .f32) (x1 : Vec F S1x256x768 .bf16) (x2 : Vec F S1x2048x768 .bf16) (x3 : Vec F S1x2048x768 .bf16) (x4 : Vec F S1x768 .f32) (x5 : Vec F S1x768 .f32) (x6 : Vec F S768x768 .bf16) (x7 : Vec F S1x768 .f32) (x8 : Vec F S1x768 .f32) (x9 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out1_10 x0 x1 x2 x3 x4 x5 x6 x7 x8 x9)) -∗ K ⟨⟩))
      ⊢ wp frame (wpE (defs₀ (F := F)) Variants.none c none) E (cc1__attn_ffn_kernel i arg2 harg2 arg3 harg3 arg4 harg4 arg5 harg5 arg6 harg6 arg7 harg7 arg8 harg8 arg9 harg9 arg10 harg10 arg11 harg11 arg12 harg12) K := by
  simp only [cc1__attn_ffn_kernel_eq_skeleton]; unfold cc1__attn_ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The region's proof data -/

/-- The proof data of the region on core `c`: the arrays as the region finds them; after the body at point `t` each
    input's buffer at its block and the output's at `out1_10` of the ten input blocks; the invariant carries only
    what the body does not touch; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIRun.lean ====
/-
  The run of the whole program: five host operations (a reshape of the input, the two concatenations of the
  projection weights and biases, a rounding to bf16, a reshape), the first kernel region, nine host operations
  (reshapes of the three projections and of the parameter vectors, a rounding of the dense weight), the second
  kernel region.

  The contents of every unscoped buffer are followed through the four segments as a fold from the launch memory
  (`W0` … `W4`): a host stretch applies its operations, a region replaces its arrays by what its write-backs
  leave and keeps every other buffer. Every weakly fair execution terminates without fault with every unscoped
  buffer at `W4`; no segment writes an argument array, so each ends as launched. Generic in the float instance.
-/
import proofs.«107328_j81389630259580_2_alg».proof.Proof.KI0
import proofs.«107328_j81389630259580_2_alg».proof.Proof.KI1
import proofs.«107328_j81389630259580_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents at each segment boundary: a fold through the program -/

/-- Core `c`'s buffers at launch. -/
abbrev W0 (m : (ℓ : Loc nD τ sig) → Buf (Elt F) ℓ) (ρ : Dev nD → PrngReg) : Dev nD → Valuation τ sig (Elt F) := fun c b => m ((c : Dev nD), b)

variable (m : (ℓ : Loc nD τ sig) → Buf (Elt F) ℓ) (ρ : Dev nD → PrngReg)

/-- After the first host stretch (the first region's entry). -/
abbrev W1 : Dev nD → Valuation τ sig (Elt F) := fun c => StableHlo.after hostOps0 (W0 m ρ c)
/-- The same read at the core's own references (what the first region's proof data take). -/
abbrev E1 : (c : Dev nD) → (b : Ref sig .tc) → Buf (Elt F) ((c : Thread nD τ).loc b) := fun c b => W1 m ρ c b
/-- At the first region's exit: its arrays at what the region leaves (an input as entered, an output with every
    point's block written back), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references. -/
abbrev E2 : (c : Dev nD) → (b : Ref sig .tc) → Buf (Elt F) ((c : Thread nD τ).loc b) := fun c b => W2 m ρ c b
/-- At the first region's exit each of its arrays holds what the region leaves, and every other buffer what it held
    at entry. -/
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the core's own references (what the second region's proof data take). -/
abbrev E3 : (c : Dev nD) → (b : Ref sig .tc) → Buf (Elt F) ((c : Thread nD τ).loc b) := fun c b => W3 m ρ c b
/-- At the second region's exit: its arrays at what the region leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! ### The arguments end as launched: no host operation writes one and no region has one as an output (the second
    region reads the first argument through an input window, which leaves the array as entered), so the fold at an
    argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (E3 m ρ) c).arrAt_in 0 rfl _).trans (A_eq1 (E3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W4`,
    the generator register at some state. -/
abbrev Tₙ (c : Dev nD) : sProp 𝕄 := iprop(StableHlo.held (c : Thread nD τ) (Pipeline.ucRefs τ sig) (W4 m ρ c) ∗ ∃ r, prngReg c r)

/-! ## The regions as segments -/

-- applying a library lemma stated over a pinned pipeline configuration needs unification to unfold plain
-- definitions in the type of a metavariable
set_option backward.isDefEq.respectTransparency.types false in
/-- Region 0 as a segment of the run: entered with every unscoped buffer at `W1`, left with them at the
    region's exit contents. Its arrays are split out of the unscoped buffers at entry and put back at the exit
    contents; the generator register goes into the region's invariant and comes back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned pipeline configuration needs unification to unfold plain
-- definitions in the type of a metavariable
set_option backward.isDefEq.respectTransparency.types false in
/-- Region 1 as a segment of the run: entered with every unscoped buffer at `W3`, left with them at the
    region's exit contents. Its arrays are split out of the unscoped buffers at entry and put back at the exit
    contents; the generator register goes into the region's invariant and comes back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (msegs m ρ) := (main_chain c).trans (by chain_rfl)

set_option backward.isDefEq.respectTransparency.types false in
/-- THE RUN: from any memory `m` with every semaphore counter at zero, every weakly fair execution of the program
    terminates, nothing faulting, and in every final state every unscoped buffer of every core holds the last
    boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution terminates, nothing faulting, and every argument array ends holding its
    launch contents: each is an unscoped buffer, read at the last boundary's contents, which at an argument are the
    launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c)⟩) (run m ρ)

end Cert.KernelIdeal.Hand

end
-- ==== Proof.Frames.lean ====
/-
  The three frame conjuncts of the claim: under the precondition (which none of them uses) each program runs to
  the end from any memory, faults nowhere, and leaves its argument arrays as launched. For the two kernel programs
  this is the run of their segments read at the argument buffers; for the reference, which has no kernel region,
  it is its run with the statement about the result dropped.
-/
import proofs.«107328_j81389630259580_2_alg».proof.Defs
import proofs.«107328_j81389630259580_2_alg».proof.Proof.KRun
import proofs.«107328_j81389630259580_2_alg».proof.Proof.KIRun
import proofs.«107328_j81389630259580_2_alg».proof.Proof.RefRunP
import proofs.«107328_j81389630259580_2_alg».proof.Proof.Gen.Pre_finite_inputs

noncomputable section

namespace Cert.Proof.Frames

open Idealize.ShloMosaic Idealize.SL.Sem

/-- The word-level kernel program's frame. -/
theorem frame_k : Cert.frame_Kernel (hKernel := Cert.Kernel.Gen.facts) (hPre_finite_inputs := Cert.Pre_finite_inputs.Gen.facts) :=
  fun m ρ _ => Cert.Kernel.Hand.frame m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The idealized reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.Proof.Frames

end
-- ==== Proof.Spec.lean ====
/-
  The mathematics both programs compute, written once over plain index types.

  A transformer layer on an [8, 2048, 768] input X: three ReLU-gated projections Q, K, V = max (X·W + b) 0; for
  every batch b and query row q the scores s_k = ⟨Q[b,q], K[b,k]⟩, the shifted exponentials e_k = exp (s_k - max_k s_k)
  and their sum l = Σ_k e_k; the attention row Σ_k (e_k / l) · V[b,k]; a residual and a LayerNorm; a dense layer
  with bias and a residual; a second LayerNorm.

  Two spellings differ only in where the softmax is normalised and how one three-term sum is bracketed:
  * LATE  : (Σ_k e_k · V[b,k,d]) / l, and x + (x·Wd + bd);
  * EARLY : Σ_k (e_k / l) · V[b,k,d], and (x + x·Wd) + bd.
  They agree as soon as l is a positive real number, which holds when the scores are real (`late_eq_early`).
  Every float literal is kept as the extended real its bit pattern denotes; none is evaluated except the
  lower bound -∞ of the row maximum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- A [8, 2048, 768] array by coordinates. -/
abbrev T3 : Type := Fin 8 → Fin 2048 → Fin 768 → EReal
/-- A [768, 768] matrix by coordinates. -/
abbrev M2 : Type := Fin 768 → Fin 768 → EReal
/-- A [768] vector by coordinates. -/
abbrev V1 : Type := Fin 768 → EReal

/-- The literals, as the extended reals their f32 words denote: -∞, 0, 768 and the LayerNorm's ε. -/
abbrev negInf : EReal := Ideal.ofBits .f32 0xFF800000#32
abbrev zeroW : EReal := Ideal.ofBits .f32 0x00000000#32
abbrev n768 : EReal := Ideal.ofBits .f32 0x44400000#32
abbrev epsW : EReal := Ideal.ofBits .f32 0x3727C5AC#32

/-- An array of the three shapes read by coordinates, and back. -/
def toT3 (x : (⟨3, ![8, 2048, 768]⟩ : Shape).Idx → EReal) : T3 := fun a b c => x (ix3 a b c)
def toM2 (x : (⟨2, ![768, 768]⟩ : Shape).Idx → EReal) : M2 := fun a b => x (ix2 a b)
def toV1 (x : (⟨1, ![768]⟩ : Shape).Idx → EReal) : V1 := fun a => x (ix1 a)
def ofT3 (f : T3) : (⟨3, ![8, 2048, 768]⟩ : Shape).Idx → EReal :=
  fun i => f ⟨(i 0).val, (i 0).isLt⟩ ⟨(i 1).val, (i 1).isLt⟩ ⟨(i 2).val, (i 2).isLt⟩

/-- A ReLU-gated projection: max (Σ_d X[b,s,d] · W[d,e] + b[e]) 0. -/
def proj (X : T3) (W : M2) (b : V1) : T3 :=
  fun bi s e => max ((∑ d : Fin 768, X bi s d * W d e) + b e) zeroW

/-- The score of query row q against key row k of batch bi. -/
def score (Q K : T3) (bi : Fin 8) (q k : Fin 2048) : EReal := ∑ e : Fin 768, Q bi q e * K bi k e

/-- A row's maximum, folded from -∞. -/
def rowMax (s : Fin 2048 → EReal) : EReal := (Finset.univ : Finset (Fin 2048)).fold max negInf s

/-- The shifted exponential e_k and the row's sum l. -/
def ex (Q K : T3) (bi : Fin 8) (q k : Fin 2048) : EReal :=
  Ideal.exp (score Q K bi q k - rowMax (score Q K bi q))
def den (Q K : T3) (bi : Fin 8) (q : Fin 2048) : EReal := ∑ k : Fin 2048, ex Q K bi q k

/-- Attention normalised AFTER the product with V. -/
def attnLate (Q K V : T3) : T3 :=
  fun bi q d => Ideal.div (∑ k : Fin 2048, ex Q K bi q k * V bi k d) (den Q K bi q)
/-- Attention normalised BEFORE the product with V (a softmax, then the product). -/
def attnEarly (Q K V : T3) : T3 :=
  fun bi q d => ∑ k : Fin 2048, Ideal.div (ex Q K bi q k) (den Q K bi q) * V bi k d

/-- A row's mean and its LayerNorm with scale g and shift b. -/
def mean (y : V1) : EReal := Ideal.div (∑ j : Fin 768, y j) n768
def norm (y g b : V1) : V1 := fun d =>
  (y d - mean y) * Ideal.rsqrt (Ideal.div (∑ j : Fin 768, (y j - mean y) * (y j - mean y)) n768 + epsW) * g d + b d

/-- A row times the dense layer's matrix. -/
def ffn (x : V1) (Wd : M2) : V1 := fun d => ∑ j : Fin 768, x j * Wd j d

/-- The layer after attention, the three-term sum bracketed x + (x·Wd + bd). -/
def tailLate (X A : T3) (g1 b1 : V1) (Wd : M2) (bd g2 b2 : V1) : T3 := fun bi s =>
  norm (fun d => norm (fun d => X bi s d + A bi s d) g1 b1 d
    + (ffn (norm (fun d => X bi s d + A bi s d) g1 b1) Wd d + bd d)) g2 b2
/-- The same bracketed (x + x·Wd) + bd. -/
def tailEarly (X A : T3) (g1 b1 : V1) (Wd : M2) (bd g2 b2 : V1) : T3 := fun bi s =>
  norm (fun d => (norm (fun d => X bi s d + A bi s d) g1 b1 d
    + ffn (norm (fun d => X bi s d + A bi s d) g1 b1) Wd d) + bd d) g2 b2

/-- The whole layer in the two spellings. -/
def fullLate (X : T3) (Wq : M2) (bq : V1) (Wk : M2) (bk : V1) (Wv : M2) (bv : V1) (Wd : M2) (bd g1 b1 g2 b2 : V1) : T3 :=
  tailLate X (attnLate (proj X Wq bq) (proj X Wk bk) (proj X Wv bv)) g1 b1 Wd bd g2 b2
def fullEarly (X : T3) (Wq : M2) (bq : V1) (Wk : M2) (bk : V1) (Wv : M2) (bv : V1) (Wd : M2) (bd g1 b1 g2 b2 : V1) : T3 :=
  tailEarly X (attnEarly (proj X Wq bq) (proj X Wk bk) (proj X Wv bv)) g1 b1 Wd bd g2 b2

/-- "Every entry is a real number." -/
def Real3 (X : T3) : Prop := ∀ a b c, ∃ r : ℝ, X a b c = (r : EReal)
def Real2 (W : M2) : Prop := ∀ a b, ∃ r : ℝ, W a b = (r : EReal)
def Real1 (v : V1) : Prop := ∀ a, ∃ r : ℝ, v a = (r : EReal)

end Cert.Attn

end
-- ==== Proof.RowSpec.lean ====
/-
  The layer one row at a time.

  Everything after the projections acts on a single query row: given the row x of X, the row q of Q and the
  batch's key and value matrices K, V (2048 rows each), the output row is
      norm₂ (x₁ + (x₁·Wd + bd)),   x₁ = norm₁ (x + attn),   attn = (Σ_k e_k · V[k]) / Σ_k e_k,   e_k = exp (⟨q, K[k]⟩ - max_k ⟨q, K[k]⟩).
  The whole-array function of the specification, in its late-normalised spelling, is this row function at every (batch, row):
  `fullLate_row`, by unfolding.
-/
import proofs.«107328_j81389630259580_2_alg».proof.Proof.Spec

noncomputable section

namespace Cert.Attn

open Idealize.ShloMosaic

/-- The scores of one query row against the 2048 key rows. -/
def rowScore (q : V1) (K : Fin 2048 → V1) (k : Fin 2048) : EReal := ∑ e : Fin 768, q e * K k e
/-- Their shifted exponentials. -/
def rowEx (q : V1) (K : Fin 2048 → V1) (k : Fin 2048) : EReal := Ideal.exp (rowScore q K k - rowMax (rowScore q K))
/-- The attention row, normalised after the product with V. -/
def rowAttn (q : V1) (K V : Fin 2048 → V1) (d : Fin 768) : EReal :=
  Ideal.div (∑ k : Fin 2048, rowEx q K k * V k d) (∑ k : Fin 2048, rowEx q K k)
/-- The rest of the layer on a row x with attention row a. -/
def rowTail (x a g1 b1 : V1) (Wd : M2) (bd g2 b2 : V1) : V1 :=
  norm (fun d => norm (fun d => x d + a d) g1 b1 d + (ffn (norm (fun d => x d + a d) g1 b1) Wd d + bd d)) g2 b2
/-- The output row. -/
def rowOut (x q : V1) (K V : Fin 2048 → V1) (g1 b1 : V1) (Wd : M2) (bd g2 b2 : V1) : V1 :=
  rowTail x (rowAttn q K V) g1 b1 Wd bd g2 b2

/-- The late-normalised layer is the row function at every (batch, row). -/
theorem fullLate_row (X : T3) (Wq : M2) (bq : V1) (Wk : M2) (bk : V1) (Wv : M2) (bv : V1) (Wd : M2) (bd g1 b1 g2 b2 : V1)
    (bi : Fin 8) (s : Fin 2048) :
    fullLate X Wq bq Wk bk Wv bv Wd bd g1 b1 g2 b2 bi s
      = rowOut (X bi s) (proj X Wq bq bi s) (proj X Wk bk bi) (proj X Wv bv bi) g1 b1 Wd bd g2 b2 := rfl

end Cert.Attn

end
-- ==== Proof.HostGlue.lean ====
/-
  The host operations around the two kernels, read at an index.

  Before the first kernel the program flattens X from [8, 2048, 768] to [16384, 768] (row bi·2048 + s of the flat array
  is row s of batch bi), lays the three [768, 768] weight matrices side by side as one [768, 2304] matrix (columns
  0 …, 768 … and 1536 …) and changes its format, and lays the three [768] biases end to end as one [1, 2304] row.
  Between the kernels it folds each [16384, 768] result back to [8, 2048, 768], reads each [768] vector as a [1, 768] row,
  and changes the dense layer's matrix's format. Every one of these moves entries and changes none: at the ideal
  instance each written buffer at an index IS one entry of one buffer that was there before.
-/
import proofs.«107328_j81389630259580_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostGlue

open Cert.KernelIdeal Cert.KernelIdeal.Gen Idealize.ShloMosaic Idealize.ShloMosaic.ValueIdx Idealize.ShloMosaic.StableHlo

variable (W : Valuation τ sig (Elt Ideal))

/-! ## Before the first kernel -/

/-- The flattened X is a shape cast of X. -/
theorem v0_eq :
    (StableHlo.after hostOps0 W (Proc.devRef .tc main_v0) : S16384x768.Idx → EReal)
      = shapeCast S16384x768 (W (Proc.devRef .tc main_arg0) : S8x2048x768.Idx → EReal) shapeCasts_S8x2048x768_S16384x768 := by
  after_results; rfl

/-- Row r of the flattened X is row r % 2048 of batch r / 2048. -/
theorem v0_apply (r : Fin 16384) (d : Fin 768) :
    StableHlo.after hostOps0 W (Proc.devRef .tc main_v0) (ix2 r d)
      = W (Proc.devRef .tc main_arg0) (ix3 (⟨r.val / 2048, by omega⟩ : Fin 8) (⟨r.val % 2048, by omega⟩ : Fin 2048) d) := by
  refine (congrFun (v0_eq W) (ix2 r d)).trans ?_
  refine shapeCast_apply (s := S8x2048x768) (t := S16384x768) _ _ _ _ ?_
  rw [Shape.rowMajor_val_three, Shape.rowMajor_val_two]
  show (r.val / 2048 * 2048 + r.val % 2048) * 768 + d.val = r.val * 768 + d.val
  omega

/-- Row bi·2048 + s of the flattened X is row s of batch bi. -/
theorem v0_apply' (bi : Fin 8) (s : Fin 2048) (d : Fin 768) :
    StableHlo.after hostOps0 W (Proc.devRef .tc main_v0) (ix2 (⟨bi.val * 2048 + s.val, by omega⟩ : Fin 16384) d)
      = W (Proc.devRef .tc main_arg0) (ix3 bi s d) := by
  refine (congrFun (v0_eq W) _).trans ?_
  refine shapeCast_apply (s := S8x2048x768) (t := S16384x768) _ _ _ _ ?_
  rw [Shape.rowMajor_val_three, Shape.rowMajor_val_two]
  rfl

/-- The three weight matrices, in the order they are laid side by side. -/
abbrev wPieces : List ((s : Shape) × (s.Idx → EReal)) :=
  [⟨S768x768, (W (Proc.devRef .tc main_arg1) : S768x768.Idx → EReal)⟩,
   ⟨S768x768, (W (Proc.devRef .tc main_arg3) : S768x768.Idx → EReal)⟩,
   ⟨S768x768, (W (Proc.devRef .tc main_arg5) : S768x768.Idx → EReal)⟩]

/-- The kernel's weight matrix is the three matrices side by side, its format changed. -/
theorem v2_eq :
    (StableHlo.after hostOps0 W (Proc.devRef .tc main_v2) : S768x2304.Idx → EReal)
      = truncf .bf16 (concatenate S768x2304 1 (wPieces W)
          concatenates_S768x768_S768x768_S768x768_S768x2304_d1 : FVec Ideal S768x2304 .f32) bitsLt_bf16_f32 := by
  after_results; rfl

/-- Columns 0 … 767 of the kernel's weight matrix are the first matrix. -/
theorem v2_apply_0 (d e : Fin 768) :
    StableHlo.after hostOps0 W (Proc.devRef .tc main_v2) (ix2 d (⟨e.val, by omega⟩ : Fin 2304))
      = W (Proc.devRef .tc main_arg1) (ix2 d e) := by
  refine (congrFun (v2_eq W) _).trans ?_
  rw [truncf_apply]
  exact concatenate_apply_piece (t := S768x2304) 1 (wPieces W) concatenates_S768x768_S768x768_S768x768_S768x2304_d1 _
    0 (by show (0 : Nat) < 3; omega) S768x768 _ rfl rfl 0 rfl (ix2 d e)
    (fun b => match b with
      | ⟨0, _⟩ => fun _ => rfl
      | ⟨1, _⟩ => fun h => absurd (Fin.ext rfl) h)
    (Nat.zero_add _)
/-- Columns 768 … 1535 are the second matrix. -/
theorem v2_apply_1 (d e : Fin 768) :
    StableHlo.after hostOps0 W (Proc.devRef .tc main_v2) (ix2 d (⟨e.val + 768, by omega⟩ : Fin 2304))
      = W (Proc.devRef .tc main_arg3) (ix2 d e) := by
  refine (congrFun (v2_eq W) _).trans ?_
  rw [truncf_apply]
  exact concatenate_apply_piece (t := S768x2304) 1 (wPieces W) concatenates_S768x768_S768x768_S768x768_S768x2304_d1 _
    1 (by show (1 : Nat) < 3; omega) S768x768 _ rfl rfl 768 rfl (ix2 d e)
    (fun b => match b with
      | ⟨0, _⟩ => fun _ => rfl
      | ⟨1, _⟩ => fun h => absurd (Fin.ext rfl) h)
    (Nat.add_comm _ _)
/-- Columns 1536 … 2303 are the third matrix. -/
theorem v2_apply_2 (d e : Fin 768) :
    StableHlo.after hostOps0 W (Proc.devRef .tc main_v2) (ix2 d (⟨e.val + 1536, by omega⟩ : Fin 2304))
      = W (Proc.devRef .tc main_arg5) (ix2 d e) := by
  refine (congrFun (v2_eq W) _).trans ?_
  rw [truncf_apply]
  exact concatenate_apply_piece (t := S768x2304) 1 (wPieces W) concatenates_S768x768_S768x768_S768x768_S768x2304_d1 _
    2 (by show (2 : Nat) < 3; omega) S768x768 _ rfl rfl 1536 rfl (ix2 d e)
    (fun b => match b with
      | ⟨0, _⟩ => fun _ => rfl
      | ⟨1, _⟩ => fun h => absurd (Fin.ext rfl) h)
    (Nat.add_comm _ _)

/-- The three bias vectors, in the order they are laid end to end. -/
abbrev bPieces : List ((s : Shape) × (s.Idx → EReal)) :=
  [⟨S768, (W (Proc.devRef .tc main_arg2) : S768.Idx → EReal)⟩,
   ⟨S768, (W (Proc.devRef .tc main_arg4) : S768.Idx → EReal)⟩,
   ⟨S768, (W (Proc.devRef .tc main_arg6) : S768.Idx → EReal)⟩]

/-- The kernel's bias row is the three bias vectors end to end, read as one row. -/
theorem v4_eq :
    (StableHlo.after hostOps0 W (Proc.devRef .tc main_v4) : S1x2304.Idx → EReal)
      = shapeCast S1x2304 (concatenate S2304 0 (bPieces W)
          concatenates_S768_S768_S768_S2304_d0 : S2304.Idx → EReal) shapeCasts_S2304_S1x2304 := by
  after_results; rfl

/-- Entries 0 … 767 of the bias row are the first bias. -/
theorem v4_apply_0 (e : Fin 768) :
    StableHlo.after hostOps0 W (Proc.devRef .tc main_v4) (ix2 (0 : Fin 1) (⟨e.val, by omega⟩ : Fin 2304))
      = W (Proc.devRef .tc main_arg2) (ix1 e) := by
  refine (congrFun (v4_eq W) _).trans ?_
  rw [shapeCast_a_1a_apply]
  exact concatenate_apply_piece (t := S2304) 0 (bPieces W) concatenates_S768_S768_S768_S2304_d0 _
    0 (by show (0 : Nat) < 3; omega) S768 _ rfl rfl 0 rfl (ix1 e)
    (fun b => match b with
      | ⟨0, _⟩ => fun h => absurd (Fin.ext rfl) h)
    (Nat.zero_add _)
/-- Entries 768 … 1535 are the second bias. -/
theorem v4_apply_1 (e : Fin 768) :
    StableHlo.after hostOps0 W (Proc.devRef .tc main_v4) (ix2 (0 : Fin 1) (⟨e.val + 768, by omega⟩ : Fin 2304))
      = W (Proc.devRef .tc main_arg4) (ix1 e) := by
  refine (congrFun (v4_eq W) _).trans ?_
  rw [shapeCast_a_1a_apply]
  exact concatenate_apply_piece (t := S2304) 0 (bPieces W) concatenates_S768_S768_S768_S2304_d0 _
    1 (by show (1 : Nat) < 3; omega) S768 _ rfl rfl 768 rfl (ix1 e)
    (fun b => match b with
      | ⟨0, _⟩ => fun h => absurd (Fin.ext rfl) h)
    (Nat.add_comm _ _)
/-- Entries 1536 … 2303 are the third bias. -/
theorem v4_apply_2 (e : Fin 768) :
    StableHlo.after hostOps0 W (Proc.devRef .tc main_v4) (ix2 (0 : Fin 1) (⟨e.val + 1536, by omega⟩ : Fin 2304))
      = W (Proc.devRef .tc main_arg6) (ix1 e) := by
  refine (congrFun (v4_eq W) _).trans ?_
  rw [shapeCast_a_1a_apply]
  exact concatenate_apply_piece (t := S2304) 0 (bPieces W) concatenates_S768_S768_S768_S2304_d0 _
    2 (by show (2 : Nat) < 3; omega) S768 _ rfl rfl 1536 rfl (ix1 e)
    (fun b => match b with
      | ⟨0, _⟩ => fun h => absurd (Fin.ext rfl) h)
    (Nat.add_comm _ _)

/-! ## Between the two kernels -/

/-- The folded result 6: row s of batch bi is row bi·2048 + s of the flat result. -/
theorem v6_eq :
    (StableHlo.after hostOps1 W (Proc.devRef .tc main_v6) : S8x2048x768.Idx → EReal)
      = shapeCast S8x2048x768 (W (Proc.devRef .tc main_v5_0) : S16384x768.Idx → EReal) shapeCasts_S16384x768_S8x2048x768 := by
  after_results; rfl
theorem v6_apply (bi : Fin 8) (s : Fin 2048) (e : Fin 768) :
    StableHlo.after hostOps1 W (Proc.devRef .tc main_v6) (ix3 bi s e)
      = W (Proc.devRef .tc main_v5_0) (ix2 (⟨bi.val * 2048 + s.val, by omega⟩ : Fin 16384) e) := by
  refine (congrFun (v6_eq W) _).trans ?_
  refine shapeCast_apply (s := S16384x768) (t := S8x2048x768) _ _ _ _ ?_
  rw [Shape.rowMajor_val_two, Shape.rowMajor_val_three]
  rfl
/-- The folded result 7: row s of batch bi is row bi·2048 + s of the flat result. -/
theorem v7_eq :
    (StableHlo.after hostOps1 W (Proc.devRef .tc main_v7) : S8x2048x768.Idx → EReal)
      = shapeCast S8x2048x768 (W (Proc.devRef .tc main_v5_1) : S16384x768.Idx → EReal) shapeCasts_S16384x768_S8x2048x768 := by
  after_results; rfl
theorem v7_apply (bi : Fin 8) (s : Fin 2048) (e : Fin 768) :
    StableHlo.after hostOps1 W (Proc.devRef .tc main_v7) (ix3 bi s e)
      = W (Proc.devRef .tc main_v5_1) (ix2 (⟨bi.val * 2048 + s.val, by omega⟩ : Fin 16384) e) := by
  refine (congrFun (v7_eq W) _).trans ?_
  refine shapeCast_apply (s := S16384x768) (t := S8x2048x768) _ _ _ _ ?_
  rw [Shape.rowMajor_val_two, Shape.rowMajor_val_three]
  rfl
/-- The folded result 8: row s of batch bi is row bi·2048 + s of the flat result. -/
theorem v8_eq :
    (StableHlo.after hostOps1 W (Proc.devRef .tc main_v8) : S8x2048x768.Idx → EReal)
      = shapeCast S8x2048x768 (W (Proc.devRef .tc main_v5_2) : S16384x768.Idx → EReal) shapeCasts_S16384x768_S8x2048x768 := by
  after_results; rfl
theorem v8_apply (bi : Fin 8) (s : Fin 2048) (e : Fin 768) :
    StableHlo.after hostOps1 W (Proc.devRef .tc main_v8) (ix3 bi s e)
      = W (Proc.devRef .tc main_v5_2) (ix2 (⟨bi.val * 2048 + s.val, by omega⟩ : Fin 16384) e) := by
  refine (congrFun (v8_eq W) _).trans ?_
  refine shapeCast_apply (s := S16384x768) (t := S8x2048x768) _ _ _ _ ?_
  rw [Shape.rowMajor_val_two, Shape.rowMajor_val_three]
  rfl
/-- The [768] vector main_arg9 read as a [1, 768] row. -/
theorem v9_eq :
    (StableHlo.after hostOps1 W (Proc.devRef .tc main_v9) : S1x768.Idx → EReal)
      = shapeCast S1x768 (W (Proc.devRef .tc main_arg9) : S768.Idx → EReal) shapeCasts_S768_S1x768 := by
  after_results; rfl
theorem v9_apply (d : Fin 768) :
    StableHlo.after hostOps1 W (Proc.devRef .tc main_v9) (ix2 (0 : Fin 1) d) = W (Proc.devRef .tc main_arg9) (ix1 d) := by
  refine (congrFun (v9_eq W) _).trans ?_
  exact shapeCast_a_1a_apply _ _ _ _
/-- The [768] vector main_arg10 read as a [1, 768] row. -/
theorem v10_eq :
    (StableHlo.after hostOps1 W (Proc.devRef .tc main_v10) : S1x768.Idx → EReal)
      = shapeCast S1x768 (W (Proc.devRef .tc main_arg10) : S768.Idx → EReal) shapeCasts_S768_S1x768 := by
  after_results; rfl
theorem v10_apply (d : Fin 768) :
    StableHlo.after hostOps1 W (Proc.devRef .tc main_v10) (ix2 (0 : Fin 1) d) = W (Proc.devRef .tc main_arg10) (ix1 d) := by
  refine (congrFun (v10_eq W) _).trans ?_
  exact shapeCast_a_1a_apply _ _ _ _
/-- The dense layer's matrix, its format changed. -/
theorem v11_eq :
    (StableHlo.after hostOps1 W (Proc.devRef .tc main_v11) : S768x768.Idx → EReal)
      = (truncf .bf16 (W (Proc.devRef .tc main_arg7) : FVec Ideal S768x768 .f32) bitsLt_bf16_f32 : FVec Ideal S768x768 .bf16) := by
  after_results
theorem v11_apply (a b : Fin 768) :
    StableHlo.after hostOps1 W (Proc.devRef .tc main_v11) (ix2 a b) = W (Proc.devRef .tc main_arg7) (ix2 a b) :=
  congrFun (v11_eq W) (ix2 a b)
/-- The [768] vector main_arg8 read as a [1, 768] row. -/
theorem v12_eq :
    (StableHlo.after hostOps1 W (Proc.devRef .tc main_v12) : S1x768.Idx → EReal)
      = shapeCast S1x768 (W (Proc.devRef .tc main_arg8) : S768.Idx → EReal) shapeCasts_S768_S1x768 := by
  after_results; rfl
theorem v12_apply (d : Fin 768) :
    StableHlo.after hostOps1 W (Proc.devRef .tc main_v12) (ix2 (0 : Fin 1) d) = W (Proc.devRef .tc main_arg8) (ix1 d) := by
  refine (congrFun (v12_eq W) _).trans ?_
  exact shapeCast_a_1a_apply _ _ _ _
/-- The [768] vector main_arg11 read as a [1, 768] row. -/
theorem v13_eq :
    (StableHlo.after hostOps1 W (Proc.devRef .tc main_v13) : S1x768.Idx → EReal)
      = shapeCast S1x768 (W (Proc.devRef .tc main_arg11) : S768.Idx → EReal) shapeCasts_S768_S1x768 := by
  after_results; rfl
theorem v13_apply (d : Fin 768) :
    StableHlo.after hostOps1 W (Proc.devRef .tc main_v13) (ix2 (0 : Fin 1) d) = W (Proc.devRef .tc main_arg11) (ix1 d) := by
  refine (congrFun (v13_eq W) _).trans ?_
  exact shapeCast_a_1a_apply _ _ _ _
/-- The [768] vector main_arg12 read as a [1, 768] row. -/
theorem v14_eq :
    (StableHlo.after hostOps1 W (Proc.devRef .tc main_v14) : S1x768.Idx → EReal)
      = shapeCast S1x768 (W (Proc.devRef .tc main_arg12) : S768.Idx → EReal) shapeCasts_S768_S1x768 := by
  after_results; rfl
theorem v14_apply (d : Fin 768) :
    StableHlo.after hostOps1 W (Proc.devRef .tc main_v14) (ix2 (0 : Fin 1) d) = W (Proc.devRef .tc main_arg12) (ix1 d) := by
  refine (congrFun (v14_eq W) _).trans ?_
  exact shapeCast_a_1a_apply _ _ _ _

end Cert.KernelIdeal.HostGlue

end
-- ==== Proof.KIKeeps.lean ====
/-
  The argument arrays at the intermediate boundaries of the program's run: no host operation of either stretch
  writes an argument, and the first kernel region has no argument among its arrays, so at the contents after the
  first host stretch (`W1`), after the first region (`W2`) and after the second host stretch (`W3`) every
  argument array still holds what it held at launch.
-/
import proofs.«107328_j81389630259580_2_alg».proof.Proof.KIRun

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The launch contents are the launch memory, buffer by buffer. -/
theorem W0_apply (c : Dev nD) (b : DevRef τ sig) : W0 m ρ c b = m ((c : Dev nD), b) := rfl

/-- Argument 0 is as launched at each boundary before the last. -/
theorem W1_main_arg0 (c : Dev nD) : W1 m ρ c (Proc.devRef .tc main_arg0) = m ((c : Thread nD τ).loc main_arg0) :=
  StableHlo.after_of_writes_sub hostOps0 (W0 m ρ c) hostOps0_writes (by decide)
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 (W2 m ρ c) hostOps1_writes (by decide)).trans (W2_main_arg0 m ρ c)
/-- Argument 1 is as launched at each boundary before the last. -/
theorem W1_main_arg1 (c : Dev nD) : W1 m ρ c (Proc.devRef .tc main_arg1) = m ((c : Thread nD τ).loc main_arg1) :=
  StableHlo.after_of_writes_sub hostOps0 (W0 m ρ c) hostOps0_writes (by decide)
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 (W2 m ρ c) hostOps1_writes (by decide)).trans (W2_main_arg1 m ρ c)
/-- Argument 2 is as launched at each boundary before the last. -/
theorem W1_main_arg2 (c : Dev nD) : W1 m ρ c (Proc.devRef .tc main_arg2) = m ((c : Thread nD τ).loc main_arg2) :=
  StableHlo.after_of_writes_sub hostOps0 (W0 m ρ c) hostOps0_writes (by decide)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 (W2 m ρ c) hostOps1_writes (by decide)).trans (W2_main_arg2 m ρ c)
/-- Argument 3 is as launched at each boundary before the last. -/
theorem W1_main_arg3 (c : Dev nD) : W1 m ρ c (Proc.devRef .tc main_arg3) = m ((c : Thread nD τ).loc main_arg3) :=
  StableHlo.after_of_writes_sub hostOps0 (W0 m ρ c) hostOps0_writes (by decide)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 (W2 m ρ c) hostOps1_writes (by decide)).trans (W2_main_arg3 m ρ c)
/-- Argument 4 is as launched at each boundary before the last. -/
theorem W1_main_arg4 (c : Dev nD) : W1 m ρ c (Proc.devRef .tc main_arg4) = m ((c : Thread nD τ).loc main_arg4) :=
  StableHlo.after_of_writes_sub hostOps0 (W0 m ρ c) hostOps0_writes (by decide)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 (W2 m ρ c) hostOps1_writes (by decide)).trans (W2_main_arg4 m ρ c)
/-- Argument 5 is as launched at each boundary before the last. -/
theorem W1_main_arg5 (c : Dev nD) : W1 m ρ c (Proc.devRef .tc main_arg5) = m ((c : Thread nD τ).loc main_arg5) :=
  StableHlo.after_of_writes_sub hostOps0 (W0 m ρ c) hostOps0_writes (by decide)
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 (W2 m ρ c) hostOps1_writes (by decide)).trans (W2_main_arg5 m ρ c)
/-- Argument 6 is as launched at each boundary before the last. -/
theorem W1_main_arg6 (c : Dev nD) : W1 m ρ c (Proc.devRef .tc main_arg6) = m ((c : Thread nD τ).loc main_arg6) :=
  StableHlo.after_of_writes_sub hostOps0 (W0 m ρ c) hostOps0_writes (by decide)
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 (W2 m ρ c) hostOps1_writes (by decide)).trans (W2_main_arg6 m ρ c)
/-- Argument 7 is as launched at each boundary before the last. -/
theorem W1_main_arg7 (c : Dev nD) : W1 m ρ c (Proc.devRef .tc main_arg7) = m ((c : Thread nD τ).loc main_arg7) :=
  StableHlo.after_of_writes_sub hostOps0 (W0 m ρ c) hostOps0_writes (by decide)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 (W2 m ρ c) hostOps1_writes (by decide)).trans (W2_main_arg7 m ρ c)
/-- Argument 8 is as launched at each boundary before the last. -/
theorem W1_main_arg8 (c : Dev nD) : W1 m ρ c (Proc.devRef .tc main_arg8) = m ((c : Thread nD τ).loc main_arg8) :=
  StableHlo.after_of_writes_sub hostOps0 (W0 m ρ c) hostOps0_writes (by decide)
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 (W2 m ρ c) hostOps1_writes (by decide)).trans (W2_main_arg8 m ρ c)
/-- Argument 9 is as launched at each boundary before the last. -/
theorem W1_main_arg9 (c : Dev nD) : W1 m ρ c (Proc.devRef .tc main_arg9) = m ((c : Thread nD τ).loc main_arg9) :=
  StableHlo.after_of_writes_sub hostOps0 (W0 m ρ c) hostOps0_writes (by decide)
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_writes_sub hostOps1 (W2 m ρ c) hostOps1_writes (by decide)).trans (W2_main_arg9 m ρ c)
/-- Argument 10 is as launched at each boundary before the last. -/
theorem W1_main_arg10 (c : Dev nD) : W1 m ρ c (Proc.devRef .tc main_arg10) = m ((c : Thread nD τ).loc main_arg10) :=
  StableHlo.after_of_writes_sub hostOps0 (W0 m ρ c) hostOps0_writes (by decide)
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_writes_sub hostOps1 (W2 m ρ c) hostOps1_writes (by decide)).trans (W2_main_arg10 m ρ c)
/-- Argument 11 is as launched at each boundary before the last. -/
theorem W1_main_arg11 (c : Dev nD) : W1 m ρ c (Proc.devRef .tc main_arg11) = m ((c : Thread nD τ).loc main_arg11) :=
  StableHlo.after_of_writes_sub hostOps0 (W0 m ρ c) hostOps0_writes (by decide)
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_writes_sub hostOps1 (W2 m ρ c) hostOps1_writes (by decide)).trans (W2_main_arg11 m ρ c)
/-- Argument 12 is as launched at each boundary before the last. -/
theorem W1_main_arg12 (c : Dev nD) : W1 m ρ c (Proc.devRef .tc main_arg12) = m ((c : Thread nD τ).loc main_arg12) :=
  StableHlo.after_of_writes_sub hostOps0 (W0 m ρ c) hostOps0_writes (by decide)
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (StableHlo.after_of_writes_sub hostOps1 (W2 m ρ c) hostOps1_writes (by decide)).trans (W2_main_arg12 m ρ c)

end Cert.KernelIdeal.Hand

end
-- ==== Proof.QkvPay.lean ====
/-
  The first kernel's arithmetic at an index, at the ideal instance.

  The kernel takes a [1024, 768] block x of rows, the [768, 2304] matrix w (three [768, 768] weight matrices side by
  side) and the [1, 2304] row b (the three biases side by side), forms relu (x·w + b) as one [1024, 2304] value and
  stores its three [1024, 768] column blocks, at column offsets 0, 768 and 1536. Read at row p and column e of a block,
  each stored value is max (Σ_d x[p,d] · w[d, e + offset] + b[0, e + offset]) 0: every format change is the identity on
  extended reals, the product into a zero accumulator is the plain sum over the contracted axis, and a slice along
  the columns shifts the column by its offset.
-/
import proofs.«107328_j81389630259580_2_alg».proof.Proof.Spec
import proofs.«107328_j81389630259580_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.QkvPay

open Cert.KernelIdeal Cert.KernelIdeal.Gen Idealize.ShloMosaic Idealize.ShloMosaic.ValueIdx

/-- The product's left operand index keeps the output row on axis 0 … -/
theorem lhs_0 (i : S1024x2304.Idx) (q : dot_S1024x768_S768x2304_S1024x2304_1_0_0_1_n_n.contr.Idx) :
    (dot_S1024x768_S768x2304_S1024x2304_1_0_0_1_n_n.lhsIdx i q 0).val = (i 0).val := by
  unfold DotDims.lhsIdx
  rw [dif_neg (show ¬(0 : Fin S1024x768.rank) ∈ dot_S1024x768_S768x2304_S1024x2304_1_0_0_1_n_n.lhsBatch by decide),
    dif_pos (show (0 : Fin S1024x768.rank) ∈ dot_S1024x768_S768x2304_S1024x2304_1_0_0_1_n_n.lhsNonContracting by decide)]
  rfl
/-- … and has the contraction coordinate on axis 1. -/
theorem lhs_1 (i : S1024x2304.Idx) (q : dot_S1024x768_S768x2304_S1024x2304_1_0_0_1_n_n.contr.Idx) :
    (dot_S1024x768_S768x2304_S1024x2304_1_0_0_1_n_n.lhsIdx i q 1).val = (q ⟨0, by decide⟩).val :=
  dot_S1024x768_S768x2304_S1024x2304_1_0_0_1_n_n.lhsIdx_val_of_single rfl i q
/-- The right operand index has the contraction coordinate on axis 0 … -/
theorem rhs_0 (i : S1024x2304.Idx) (q : dot_S1024x768_S768x2304_S1024x2304_1_0_0_1_n_n.contr.Idx) :
    (dot_S1024x768_S768x2304_S1024x2304_1_0_0_1_n_n.rhsIdx i q 0).val = (q ⟨0, by decide⟩).val :=
  dot_S1024x768_S768x2304_S1024x2304_1_0_0_1_n_n.rhsIdx_val_of_single rfl i q
/-- … and keeps the output column on axis 1. -/
theorem rhs_1 (i : S1024x2304.Idx) (q : dot_S1024x768_S768x2304_S1024x2304_1_0_0_1_n_n.contr.Idx) :
    (dot_S1024x768_S768x2304_S1024x2304_1_0_0_1_n_n.rhsIdx i q 1).val = (i 1).val := by
  unfold DotDims.rhsIdx
  rw [dif_neg (show ¬(1 : Fin S768x2304.rank) ∈ dot_S1024x768_S768x2304_S1024x2304_1_0_0_1_n_n.rhsBatch by decide),
    dif_pos (show (1 : Fin S768x2304.rank) ∈ dot_S1024x768_S768x2304_S1024x2304_1_0_0_1_n_n.rhsNonContracting by decide)]
  rfl

/-- The product's left operand index at output (p, c) and contraction coordinate d is (p, d). -/
theorem lhs_idx (p : Fin 1024) (c : Fin 2304) (d : Fin 768) :
    dot_S1024x768_S768x2304_S1024x2304_1_0_0_1_n_n.lhsIdx (ix2 p c)
      ((contrEquiv1 dot_S1024x768_S768x2304_S1024x2304_1_0_0_1_n_n 768 rfl rfl).symm d) = ix2 p d := by
  have hd := contrEquiv1_symm_val dot_S1024x768_S768x2304_S1024x2304_1_0_0_1_n_n 768 rfl rfl d
  exact funext fun a => Fin.ext (by
    match a with
    | ⟨0, _⟩ => exact lhs_0 _ _
    | ⟨1, _⟩ => exact (lhs_1 _ _).trans hd)

/-- The product's right operand index at output (p, c) and contraction coordinate d is (d, c). -/
theorem rhs_idx (p : Fin 1024) (c : Fin 2304) (d : Fin 768) :
    dot_S1024x768_S768x2304_S1024x2304_1_0_0_1_n_n.rhsIdx (ix2 p c)
      ((contrEquiv1 dot_S1024x768_S768x2304_S1024x2304_1_0_0_1_n_n 768 rfl rfl).symm d) = ix2 d c := by
  have hd := contrEquiv1_symm_val dot_S1024x768_S768x2304_S1024x2304_1_0_0_1_n_n 768 rfl rfl d
  exact funext fun a => Fin.ext (by
    match a with
    | ⟨0, _⟩ => exact (rhs_0 _ _).trans hd
    | ⟨1, _⟩ => exact rhs_1 _ _)

/-- relu (x·w + b) at row p and column c of the whole [1024, 2304] value. -/
theorem pay1_apply (x : Vec Ideal S1024x768 .f32) (w : Vec Ideal S768x2304 .bf16) (b : Vec Ideal S1x2304 .f32)
    (p : Fin 1024) (c : Fin 2304) :
    k0_pay1 x w b (ix2 p c)
      = max ((∑ d : Fin 768, x (ix2 p d) * w (ix2 d c)) + b (ix2 0 c)) Cert.Attn.zeroW := by
  unfold k0_pay1
  simp only [shapeCast_self]
  rw [maximumf_apply, addf_apply, broadcast_apply, broadcastTo_1b_ab_apply]
  simp only [matmul]
  rw [Ideal.matmul_constant_zero_apply,
    ← Equiv.sum_comp (contrEquiv1 dot_S1024x768_S768x2304_S1024x2304_1_0_0_1_n_n 768 rfl rfl).symm]
  refine congrArg (fun s => max (s + b (ix2 0 c)) _) (Finset.sum_congr rfl fun d _ => ?_)
  rw [lhs_idx, rhs_idx, truncf_apply]

/-- The first stored block: columns 0 … 767. -/
theorem pay2_apply (x : Vec Ideal S1024x768 .f32) (w : Vec Ideal S768x2304 .bf16) (b : Vec Ideal S1x2304 .f32)
    (p : Fin 1024) (e : Fin 768) :
    k0_pay2 x w b (ix2 p e)
      = max ((∑ d : Fin 768, x (ix2 p d) * w (ix2 d ⟨e.val, by omega⟩)) + b (ix2 0 ⟨e.val, by omega⟩)) Cert.Attn.zeroW := by
  unfold k0_pay2
  rw [truncf_apply]
  exact (slice2_axis1_apply 0 (k0_pay1 x w b) slices_S1024x2304_o0_0_S1024x768 p e ⟨e.val, by omega⟩
    (Nat.zero_add _).symm).trans (pay1_apply x w b p _)

/-- The second stored block: columns 768 … 1535. -/
theorem pay3_apply (x : Vec Ideal S1024x768 .f32) (w : Vec Ideal S768x2304 .bf16) (b : Vec Ideal S1x2304 .f32)
    (p : Fin 1024) (e : Fin 768) :
    k0_pay3 x w b (ix2 p e)
      = max ((∑ d : Fin 768, x (ix2 p d) * w (ix2 d ⟨e.val + 768, by omega⟩)) + b (ix2 0 ⟨e.val + 768, by omega⟩)) Cert.Attn.zeroW := by
  unfold k0_pay3
  rw [truncf_apply]
  exact (slice2_axis1_apply 768 (k0_pay1 x w b) slices_S1024x2304_o0_768_S1024x768 p e ⟨e.val + 768, by omega⟩
    (Nat.add_comm _ _)).trans (pay1_apply x w b p _)

/-- The third stored block: columns 1536 … 2303. -/
theorem pay4_apply (x : Vec Ideal S1024x768 .f32) (w : Vec Ideal S768x2304 .bf16) (b : Vec Ideal S1x2304 .f32)
    (p : Fin 1024) (e : Fin 768) :
    k0_pay4 x w b (ix2 p e)
      = max ((∑ d : Fin 768, x (ix2 p d) * w (ix2 d ⟨e.val + 1536, by omega⟩)) + b (ix2 0 ⟨e.val + 1536, by omega⟩)) Cert.Attn.zeroW := by
  unfold k0_pay4
  rw [truncf_apply]
  exact (slice2_axis1_apply 1536 (k0_pay1 x w b) slices_S1024x2304_o0_1536_S1024x768 p e ⟨e.val + 1536, by omega⟩
    (Nat.add_comm _ _)).trans (pay1_apply x w b p _)

end Cert.KernelIdeal.QkvPay

end
-- ==== Proof.KIArrays0.lean ====
/-
  From blocks to whole arrays: the first kernel region.

  The region runs its body at the 16 points of its grid. At point t the body reads rows 1024·t … 1024·t + 1023 of
  the flattened input (a [16384, 768] array), all of the [768, 2304] weight and all of the [1, 2304] bias, and
  writes rows 1024·t … 1024·t + 1023 of each of its three [16384, 768] outputs. The 16 row blocks tile each output,
  so after the region every output array is one function of the three input arrays, index by index: at row r and
  column e, max (Σ_d X[r, d] · W[d, e + o] + b[0, e + o]) 0 with o = 0, 768, 1536 for the three outputs.

  The steps: where each window's block sits at a point (decided once over the grid); a block of an input read at a
  coordinate is the array read at the block's offset plus the coordinate; what a point writes back is the block of
  the whole-array function at that point; every row lies in the block of the point row / 1024.
-/
import proofs.«107328_j81389630259580_2_alg».proof.Proof.KI0
import proofs.«107328_j81389630259580_2_alg».proof.Proof.QkvPay
import Idealize.ShloMosaic.Lib.Pipeline.Value
import Idealize.ShloMosaic.Lib.ValueIdx

noncomputable section

namespace Cert.KernelIdeal.Arrays

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the arrays' contents when the region is entered
variable (V : (c : Dev nD) → (b : Ref sig .tc) → Buf (Elt Ideal) ((c : Thread nD τ).loc b))

theorem zero_offsets2 : (![0, 0] : Fin 2 → Nat) = fun _ => 0 := funext fun a => by fin_cases a <;> rfl

/-- Where each window's block sits at grid point t, decided over the 16 points: the row-blocked windows (the input
    rows and the three outputs) at block (t, 0), the weight and the bias at block (0, 0). -/
theorem blocks_at0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every row block of an output is some point's. -/
theorem point_of_block0 : ∀ q : Fin 16, ∃ t : Fin cfg0.N, t.val = q.val :=
  (by decide +kernel : ∀ q : Fin 16, ∃ t : Fin grid0.N, t.val = q.val)

/-- The input rows' block at point t, read at (p, d), is the array at row 1024·t + p, column d. -/
theorem rows_block0 (c : Dev nD) (t : Fin cfg0.N) (x : S1024x768.Idx) (k : S16384x768.Idx)
    (hk0 : (k 0).val = 1024 * t.val + (x 0).val) (hk1 : (k 1).val = (x 1).val) :
    (iblk0 V c 0 t : Vec Ideal S1024x768 .f32) x = (V c main_v0 : S16384x768.Idx → EReal) k := by
  obtain ⟨e0, e1, -⟩ := blocks_at0 t
  unfold iblk0
  rw [View.read_apply]
  show V c main_v0 _ = V c main_v0 _
  congr 1
  funext a
  apply Fin.ext
  match a with
  | ⟨0, _⟩ => show win0_0.index t 0 * 1024 + 1 * (x 0).val = (k 0).val; rw [e0, hk0]; omega
  | ⟨1, _⟩ => show win0_0.index t 1 * 768 + 1 * (x 1).val = (k 1).val; rw [e1, hk1]; omega

/-- The weight's block is the whole array at every point. -/
theorem weight_block0 (c : Dev nD) (t : Fin cfg0.N) (x k : S768x2304.Idx)
    (hk0 : (k 0).val = (x 0).val) (hk1 : (k 1).val = (x 1).val) :
    (iblk0 V c 1 t : Vec Ideal S768x2304 .bf16) x = (V c main_v2 : S768x2304.Idx → EReal) k := by
  obtain ⟨-, -, e0, e1, -⟩ := blocks_at0 t
  unfold iblk0
  rw [View.read_apply]
  show V c main_v2 _ = V c main_v2 _
  congr 1
  funext a
  apply Fin.ext
  match a with
  | ⟨0, _⟩ => show win0_1.index t 0 * 768 + 1 * (x 0).val = (k 0).val; rw [e0, hk0]; omega
  | ⟨1, _⟩ => show win0_1.index t 1 * 2304 + 1 * (x 1).val = (k 1).val; rw [e1, hk1]; omega

/-- The bias's block is the whole array at every point. -/
theorem bias_block0 (c : Dev nD) (t : Fin cfg0.N) (x k : S1x2304.Idx)
    (hk0 : (k 0).val = (x 0).val) (hk1 : (k 1).val = (x 1).val) :
    (iblk0 V c 2 t : Vec Ideal S1x2304 .f32) x = (V c main_v4 : S1x2304.Idx → EReal) k := by
  obtain ⟨-, -, -, -, e0, e1, -⟩ := blocks_at0 t
  unfold iblk0
  rw [View.read_apply]
  show V c main_v4 _ = V c main_v4 _
  congr 1
  funext a
  apply Fin.ext
  match a with
  | ⟨0, _⟩ => show win0_2.index t 0 * 1 + 1 * (x 0).val = (k 0).val; rw [e0, hk0]; omega
  | ⟨1, _⟩ => show win0_2.index t 1 * 2304 + 1 * (x 1).val = (k 1).val; rw [e1, hk1]; omega

/-- The projection at column offset o as one function of the three input arrays: at row r and column e,
    max (Σ_d X[r, d] · W[d, e + o] + b[0, e + o]) 0. -/
def projOf (o : Nat) (ho : o + 768 ≤ 2304) (X : S16384x768.Idx → EReal) (W : S768x2304.Idx → EReal)
    (b : S1x2304.Idx → EReal) : S16384x768.Idx → EReal := fun j =>
  max ((∑ d : Fin 768, X (ix2 ⟨(j 0).val, idx2_lt0 j⟩ d) * W (ix2 d ⟨(j 1).val + o, by have := idx2_lt1 j; omega⟩))
      + b (ix2 (0 : Fin 1) ⟨(j 1).val + o, by have := idx2_lt1 j; omega⟩))
    Cert.Attn.zeroW

theorem projOf_apply (o : Nat) (ho : o + 768 ≤ 2304) (X : S16384x768.Idx → EReal) (W : S768x2304.Idx → EReal)
    (b : S1x2304.Idx → EReal) (j : S16384x768.Idx) :
    projOf o ho X W b j
      = max ((∑ d : Fin 768, X (ix2 ⟨(j 0).val, idx2_lt0 j⟩ d) * W (ix2 d ⟨(j 1).val + o, by have := idx2_lt1 j; omega⟩))
          + b (ix2 (0 : Fin 1) ⟨(j 1).val + o, by have := idx2_lt1 j; omega⟩)) Cert.Attn.zeroW := rfl

/-- At offset 0 the column is the output's own column. -/
theorem projOf_zero_apply (X : S16384x768.Idx → EReal) (W : S768x2304.Idx → EReal) (b : S1x2304.Idx → EReal)
    (j : S16384x768.Idx) :
    projOf 0 (by omega) X W b j
      = max ((∑ d : Fin 768, X (ix2 ⟨(j 0).val, idx2_lt0 j⟩ d) * W (ix2 d ⟨(j 1).val, by have := idx2_lt1 j; omega⟩))
          + b (ix2 (0 : Fin 1) ⟨(j 1).val, by have := idx2_lt1 j; omega⟩)) Cert.Attn.zeroW := rfl

/-! ## Output window 3 -/

/-- What point t writes back into the first output is the point's block of the projection at offset 0. -/
theorem flushed0_3_eq (c : Dev nD) (t : Fin cfg0.N) :
    (dat0 V c).flushed 3 t
      = ((cfg0.win 3).blk t).view.read (Elt Ideal) (projOf 0 (by omega) (V c main_v0) (V c main_v2) (V c main_v4)) := by
  obtain ⟨b00, b01, b10, b11, b20, b21, b30, b31, b40, b41, b50, b51⟩ := blocks_at0 t
  show (cfg0.win 3).cut (grid0.coords t) ((dat0 V c).after 3 t) = _
  rw [after0_3]
  unfold out0_3
  rw [View.canon_unit_zero zero_offsets2]
  simp only [View.ld_unit_zero (S := S1024x768) zero_offsets2, View.ld_unit_zero (S := S768x2304) zero_offsets2,
    View.ld_unit_zero (S := S1x2304) zero_offsets2]
  refine funext fun (y : S1024x768.Idx) => ?_
  rw [View.read_apply]
  obtain ⟨p, e, rfl⟩ : ∃ (p : Fin 1024) (e : Fin 768), y = ix2 p e := ⟨y 0, y 1, eq_ix2 y⟩
  show k0_pay2 (iblk0 V c 0 t) (iblk0 V c 1 t) (iblk0 V c 2 t) (ix2 p e) = _
  refine (QkvPay.pay2_apply (iblk0 V c 0 t) (iblk0 V c 1 t) (iblk0 V c 2 t) p e).trans ?_
  refine Eq.trans ?_ (projOf_apply 0 (by omega) (V c main_v0) (V c main_v2) (V c main_v4) _).symm
  -- the block's element (p, e) sits at row 1024·t + p and column e of the array
  have r0 : ((((cfg0.win 3).blk t).view.emb (ix2 p e)) 0).val = 1024 * t.val + p.val := by
    show win0_3.index t 0 * 1024 + 1 * p.val = _; rw [b30]; omega
  have r1 : ((((cfg0.win 3).blk t).view.emb (ix2 p e)) 1).val = e.val := by
    show win0_3.index t 1 * 768 + 1 * e.val = _; rw [b31]; omega
  refine congrArg₂ (fun s b => max (s + b) Cert.Attn.zeroW)
    (Finset.sum_congr rfl fun d _ => congrArg₂ (fun u v => u * v) ?_ ?_) ?_
  · exact rows_block0 V c t _ _ r0 rfl
  · exact weight_block0 V c t _ _ rfl (by show _ + 0 = e.val; rw [r1]; rfl)
  · exact bias_block0 V c t _ _ rfl (by show _ + 0 = e.val; rw [r1]; rfl)

/-- An index of the array is in point t's block iff each coordinate is in the block's range on its axis. -/
theorem mem_blk0_3 (t : Fin cfg0.N) (i : S16384x768.Idx) :
    i ∈ ((cfg0.win 3).blk t).view.set ↔ ∀ a : Fin 2, win0_3.index t a * S1024x768.size a ≤ (i a).val
      ∧ (i a).val < win0_3.index t a * S1024x768.size a + S1024x768.size a := by
  show i ∈ ((View.whole main_v5_0).slice (win0_3.rect t)).set ↔ _
  rw [View.set_slice_whole, Rect.mem_set_unit]
  exact Iff.rfl

/-- Every index of the array is in the block of the point row / 1024, which writes its block back. -/
theorem covered0_3 (i : S16384x768.Idx) :
    ∃ t : Fin cfg0.N, (cfg0.win 3).flush t = true ∧ i ∈ ((cfg0.win 3).blk t).view.set := by
  have hi0 : (i 0).val < 16384 := idx2_lt0 i
  have hi1 : (i 1).val < 768 := idx2_lt1 i
  obtain ⟨t, ht⟩ := point_of_block0 ⟨(i 0).val / 1024, by omega⟩
  have ht' : t.val = (i 0).val / 1024 := ht
  obtain ⟨b00, b01, b10, b11, b20, b21, b30, b31, b40, b41, b50, b51⟩ := blocks_at0 t
  refine ⟨t, flush0_3 t, ?_⟩
  rw [mem_blk0_3]
  intro a
  match a with
  | ⟨0, _⟩ =>
    show win0_3.index t 0 * 1024 ≤ (i 0).val ∧ (i 0).val < win0_3.index t 0 * 1024 + 1024
    rw [b30]; omega
  | ⟨1, _⟩ =>
    show win0_3.index t 1 * 768 ≤ (i 1).val ∧ (i 1).val < win0_3.index t 1 * 768 + 768
    rw [b31]; omega

/-- THE FIRST OUTPUT after the region: the projection at column offset 0 of the three input arrays. -/
theorem arr0_3 (c : Dev nD) :
    (dat0 V c).arrAt 3 cfg0.N = projOf 0 (by omega) (V c main_v0) (V c main_v2) (V c main_v4) :=
  (dat0 V c).arrAt_eq_of_cover 3 _ (fun t _ => flushed0_3_eq V c t) covered0_3

/-! ## Output window 4 -/

/-- What point t writes back into the second output is the point's block of the projection at offset 768. -/
theorem flushed0_4_eq (c : Dev nD) (t : Fin cfg0.N) :
    (dat0 V c).flushed 4 t
      = ((cfg0.win 4).blk t).view.read (Elt Ideal) (projOf 768 (by omega) (V c main_v0) (V c main_v2) (V c main_v4)) := by
  obtain ⟨b00, b01, b10, b11, b20, b21, b30, b31, b40, b41, b50, b51⟩ := blocks_at0 t
  show (cfg0.win 4).cut (grid0.coords t) ((dat0 V c).after 4 t) = _
  rw [after0_4]
  unfold out0_4
  rw [View.canon_unit_zero zero_offsets2]
  simp only [View.ld_unit_zero (S := S1024x768) zero_offsets2, View.ld_unit_zero (S := S768x2304) zero_offsets2,
    View.ld_unit_zero (S := S1x2304) zero_offsets2]
  refine funext fun (y : S1024x768.Idx) => ?_
  rw [View.read_apply]
  obtain ⟨p, e, rfl⟩ : ∃ (p : Fin 1024) (e : Fin 768), y = ix2 p e := ⟨y 0, y 1, eq_ix2 y⟩
  show k0_pay3 (iblk0 V c 0 t) (iblk0 V c 1 t) (iblk0 V c 2 t) (ix2 p e) = _
  refine (QkvPay.pay3_apply (iblk0 V c 0 t) (iblk0 V c 1 t) (iblk0 V c 2 t) p e).trans ?_
  refine Eq.trans ?_ (projOf_apply 768 (by omega) (V c main_v0) (V c main_v2) (V c main_v4) _).symm
  -- the block's element (p, e) sits at row 1024·t + p and column e of the array
  have r0 : ((((cfg0.win 4).blk t).view.emb (ix2 p e)) 0).val = 1024 * t.val + p.val := by
    show win0_4.index t 0 * 1024 + 1 * p.val = _; rw [b40]; omega
  have r1 : ((((cfg0.win 4).blk t).view.emb (ix2 p e)) 1).val = e.val := by
    show win0_4.index t 1 * 768 + 1 * e.val = _; rw [b41]; omega
  refine congrArg₂ (fun s b => max (s + b) Cert.Attn.zeroW)
    (Finset.sum_congr rfl fun d _ => congrArg₂ (fun u v => u * v) ?_ ?_) ?_
  · exact rows_block0 V c t _ _ r0 rfl
  · exact weight_block0 V c t _ _ rfl (by show _ + 768 = e.val + 768; rw [r1])
  · exact bias_block0 V c t _ _ rfl (by show _ + 768 = e.val + 768; rw [r1])

/-- An index of the array is in point t's block iff each coordinate is in the block's range on its axis. -/
theorem mem_blk0_4 (t : Fin cfg0.N) (i : S16384x768.Idx) :
    i ∈ ((cfg0.win 4).blk t).view.set ↔ ∀ a : Fin 2, win0_4.index t a * S1024x768.size a ≤ (i a).val
      ∧ (i a).val < win0_4.index t a * S1024x768.size a + S1024x768.size a := by
  show i ∈ ((View.whole main_v5_1).slice (win0_4.rect t)).set ↔ _
  rw [View.set_slice_whole, Rect.mem_set_unit]
  exact Iff.rfl

/-- Every index of the array is in the block of the point row / 1024, which writes its block back. -/
theorem covered0_4 (i : S16384x768.Idx) :
    ∃ t : Fin cfg0.N, (cfg0.win 4).flush t = true ∧ i ∈ ((cfg0.win 4).blk t).view.set := by
  have hi0 : (i 0).val < 16384 := idx2_lt0 i
  have hi1 : (i 1).val < 768 := idx2_lt1 i
  obtain ⟨t, ht⟩ := point_of_block0 ⟨(i 0).val / 1024, by omega⟩
  have ht' : t.val = (i 0).val / 1024 := ht
  obtain ⟨b00, b01, b10, b11, b20, b21, b30, b31, b40, b41, b50, b51⟩ := blocks_at0 t
  refine ⟨t, flush0_4 t, ?_⟩
  rw [mem_blk0_4]
  intro a
  match a with
  | ⟨0, _⟩ =>
    show win0_4.index t 0 * 1024 ≤ (i 0).val ∧ (i 0).val < win0_4.index t 0 * 1024 + 1024
    rw [b40]; omega
  | ⟨1, _⟩ =>
    show win0_4.index t 1 * 768 ≤ (i 1).val ∧ (i 1).val < win0_4.index t 1 * 768 + 768
    rw [b41]; omega

/-- THE SECOND OUTPUT after the region: the projection at column offset 768 of the three input arrays. -/
theorem arr0_4 (c : Dev nD) :
    (dat0 V c).arrAt 4 cfg0.N = projOf 768 (by omega) (V c main_v0) (V c main_v2) (V c main_v4) :=
  (dat0 V c).arrAt_eq_of_cover 4 _ (fun t _ => flushed0_4_eq V c t) covered0_4

/-! ## Output window 5 -/

/-- What point t writes back into the third output is the point's block of the projection at offset 1536. -/
theorem flushed0_5_eq (c : Dev nD) (t : Fin cfg0.N) :
    (dat0 V c).flushed 5 t
      = ((cfg0.win 5).blk t).view.read (Elt Ideal) (projOf 1536 (by omega) (V c main_v0) (V c main_v2) (V c main_v4)) := by
  obtain ⟨b00, b01, b10, b11, b20, b21, b30, b31, b40, b41, b50, b51⟩ := blocks_at0 t
  show (cfg0.win 5).cut (grid0.coords t) ((dat0 V c).after 5 t) = _
  rw [after0_5]
  unfold out0_5
  rw [View.canon_unit_zero zero_offsets2]
  simp only [View.ld_unit_zero (S := S1024x768) zero_offsets2, View.ld_unit_zero (S := S768x2304) zero_offsets2,
    View.ld_unit_zero (S := S1x2304) zero_offsets2]
  refine funext fun (y : S1024x768.Idx) => ?_
  rw [View.read_apply]
  obtain ⟨p, e, rfl⟩ : ∃ (p : Fin 1024) (e : Fin 768), y = ix2 p e := ⟨y 0, y 1, eq_ix2 y⟩
  show k0_pay4 (iblk0 V c 0 t) (iblk0 V c 1 t) (iblk0 V c 2 t) (ix2 p e) = _
  refine (QkvPay.pay4_apply (iblk0 V c 0 t) (iblk0 V c 1 t) (iblk0 V c 2 t) p e).trans ?_
  refine Eq.trans ?_ (projOf_apply 1536 (by omega) (V c main_v0) (V c main_v2) (V c main_v4) _).symm
  -- the block's element (p, e) sits at row 1024·t + p and column e of the array
  have r0 : ((((cfg0.win 5).blk t).view.emb (ix2 p e)) 0).val = 1024 * t.val + p.val := by
    show win0_5.index t 0 * 1024 + 1 * p.val = _; rw [b50]; omega
  have r1 : ((((cfg0.win 5).blk t).view.emb (ix2 p e)) 1).val = e.val := by
    show win0_5.index t 1 * 768 + 1 * e.val = _; rw [b51]; omega
  refine congrArg₂ (fun s b => max (s + b) Cert.Attn.zeroW)
    (Finset.sum_congr rfl fun d _ => congrArg₂ (fun u v => u * v) ?_ ?_) ?_
  · exact rows_block0 V c t _ _ r0 rfl
  · exact weight_block0 V c t _ _ rfl (by show _ + 1536 = e.val + 1536; rw [r1])
  · exact bias_block0 V c t _ _ rfl (by show _ + 1536 = e.val + 1536; rw [r1])

/-- An index of the array is in point t's block iff each coordinate is in the block's range on its axis. -/
theorem mem_blk0_5 (t : Fin cfg0.N) (i : S16384x768.Idx) :
    i ∈ ((cfg0.win 5).blk t).view.set ↔ ∀ a : Fin 2, win0_5.index t a * S1024x768.size a ≤ (i a).val
      ∧ (i a).val < win0_5.index t a * S1024x768.size a + S1024x768.size a := by
  show i ∈ ((View.whole main_v5_2).slice (win0_5.rect t)).set ↔ _
  rw [View.set_slice_whole, Rect.mem_set_unit]
  exact Iff.rfl

/-- Every index of the array is in the block of the point row / 1024, which writes its block back. -/
theorem covered0_5 (i : S16384x768.Idx) :
    ∃ t : Fin cfg0.N, (cfg0.win 5).flush t = true ∧ i ∈ ((cfg0.win 5).blk t).view.set := by
  have hi0 : (i 0).val < 16384 := idx2_lt0 i
  have hi1 : (i 1).val < 768 := idx2_lt1 i
  obtain ⟨t, ht⟩ := point_of_block0 ⟨(i 0).val / 1024, by omega⟩
  have ht' : t.val = (i 0).val / 1024 := ht
  obtain ⟨b00, b01, b10, b11, b20, b21, b30, b31, b40, b41, b50, b51⟩ := blocks_at0 t
  refine ⟨t, flush0_5 t, ?_⟩
  rw [mem_blk0_5]
  intro a
  match a with
  | ⟨0, _⟩ =>
    show win0_5.index t 0 * 1024 ≤ (i 0).val ∧ (i 0).val < win0_5.index t 0 * 1024 + 1024
    rw [b50]; omega
  | ⟨1, _⟩ =>
    show win0_5.index t 1 * 768 ≤ (i 1).val ∧ (i 1).val < win0_5.index t 1 * 768 + 768
    rw [b51]; omega

/-- THE THIRD OUTPUT after the region: the projection at column offset 1536 of the three input arrays. -/
theorem arr0_5 (c : Dev nD) :
    (dat0 V c).arrAt 5 cfg0.N = projOf 1536 (by omega) (V c main_v0) (V c main_v2) (V c main_v4) :=
  (dat0 V c).arrAt_eq_of_cover 5 _ (fun t _ => flushed0_5_eq V c t) covered0_5

end Cert.KernelIdeal.Arrays

end
-- ==== Proof.AttnOps.lean ====
/-
  The second kernel's operations read at an index, at the ideal values (a float is an extended real, every operation
  exact): the casts between [1, a, b] and [a, b], a row statistic [a] kept as a column [a, 1] and broadcast along the
  lanes, a row [1, b] broadcast down the rows, a lane sum and a lane maximum as a sum and a fold over the lane
  coordinate, and the three matrix products (q·kᵀ, p·v, x·Wd) as sums over the contracted coordinate.
-/
import proofs.«107328_j81389630259580_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnOps

open Cert.KernelIdeal Cert.KernelIdeal.Gen Idealize.ShloMosaic Idealize.ShloMosaic.ValueIdx

variable {α : Type}

/-- A [256] statistic kept as a [256, 1] column reads the statistic of its row. -/
theorem col_apply (v : S256.Idx → α) (p : Fin 256) (u : Fin 1) :
    shapeCast S256x1 v shapeCasts_S256_S256x1 (ix2 p u) = v (ix1 p) :=
  shapeCast_apply v _ _ _ (by
    have hu : u.val = 0 := by omega
    rw [Shape.rowMajor_val_two, Shape.rowMajor_val_one]
    show p.val = p.val * 1 + u.val
    omega)

/-- A [256, 1] column broadcast along 2048 lanes reads the column at its row. -/
theorem bcol2048_apply (v : S256x1.Idx → α) (p : Fin 256) (k : Fin 2048) :
    broadcastTo S256x2048 v broadcasts_S256x1_S256x2048 (ix2 p k) = v (ix2 p (0 : Fin 1)) := by
  refine broadcastTo_apply v _ (ix2 p k) (ix2 p (0 : Fin 1)) fun ax => ?_
  match ax with
  | ⟨0, _⟩ =>
    show p.val = if (256 : ℕ) = 1 then 0 else p.val
    rw [if_neg (by decide)]
  | ⟨1, _⟩ =>
    show (0 : ℕ) = if (1 : ℕ) = 1 then 0 else k.val
    rw [if_pos rfl]

/-- A [256, 1] column broadcast along 768 lanes reads the column at its row. -/
theorem bcol768_apply (v : S256x1.Idx → α) (p : Fin 256) (d : Fin 768) :
    broadcastTo S256x768 v broadcasts_S256x1_S256x768 (ix2 p d) = v (ix2 p (0 : Fin 1)) := by
  refine broadcastTo_apply v _ (ix2 p d) (ix2 p (0 : Fin 1)) fun ax => ?_
  match ax with
  | ⟨0, _⟩ =>
    show p.val = if (256 : ℕ) = 1 then 0 else p.val
    rw [if_neg (by decide)]
  | ⟨1, _⟩ =>
    show (0 : ℕ) = if (1 : ℕ) = 1 then 0 else d.val
    rw [if_pos rfl]

/-- A [1, 768] row broadcast down 256 rows reads the row at its lane. -/
theorem brow_apply (v : S1x768.Idx → α) (p : Fin 256) (d : Fin 768) :
    broadcastTo S256x768 v broadcasts_S1x768_S256x768 (ix2 p d) = v (ix2 (0 : Fin 1) d) :=
  broadcastTo_1b_ab_apply v _ p d

/-- A [1, 256, 768] block read as [256, 768], and a [1, 2048, 768] block as [2048, 768]. -/
theorem drop256_apply (v : S1x256x768.Idx → α) (p : Fin 256) (d : Fin 768) :
    shapeCast S256x768 v shapeCasts_S1x256x768_S256x768 (ix2 p d) = v (ix3 (0 : Fin 1) p d) :=
  shapeCast_1ab_ab_apply v _ p d
theorem drop2048_apply (v : S1x2048x768.Idx → α) (k : Fin 2048) (d : Fin 768) :
    shapeCast S2048x768 v shapeCasts_S1x2048x768_S2048x768 (ix2 k d) = v (ix3 (0 : Fin 1) k d) :=
  shapeCast_1ab_ab_apply v _ k d
/-- A [256, 768] value stored as a [1, 256, 768] block. -/
theorem add256_apply (v : S256x768.Idx → α) (u : Fin 1) (p : Fin 256) (d : Fin 768) :
    shapeCast S1x256x768 v shapeCasts_S256x768_S1x256x768 (ix3 u p d) = v (ix2 p d) :=
  shapeCast_ab_1ab_apply v _ u p d

/-- A lane sum over 2048 lanes, and over 768 lanes, at a row. -/
theorem sum2048_apply (src : FVec Ideal S256x2048 .f32) (hφ : FTy.f32 = FTy.f32 ∨ FTy.f32 = FTy.bf16)
    (hacc : (0x00000000#32 : BitVec 32) = 0x00000000#32) (p : Fin 256) :
    multiReduction .add [1] S256 src 0x00000000#32 reduces_S256x2048_S256 hφ hacc (ix1 p) = ∑ k : Fin 2048, src (ix2 p k) :=
  (Ideal.multiReduction_add_single src _ reduces_S256x2048_S256 _ _ (ix1 p)).trans
    (Finset.sum_congr rfl fun k _ => congrArg src (funext fun a => Fin.ext (by match a with | ⟨0, _⟩ => rfl | ⟨1, _⟩ => rfl)))
theorem sum768_apply (src : FVec Ideal S256x768 .f32) (hφ : FTy.f32 = FTy.f32 ∨ FTy.f32 = FTy.bf16)
    (hacc : (0x00000000#32 : BitVec 32) = 0x00000000#32) (p : Fin 256) :
    multiReduction .add [1] S256 src 0x00000000#32 reduces_S256x768_S256 hφ hacc (ix1 p) = ∑ k : Fin 768, src (ix2 p k) :=
  (Ideal.multiReduction_add_single src _ reduces_S256x768_S256 _ _ (ix1 p)).trans
    (Finset.sum_congr rfl fun k _ => congrArg src (funext fun a => Fin.ext (by match a with | ⟨0, _⟩ => rfl | ⟨1, _⟩ => rfl)))

/-- A lane maximum over 2048 lanes at a row: the fold of max from the -∞ word over the lane coordinate. -/
theorem max2048_apply (src : FVec Ideal S256x2048 .f32) (hφ : FTy.f32 = FTy.f32 ∨ FTy.f32 = FTy.bf16)
    (hacc : (0xFF800000#32 : BitVec 32) = 0xFF800000#32) (p : Fin 256) :
    multiReduction .maximumf [1] S256 src 0xFF800000#32 reduces_S256x2048_S256 hφ hacc (ix1 p)
      = (Finset.univ : Finset (Fin 2048)).fold max (Ideal.ofBits .f32 0xFF800000#32) (fun k => src (ix2 p k)) :=
  (Ideal.multiReduction_maximumf_single src _ reduces_S256x2048_S256 _ _ (ix1 p)).trans
    (congrArg (fun f => (Finset.univ : Finset (Fin 2048)).fold max (Ideal.ofBits .f32 0xFF800000#32) f)
      (funext fun k => congrArg src (funext fun a => Fin.ext (by match a with | ⟨0, _⟩ => rfl | ⟨1, _⟩ => rfl))))

/-- The same three readings with the accumulator's proof typed against the reduction's neutral word. -/
theorem sum2048_apply' (src : FVec Ideal S256x2048 .f32) (hφ : FKind.Formats .f32)
    (hacc : (0x00000000#32 : BitVec 32) = FKind.add.neutral .f32 hφ) (p : Fin 256) :
    multiReduction .add [1] S256 src 0x00000000#32 reduces_S256x2048_S256 hφ hacc (ix1 p) = ∑ k : Fin 2048, src (ix2 p k) :=
  (Ideal.multiReduction_add_single src _ reduces_S256x2048_S256 hφ hacc (ix1 p)).trans
    (Finset.sum_congr rfl fun k _ => congrArg src (funext fun a => Fin.ext (by match a with | ⟨0, _⟩ => rfl | ⟨1, _⟩ => rfl)))
theorem sum768_apply' (src : FVec Ideal S256x768 .f32) (hφ : FKind.Formats .f32)
    (hacc : (0x00000000#32 : BitVec 32) = FKind.add.neutral .f32 hφ) (p : Fin 256) :
    multiReduction .add [1] S256 src 0x00000000#32 reduces_S256x768_S256 hφ hacc (ix1 p) = ∑ k : Fin 768, src (ix2 p k) :=
  (Ideal.multiReduction_add_single src _ reduces_S256x768_S256 hφ hacc (ix1 p)).trans
    (Finset.sum_congr rfl fun k _ => congrArg src (funext fun a => Fin.ext (by match a with | ⟨0, _⟩ => rfl | ⟨1, _⟩ => rfl)))
theorem max2048_apply' (src : FVec Ideal S256x2048 .f32) (hφ : FKind.Formats .f32)
    (hacc : (0xFF800000#32 : BitVec 32) = FKind.maximumf.neutral .f32 hφ) (p : Fin 256) :
    multiReduction .maximumf [1] S256 src 0xFF800000#32 reduces_S256x2048_S256 hφ hacc (ix1 p)
      = (Finset.univ : Finset (Fin 2048)).fold max (Ideal.ofBits .f32 0xFF800000#32) (fun k => src (ix2 p k)) :=
  (Ideal.multiReduction_maximumf_single src _ reduces_S256x2048_S256 hφ hacc (ix1 p)).trans
    (congrArg (fun f => (Finset.univ : Finset (Fin 2048)).fold max (Ideal.ofBits .f32 0xFF800000#32) f)
      (funext fun k => congrArg src (funext fun a => Fin.ext (by match a with | ⟨0, _⟩ => rfl | ⟨1, _⟩ => rfl))))

theorem qkT_l0 (i : S256x2048.Idx) (q : dot_S256x768_S2048x768_S256x2048_1_1_0_0_n_n.contr.Idx) : (dot_S256x768_S2048x768_S256x2048_1_1_0_0_n_n.lhsIdx i q 0).val = (i 0).val := by
  unfold DotDims.lhsIdx
  rw [dif_neg (show ¬(0 : Fin S256x768.rank) ∈ dot_S256x768_S2048x768_S256x2048_1_1_0_0_n_n.lhsBatch by decide), dif_pos (show (0 : Fin S256x768.rank) ∈ dot_S256x768_S2048x768_S256x2048_1_1_0_0_n_n.lhsNonContracting by decide)]
  rfl
theorem qkT_l1 (i : S256x2048.Idx) (q : dot_S256x768_S2048x768_S256x2048_1_1_0_0_n_n.contr.Idx) : (dot_S256x768_S2048x768_S256x2048_1_1_0_0_n_n.lhsIdx i q 1).val = (q ⟨0, by decide⟩).val :=
  dot_S256x768_S2048x768_S256x2048_1_1_0_0_n_n.lhsIdx_val_of_single rfl i q
theorem qkT_r0 (i : S256x2048.Idx) (q : dot_S256x768_S2048x768_S256x2048_1_1_0_0_n_n.contr.Idx) : (dot_S256x768_S2048x768_S256x2048_1_1_0_0_n_n.rhsIdx i q 0).val = (i 1).val := by
  unfold DotDims.rhsIdx
  rw [dif_neg (show ¬(0 : Fin S2048x768.rank) ∈ dot_S256x768_S2048x768_S256x2048_1_1_0_0_n_n.rhsBatch by decide), dif_pos (show (0 : Fin S2048x768.rank) ∈ dot_S256x768_S2048x768_S256x2048_1_1_0_0_n_n.rhsNonContracting by decide)]
  rfl
theorem qkT_r1 (i : S256x2048.Idx) (q : dot_S256x768_S2048x768_S256x2048_1_1_0_0_n_n.contr.Idx) : (dot_S256x768_S2048x768_S256x2048_1_1_0_0_n_n.rhsIdx i q 1).val = (q ⟨0, by decide⟩).val :=
  dot_S256x768_S2048x768_S256x2048_1_1_0_0_n_n.rhsIdx_val_of_single rfl i q

/-- The product qkT: entry (p, c) is the sum over the contracted coordinate. -/
theorem qkT_apply (a : FVec Ideal S256x768 .bf16) (b : FVec Ideal S2048x768 .bf16) (p : Fin 256) (c : Fin 2048) :
    matmul dot_S256x768_S2048x768_S256x2048_1_1_0_0_n_n none a b (constant S256x2048 .f32 0x00000000#32) (ix2 p c)
      = ∑ k : Fin 768, a (ix2 p k) * b (ix2 c k) := by
  simp only [matmul]
  rw [Ideal.matmul_constant_zero_apply, ← Equiv.sum_comp (contrEquiv1 dot_S256x768_S2048x768_S256x2048_1_1_0_0_n_n 768 rfl rfl).symm]
  refine Finset.sum_congr rfl fun k _ => ?_
  have hk := contrEquiv1_symm_val dot_S256x768_S2048x768_S256x2048_1_1_0_0_n_n 768 rfl rfl k
  have el : dot_S256x768_S2048x768_S256x2048_1_1_0_0_n_n.lhsIdx (ix2 p c) ((contrEquiv1 dot_S256x768_S2048x768_S256x2048_1_1_0_0_n_n 768 rfl rfl).symm k) = ix2 p k := funext fun x => Fin.ext (by
    match x with
    | ⟨0, _⟩ => exact qkT_l0 _ _
    | ⟨1, _⟩ => exact (qkT_l1 _ _).trans hk)
  have er : dot_S256x768_S2048x768_S256x2048_1_1_0_0_n_n.rhsIdx (ix2 p c) ((contrEquiv1 dot_S256x768_S2048x768_S256x2048_1_1_0_0_n_n 768 rfl rfl).symm k) = ix2 c k := funext fun x => Fin.ext (by
    match x with
    | ⟨0, _⟩ => exact qkT_r0 _ _
    | ⟨1, _⟩ => exact (qkT_r1 _ _).trans hk)
  rw [el, er]

theorem pv_l0 (i : S256x768.Idx) (q : dot_S256x2048_S2048x768_S256x768_1_0_0_1_n_n.contr.Idx) : (dot_S256x2048_S2048x768_S256x768_1_0_0_1_n_n.lhsIdx i q 0).val = (i 0).val := by
  unfold DotDims.lhsIdx
  rw [dif_neg (show ¬(0 : Fin S256x2048.rank) ∈ dot_S256x2048_S2048x768_S256x768_1_0_0_1_n_n.lhsBatch by decide), dif_pos (show (0 : Fin S256x2048.rank) ∈ dot_S256x2048_S2048x768_S256x768_1_0_0_1_n_n.lhsNonContracting by decide)]
  rfl
theorem pv_l1 (i : S256x768.Idx) (q : dot_S256x2048_S2048x768_S256x768_1_0_0_1_n_n.contr.Idx) : (dot_S256x2048_S2048x768_S256x768_1_0_0_1_n_n.lhsIdx i q 1).val = (q ⟨0, by decide⟩).val :=
  dot_S256x2048_S2048x768_S256x768_1_0_0_1_n_n.lhsIdx_val_of_single rfl i q
theorem pv_r1 (i : S256x768.Idx) (q : dot_S256x2048_S2048x768_S256x768_1_0_0_1_n_n.contr.Idx) : (dot_S256x2048_S2048x768_S256x768_1_0_0_1_n_n.rhsIdx i q 1).val = (i 1).val := by
  unfold DotDims.rhsIdx
  rw [dif_neg (show ¬(1 : Fin S2048x768.rank) ∈ dot_S256x2048_S2048x768_S256x768_1_0_0_1_n_n.rhsBatch by decide), dif_pos (show (1 : Fin S2048x768.rank) ∈ dot_S256x2048_S2048x768_S256x768_1_0_0_1_n_n.rhsNonContracting by decide)]
  rfl
theorem pv_r0 (i : S256x768.Idx) (q : dot_S256x2048_S2048x768_S256x768_1_0_0_1_n_n.contr.Idx) : (dot_S256x2048_S2048x768_S256x768_1_0_0_1_n_n.rhsIdx i q 0).val = (q ⟨0, by decide⟩).val :=
  dot_S256x2048_S2048x768_S256x768_1_0_0_1_n_n.rhsIdx_val_of_single rfl i q

/-- The product pv: entry (p, c) is the sum over the contracted coordinate. -/
theorem pv_apply (a : FVec Ideal S256x2048 .bf16) (b : FVec Ideal S2048x768 .bf16) (p : Fin 256) (c : Fin 768) :
    matmul dot_S256x2048_S2048x768_S256x768_1_0_0_1_n_n none a b (constant S256x768 .f32 0x00000000#32) (ix2 p c)
      = ∑ k : Fin 2048, a (ix2 p k) * b (ix2 k c) := by
  simp only [matmul]
  rw [Ideal.matmul_constant_zero_apply, ← Equiv.sum_comp (contrEquiv1 dot_S256x2048_S2048x768_S256x768_1_0_0_1_n_n 2048 rfl rfl).symm]
  refine Finset.sum_congr rfl fun k _ => ?_
  have hk := contrEquiv1_symm_val dot_S256x2048_S2048x768_S256x768_1_0_0_1_n_n 2048 rfl rfl k
  have el : dot_S256x2048_S2048x768_S256x768_1_0_0_1_n_n.lhsIdx (ix2 p c) ((contrEquiv1 dot_S256x2048_S2048x768_S256x768_1_0_0_1_n_n 2048 rfl rfl).symm k) = ix2 p k := funext fun x => Fin.ext (by
    match x with
    | ⟨0, _⟩ => exact pv_l0 _ _
    | ⟨1, _⟩ => exact (pv_l1 _ _).trans hk)
  have er : dot_S256x2048_S2048x768_S256x768_1_0_0_1_n_n.rhsIdx (ix2 p c) ((contrEquiv1 dot_S256x2048_S2048x768_S256x768_1_0_0_1_n_n 2048 rfl rfl).symm k) = ix2 k c := funext fun x => Fin.ext (by
    match x with
    | ⟨1, _⟩ => exact pv_r1 _ _
    | ⟨0, _⟩ => exact (pv_r0 _ _).trans hk)
  rw [el, er]

theorem xWd_l0 (i : S256x768.Idx) (q : dot_S256x768_S768x768_S256x768_1_0_0_1_n_n.contr.Idx) : (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem xWd_l1 (i : S256x768.Idx) (q : dot_S256x768_S768x768_S256x768_1_0_0_1_n_n.contr.Idx) : (dot_S256x768_S768x768_S256x768_1_0_0_1_n_n.lhsIdx i q 1).val = (q ⟨0, by decide⟩).val :=
  dot_S256x768_S768x768_S256x768_1_0_0_1_n_n.lhsIdx_val_of_single rfl i q
theorem xWd_r1 (i : S256x768.Idx) (q : dot_S256x768_S768x768_S256x768_1_0_0_1_n_n.contr.Idx) : (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl
theorem xWd_r0 (i : S256x768.Idx) (q : dot_S256x768_S768x768_S256x768_1_0_0_1_n_n.contr.Idx) : (dot_S256x768_S768x768_S256x768_1_0_0_1_n_n.rhsIdx i q 0).val = (q ⟨0, by decide⟩).val :=
  dot_S256x768_S768x768_S256x768_1_0_0_1_n_n.rhsIdx_val_of_single rfl i q

/-- The product xWd: entry (p, c) is the sum over the contracted coordinate. -/
theorem xWd_apply (a : FVec Ideal S256x768 .bf16) (b : FVec Ideal S768x768 .bf16) (p : Fin 256) (c : Fin 768) :
    matmul dot_S256x768_S768x768_S256x768_1_0_0_1_n_n none a b (constant S256x768 .f32 0x00000000#32) (ix2 p c)
      = ∑ k : Fin 768, a (ix2 p k) * b (ix2 k c) := by
  simp only [matmul]
  rw [Ideal.matmul_constant_zero_apply, ← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 p c) ((contrEquiv1 dot_S256x768_S768x768_S256x768_1_0_0_1_n_n 768 rfl rfl).symm k) = ix2 p k := funext fun x => Fin.ext (by
    match x with
    | ⟨0, _⟩ => exact xWd_l0 _ _
    | ⟨1, _⟩ => exact (xWd_l1 _ _).trans hk)
  have er : dot_S256x768_S768x768_S256x768_1_0_0_1_n_n.rhsIdx (ix2 p c) ((contrEquiv1 dot_S256x768_S768x768_S256x768_1_0_0_1_n_n 768 rfl rfl).symm k) = ix2 k c := funext fun x => Fin.ext (by
    match x with
    | ⟨1, _⟩ => exact xWd_r1 _ _
    | ⟨0, _⟩ => exact (xWd_r0 _ _).trans hk)
  rw [el, er]

end Cert.KernelIdeal.AttnOps

end
-- ==== Proof.AttnPay.lean ====
/-
  The second kernel's arithmetic at an index, at the ideal values.

  On one block the body holds 256 rows x of X and q of Q, the batch's 2048 rows of K and V, and the parameter rows.
  Entry (p, d) of what it stores is the output row function of the specification at row p:
  * the scores of row p are the sums Σ_e q[p,e]·K[k,e]; their maximum over k is a fold of max from -∞; the shifted
    exponentials e_k, their lane sum l, the product Σ_k e_k·V[k,d] and its quotient by l give the attention row;
  * the residual x + attn, its lane mean (a lane sum divided by 768, kept as a column and broadcast back), the centred row,
    the lane mean of its squares plus ε under a reciprocal square root, the scale and the shift give the first LayerNorm;
  * the product with Wd plus bd, the second residual and the same three steps give the second LayerNorm.
  Each step is read through the index by the per-operation lemmas beside this module; a change of float format is the
  identity, so the conversions to bf16 in front of the three products disappear.
-/
import proofs.«107328_j81389630259580_2_alg».proof.Proof.AttnOps
import proofs.«107328_j81389630259580_2_alg».proof.Proof.RowSpec

noncomputable section

namespace Cert.KernelIdeal.AttnPay

open Cert.KernelIdeal Cert.KernelIdeal.Gen Cert.KernelIdeal.AttnOps Idealize.ShloMosaic Idealize.ShloMosaic.ValueIdx Cert.Attn

variable {s : Shape} {φ : FTy}

theorem exp_apply (a : FVec Ideal s φ) (i : s.Idx) : exp a i = Ideal.exp (a i) := rfl
theorem rsqrt_apply (a : FVec Ideal s φ) (i : s.Idx) : rsqrt a i = Ideal.rsqrt (a i) := rfl
theorem scalar_ofBits (w : BitVec 32) : (Scalar.ofBits (F := Ideal) .f32 w) = Ideal.ofBits .f32 w := rfl

/-- The residual input of the first LayerNorm: the block's row of X plus the attention row. -/
theorem pay2_apply (v0 : Vec Ideal S1x256x768 .f32) (v2 : Vec Ideal S1x256x768 .bf16) (v4 v6 : Vec Ideal S1x2048x768 .bf16)
    (p : Fin 256) (d : Fin 768) :
    k1_pay2 v0 v2 v4 v6 (ix2 p d)
      = v0 (ix3 (0 : Fin 1) p d) + rowAttn (fun e => v2 (ix3 (0 : Fin 1) p e)) (fun k e => v4 (ix3 (0 : Fin 1) k e)) (fun k d => v6 (ix3 (0 : Fin 1) k d)) d := by
  unfold k1_pay2
  simp only [addf_apply, divf_apply, drop256_apply, pv_apply]
  simp only [truncf_apply, drop2048_apply]
  simp only [exp_apply]
  simp only [subf_apply]
  simp only [qkT_apply]
  simp only [bcol768_apply, bcol2048_apply]
  simp only [col_apply]
  rw [sum2048_apply, max2048_apply]
  simp only [exp_apply, subf_apply, qkT_apply, bcol2048_apply, col_apply, drop256_apply, drop2048_apply]
  rw [max2048_apply]
  simp only [qkT_apply, drop256_apply, drop2048_apply]
  rfl

/-- The first LayerNorm's mean, kept as a column. -/
theorem pay3_apply (v0 : Vec Ideal S1x256x768 .f32) (v2 : Vec Ideal S1x256x768 .bf16) (v4 v6 : Vec Ideal S1x2048x768 .bf16)
    (p : Fin 256) (u : Fin 1) :
    k1_pay3 v0 v2 v4 v6 (ix2 p u) = mean (fun k => k1_pay2 v0 v2 v4 v6 (ix2 p k)) := by
  unfold k1_pay3
  simp only [divf_apply, col_apply, broadcast_apply, scalar_ofBits]
  rw [sum768_apply]
  rfl

/-- The centred row. -/
theorem pay4_apply (v0 : Vec Ideal S1x256x768 .f32) (v2 : Vec Ideal S1x256x768 .bf16) (v4 v6 : Vec Ideal S1x2048x768 .bf16)
    (p : Fin 256) (d : Fin 768) :
    k1_pay4 v0 v2 v4 v6 (ix2 p d) = k1_pay2 v0 v2 v4 v6 (ix2 p d) - mean (fun k => k1_pay2 v0 v2 v4 v6 (ix2 p k)) := by
  unfold k1_pay4
  simp only [subf_apply, bcol768_apply, pay3_apply]

/-- The reciprocal standard deviation, kept as a column. -/
theorem pay5_apply (v0 : Vec Ideal S1x256x768 .f32) (v2 : Vec Ideal S1x256x768 .bf16) (v4 v6 : Vec Ideal S1x2048x768 .bf16)
    (p : Fin 256) (u : Fin 1) :
    k1_pay5 v0 v2 v4 v6 (ix2 p u)
      = Ideal.rsqrt (Ideal.div (∑ j : Fin 768, (k1_pay2 v0 v2 v4 v6 (ix2 p j) - mean (fun k => k1_pay2 v0 v2 v4 v6 (ix2 p k)))
          * (k1_pay2 v0 v2 v4 v6 (ix2 p j) - mean (fun k => k1_pay2 v0 v2 v4 v6 (ix2 p k)))) n768 + epsW) := by
  unfold k1_pay5
  simp only [rsqrt_apply, addf_apply, divf_apply, col_apply, broadcast_apply, scalar_ofBits]
  rw [sum768_apply]
  simp only [mulf_apply, subf_apply, bcol768_apply, pay3_apply]

/-- The dense layer, the second residual and the second LayerNorm up to its scale, from a centred row c, its reciprocal
    deviation r and the parameter rows. -/
theorem pay6_apply (v33 : FVec Ideal S256x768 .f32) (v36 : FVec Ideal S256x1 .f32) (v39 v43 : Vec Ideal S1x768 .f32)
    (v48 : Vec Ideal S768x768 .bf16) (v51 v74 : Vec Ideal S1x768 .f32) (p : Fin 256) (d : Fin 768) :
    k1_pay6 v33 v36 v39 v43 v48 v51 v74 (ix2 p d)
      = (fun y : V1 => (y d - mean y) * Ideal.rsqrt (Ideal.div (∑ j : Fin 768, (y j - mean y) * (y j - mean y)) n768 + epsW)
            * v74 (ix2 (0 : Fin 1) d))
          (fun d => (v33 (ix2 p d) * v36 (ix2 p (0 : Fin 1)) * v39 (ix2 (0 : Fin 1) d) + v43 (ix2 (0 : Fin 1) d))
            + ((∑ j : Fin 768, (v33 (ix2 p j) * v36 (ix2 p (0 : Fin 1)) * v39 (ix2 (0 : Fin 1) j) + v43 (ix2 (0 : Fin 1) j)) * v48 (ix2 j d))
                + v51 (ix2 (0 : Fin 1) d))) := by
  unfold k1_pay6
  simp only [mulf_apply, addf_apply, subf_apply, divf_apply, rsqrt_apply, truncf_apply, col_apply, broadcast_apply,
    scalar_ofBits, bcol768_apply, brow_apply, xWd_apply, shapeCast_self]
  repeat rw [sum768_apply]
  try simp only [mulf_apply, addf_apply, subf_apply, divf_apply, rsqrt_apply, truncf_apply, col_apply, broadcast_apply,
    scalar_ofBits, bcol768_apply, brow_apply, xWd_apply, shapeCast_self]
  repeat rw [sum768_apply]
  try simp only [mulf_apply, addf_apply, subf_apply, divf_apply, rsqrt_apply, truncf_apply, col_apply, broadcast_apply,
    scalar_ofBits, bcol768_apply, brow_apply, xWd_apply, shapeCast_self]
  rfl

/-- The stored block: the scaled row plus the shift, as a [1, 256, 768] block. -/
theorem pay1_apply (v77 : FVec Ideal S256x768 .f32) (v78 : Vec Ideal S1x768 .f32) (u : Fin 1) (p : Fin 256) (d : Fin 768) :
    k1_pay1 v77 v78 (ix3 u p d) = v77 (ix2 p d) + v78 (ix2 (0 : Fin 1) d) := by
  unfold k1_pay1
  simp only [add256_apply, addf_apply, brow_apply, shapeCast_self]

/-- THE BODY'S RESULT AT AN INDEX: the output row function of the block's rows and the parameter rows. -/
theorem out_apply (v0 : Vec Ideal S1x256x768 .f32) (v2 : Vec Ideal S1x256x768 .bf16) (v4 v6 : Vec Ideal S1x2048x768 .bf16)
    (v39 v43 : Vec Ideal S1x768 .f32) (v48 : Vec Ideal S768x768 .bf16) (v51 v74 v78 : Vec Ideal S1x768 .f32)
    (u : Fin 1) (p : Fin 256) (d : Fin 768) :
    k1_pay1 (k1_pay6 (k1_pay4 v0 v2 v4 v6) (k1_pay5 v0 v2 v4 v6) v39 v43 v48 v51 v74) v78 (ix3 u p d)
      = rowOut (fun d => v0 (ix3 (0 : Fin 1) p d)) (fun e => v2 (ix3 (0 : Fin 1) p e)) (fun k e => v4 (ix3 (0 : Fin 1) k e))
          (fun k d => v6 (ix3 (0 : Fin 1) k d)) (fun d => v39 (ix2 (0 : Fin 1) d)) (fun d => v43 (ix2 (0 : Fin 1) d))
          (fun a b => v48 (ix2 a b)) (fun d => v51 (ix2 (0 : Fin 1) d)) (fun d => v74 (ix2 (0 : Fin 1) d))
          (fun d => v78 (ix2 (0 : Fin 1) d)) d := by
  rw [pay1_apply, pay6_apply]
  simp only [pay4_apply, pay5_apply, pay2_apply]
  rfl

end Cert.KernelIdeal.AttnPay

end
-- ==== Proof.KIArrays1.lean ====
/-
  From blocks to whole arrays: the second kernel region.

  The region runs its body at the 8 × 8 points (b, i) of its grid, point number t = 8·b + i. At that point the body
  reads rows 256·i … 256·i + 255 of batch b of the input and of the query array (two [8, 2048, 768] arrays), all
  2048 rows of batch b of the key and of the value array, all of the dense layer's [768, 768] matrix and all of
  five [1, 768] parameter rows, and writes rows 256·i … 256·i + 255 of batch b of the [8, 2048, 768] output. The 64
  row blocks tile the output, so after the region the output array is one function of the ten input arrays, index
  by index: at (b, r, d), component d of the output row computed from row r of batch b of the input and of the
  query array, batch b of the key and value arrays, and the parameters.

  The steps: where each window's block sits at a point (decided once over the grid); a block of an input read at a
  coordinate is the array read at the block's offset plus the coordinate; what a point writes back is the block of
  the whole-array function at that point; every index lies in the block of the point (batch, row / 256).

  The body's arithmetic at an index — its payload read at (0, p, d) is the output row of the block's row p — enters the
  steps as a hypothesis (`arr1_10_of`), which the last theorem discharges with the reading of the payload.
-/
import proofs.«107328_j81389630259580_2_alg».proof.Proof.KI1
import proofs.«107328_j81389630259580_2_alg».proof.Proof.RowSpec
import proofs.«107328_j81389630259580_2_alg».proof.Proof.AttnPay
import Idealize.ShloMosaic.Lib.Pipeline.Value
import Idealize.ShloMosaic.Lib.ValueIdx

noncomputable section

namespace Cert.KernelIdeal.Arrays

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the arrays' contents when the region is entered
variable (V : (c : Dev nD) → (b : Ref sig .tc) → Buf (Elt Ideal) ((c : Thread nD τ).loc b))

theorem no_offsets2 : (![0, 0] : Fin 2 → Nat) = fun _ => 0 := funext fun a => by fin_cases a <;> rfl
theorem no_offsets3 : (![0, 0, 0] : Fin 3 → Nat) = fun _ => 0 := funext fun a => by fin_cases a <;> rfl

/-- Where each window's block sits at grid point t = 8·b + i, decided over the 64 points: the row-blocked windows
    (input rows, query rows, output) at block (b, i, 0); the key and value windows at block (b, 0, 0); the matrix and
    the five parameter rows at block (0, 0). -/
theorem blocks_at1 : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = t.val % 8 ∧ win1_1.index t (2 : Fin 3) = 0)
    ∧ (win1_2.index t (0 : Fin 3) = t.val / 8 ∧ win1_2.index t (1 : Fin 3) = 0 ∧ win1_2.index t (2 : Fin 3) = 0)
    ∧ (win1_3.index t (0 : Fin 3) = t.val / 8 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 3) = t.val / 8 ∧ win1_10.index t (1 : Fin 3) = t.val % 8 ∧ win1_10.index t (2 : Fin 3) = 0) :=
  (by decide +kernel : ∀ t : Fin grid1.N, _)

/-- Every (batch, row block) pair is some point's. -/
theorem point_of_block1 : ∀ (q0 q1 : Fin 8), ∃ t : Fin cfg1.N, t.val = q0.val * 8 + q1.val :=
  (by decide +kernel : ∀ (q0 q1 : Fin 8), ∃ t : Fin grid1.N, t.val = q0.val * 8 + q1.val)

/-- The input rows' block at point t = 8·b + i, read at (0, p, d), is the array at batch b, row 256·i + p, component d. -/
theorem rows_block1_0 (c : Dev nD) (t : Fin cfg1.N) (x : S1x256x768.Idx) (k : S8x2048x768.Idx)
    (hk0 : (k 0).val = t.val / 8) (hk1 : (k 1).val = 256 * (t.val % 8) + (x 1).val) (hk2 : (k 2).val = (x 2).val) :
    (iblk1 V c 0 t : Vec Ideal S1x256x768 .f32) x = (V c main_arg0 : S8x2048x768.Idx → EReal) k := by
  obtain ⟨h0, h1, h2, h3, h4, h5, h6, h7, h8, h9, h10⟩ := blocks_at1 t
  obtain ⟨e0, e1, e2⟩ := h0
  have hx0 : (x 0).val < 1 := (x 0).isLt
  unfold iblk1
  rw [View.read_apply]
  show V c main_arg0 _ = V c main_arg0 _
  congr 1
  funext a
  apply Fin.ext
  match a with
  | ⟨0, _⟩ => show win1_0.index t 0 * 1 + 1 * (x 0).val = (k 0).val; rw [e0, hk0]; omega
  | ⟨1, _⟩ => show win1_0.index t 1 * 256 + 1 * (x 1).val = (k 1).val; rw [e1, hk1]; omega
  | ⟨2, _⟩ => show win1_0.index t 2 * 768 + 1 * (x 2).val = (k 2).val; rw [e2, hk2]; omega

/-- The query rows' block at point t = 8·b + i, read at (0, p, d), is the array at batch b, row 256·i + p, component d. -/
theorem rows_block1_1 (c : Dev nD) (t : Fin cfg1.N) (x : S1x256x768.Idx) (k : S8x2048x768.Idx)
    (hk0 : (k 0).val = t.val / 8) (hk1 : (k 1).val = 256 * (t.val % 8) + (x 1).val) (hk2 : (k 2).val = (x 2).val) :
    (iblk1 V c 1 t : Vec Ideal S1x256x768 .bf16) x = (V c main_v6 : S8x2048x768.Idx → EReal) k := by
  obtain ⟨h0, h1, h2, h3, h4, h5, h6, h7, h8, h9, h10⟩ := blocks_at1 t
  obtain ⟨e0, e1, e2⟩ := h1
  have hx0 : (x 0).val < 1 := (x 0).isLt
  unfold iblk1
  rw [View.read_apply]
  show V c main_v6 _ = V c main_v6 _
  congr 1
  funext a
  apply Fin.ext
  match a with
  | ⟨0, _⟩ => show win1_1.index t 0 * 1 + 1 * (x 0).val = (k 0).val; rw [e0, hk0]; omega
  | ⟨1, _⟩ => show win1_1.index t 1 * 256 + 1 * (x 1).val = (k 1).val; rw [e1, hk1]; omega
  | ⟨2, _⟩ => show win1_1.index t 2 * 768 + 1 * (x 2).val = (k 2).val; rw [e2, hk2]; omega

/-- The key block at point t = 8·b + i is all of batch b: read at (0, r, d), the array at (b, r, d). -/
theorem batch_block1_2 (c : Dev nD) (t : Fin cfg1.N) (x : S1x2048x768.Idx) (k : S8x2048x768.Idx)
    (hk0 : (k 0).val = t.val / 8) (hk1 : (k 1).val = (x 1).val) (hk2 : (k 2).val = (x 2).val) :
    (iblk1 V c 2 t : Vec Ideal S1x2048x768 .bf16) x = (V c main_v7 : S8x2048x768.Idx → EReal) k := by
  obtain ⟨h0, h1, h2, h3, h4, h5, h6, h7, h8, h9, h10⟩ := blocks_at1 t
  obtain ⟨e0, e1, e2⟩ := h2
  have hx0 : (x 0).val < 1 := (x 0).isLt
  unfold iblk1
  rw [View.read_apply]
  show V c main_v7 _ = V c main_v7 _
  congr 1
  funext a
  apply Fin.ext
  match a with
  | ⟨0, _⟩ => show win1_2.index t 0 * 1 + 1 * (x 0).val = (k 0).val; rw [e0, hk0]; omega
  | ⟨1, _⟩ => show win1_2.index t 1 * 2048 + 1 * (x 1).val = (k 1).val; rw [e1, hk1]; omega
  | ⟨2, _⟩ => show win1_2.index t 2 * 768 + 1 * (x 2).val = (k 2).val; rw [e2, hk2]; omega

/-- The value block at point t = 8·b + i is all of batch b: read at (0, r, d), the array at (b, r, d). -/
theorem batch_block1_3 (c : Dev nD) (t : Fin cfg1.N) (x : S1x2048x768.Idx) (k : S8x2048x768.Idx)
    (hk0 : (k 0).val = t.val / 8) (hk1 : (k 1).val = (x 1).val) (hk2 : (k 2).val = (x 2).val) :
    (iblk1 V c 3 t : Vec Ideal S1x2048x768 .bf16) x = (V c main_v8 : S8x2048x768.Idx → EReal) k := by
  obtain ⟨h0, h1, h2, h3, h4, h5, h6, h7, h8, h9, h10⟩ := blocks_at1 t
  obtain ⟨e0, e1, e2⟩ := h3
  have hx0 : (x 0).val < 1 := (x 0).isLt
  unfold iblk1
  rw [View.read_apply]
  show V c main_v8 _ = V c main_v8 _
  congr 1
  funext a
  apply Fin.ext
  match a with
  | ⟨0, _⟩ => show win1_3.index t 0 * 1 + 1 * (x 0).val = (k 0).val; rw [e0, hk0]; omega
  | ⟨1, _⟩ => show win1_3.index t 1 * 2048 + 1 * (x 1).val = (k 1).val; rw [e1, hk1]; omega
  | ⟨2, _⟩ => show win1_3.index t 2 * 768 + 1 * (x 2).val = (k 2).val; rw [e2, hk2]; omega

/-- The first scale row's block is the whole array at every point. -/
theorem whole_block1_4 (c : Dev nD) (t : Fin cfg1.N) (x : S1x768.Idx) :
    (iblk1 V c 4 t : Vec Ideal S1x768 .f32) x = (V c main_v9 : S1x768.Idx → EReal) x := by
  obtain ⟨h0, h1, h2, h3, h4, h5, h6, h7, h8, h9, h10⟩ := blocks_at1 t
  obtain ⟨e0, e1⟩ := h4
  unfold iblk1
  rw [View.read_apply]
  show V c main_v9 _ = V c main_v9 _
  congr 1
  funext a
  apply Fin.ext
  match a with
  | ⟨0, _⟩ => show win1_4.index t 0 * 1 + 1 * (x 0).val = (x 0).val; rw [e0]; omega
  | ⟨1, _⟩ => show win1_4.index t 1 * 768 + 1 * (x 1).val = (x 1).val; rw [e1]; omega

/-- The first shift row's block is the whole array at every point. -/
theorem whole_block1_5 (c : Dev nD) (t : Fin cfg1.N) (x : S1x768.Idx) :
    (iblk1 V c 5 t : Vec Ideal S1x768 .f32) x = (V c main_v10 : S1x768.Idx → EReal) x := by
  obtain ⟨h0, h1, h2, h3, h4, h5, h6, h7, h8, h9, h10⟩ := blocks_at1 t
  obtain ⟨e0, e1⟩ := h5
  unfold iblk1
  rw [View.read_apply]
  show V c main_v10 _ = V c main_v10 _
  congr 1
  funext a
  apply Fin.ext
  match a with
  | ⟨0, _⟩ => show win1_5.index t 0 * 1 + 1 * (x 0).val = (x 0).val; rw [e0]; omega
  | ⟨1, _⟩ => show win1_5.index t 1 * 768 + 1 * (x 1).val = (x 1).val; rw [e1]; omega

/-- The dense layer's matrix's block is the whole array at every point. -/
theorem whole_block1_6 (c : Dev nD) (t : Fin cfg1.N) (x : S768x768.Idx) :
    (iblk1 V c 6 t : Vec Ideal S768x768 .bf16) x = (V c main_v11 : S768x768.Idx → EReal) x := by
  obtain ⟨h0, h1, h2, h3, h4, h5, h6, h7, h8, h9, h10⟩ := blocks_at1 t
  obtain ⟨e0, e1⟩ := h6
  unfold iblk1
  rw [View.read_apply]
  show V c main_v11 _ = V c main_v11 _
  congr 1
  funext a
  apply Fin.ext
  match a with
  | ⟨0, _⟩ => show win1_6.index t 0 * 768 + 1 * (x 0).val = (x 0).val; rw [e0]; omega
  | ⟨1, _⟩ => show win1_6.index t 1 * 768 + 1 * (x 1).val = (x 1).val; rw [e1]; omega

/-- The dense layer's bias row's block is the whole array at every point. -/
theorem whole_block1_7 (c : Dev nD) (t : Fin cfg1.N) (x : S1x768.Idx) :
    (iblk1 V c 7 t : Vec Ideal S1x768 .f32) x = (V c main_v12 : S1x768.Idx → EReal) x := by
  obtain ⟨h0, h1, h2, h3, h4, h5, h6, h7, h8, h9, h10⟩ := blocks_at1 t
  obtain ⟨e0, e1⟩ := h7
  unfold iblk1
  rw [View.read_apply]
  show V c main_v12 _ = V c main_v12 _
  congr 1
  funext a
  apply Fin.ext
  match a with
  | ⟨0, _⟩ => show win1_7.index t 0 * 1 + 1 * (x 0).val = (x 0).val; rw [e0]; omega
  | ⟨1, _⟩ => show win1_7.index t 1 * 768 + 1 * (x 1).val = (x 1).val; rw [e1]; omega

/-- The second scale row's block is the whole array at every point. -/
theorem whole_block1_8 (c : Dev nD) (t : Fin cfg1.N) (x : S1x768.Idx) :
    (iblk1 V c 8 t : Vec Ideal S1x768 .f32) x = (V c main_v13 : S1x768.Idx → EReal) x := by
  obtain ⟨h0, h1, h2, h3, h4, h5, h6, h7, h8, h9, h10⟩ := blocks_at1 t
  obtain ⟨e0, e1⟩ := h8
  unfold iblk1
  rw [View.read_apply]
  show V c main_v13 _ = V c main_v13 _
  congr 1
  funext a
  apply Fin.ext
  match a with
  | ⟨0, _⟩ => show win1_8.index t 0 * 1 + 1 * (x 0).val = (x 0).val; rw [e0]; omega
  | ⟨1, _⟩ => show win1_8.index t 1 * 768 + 1 * (x 1).val = (x 1).val; rw [e1]; omega

/-- The second shift row's block is the whole array at every point. -/
theorem whole_block1_9 (c : Dev nD) (t : Fin cfg1.N) (x : S1x768.Idx) :
    (iblk1 V c 9 t : Vec Ideal S1x768 .f32) x = (V c main_v14 : S1x768.Idx → EReal) x := by
  obtain ⟨h0, h1, h2, h3, h4, h5, h6, h7, h8, h9, h10⟩ := blocks_at1 t
  obtain ⟨e0, e1⟩ := h9
  unfold iblk1
  rw [View.read_apply]
  show V c main_v14 _ = V c main_v14 _
  congr 1
  funext a
  apply Fin.ext
  match a with
  | ⟨0, _⟩ => show win1_9.index t 0 * 1 + 1 * (x 0).val = (x 0).val; rw [e0]; omega
  | ⟨1, _⟩ => show win1_9.index t 1 * 768 + 1 * (x 1).val = (x 1).val; rw [e1]; omega

/-- The layer's output as one function of the ten input arrays: at (b, r, d), component d of the output row computed
    from row r of batch b of the input and of the query array, batch b of the key and value arrays, and the parameters. -/
def rowsOf (X Q K Vv : S8x2048x768.Idx → EReal) (g1 b1 : S1x768.Idx → EReal) (Wd : S768x768.Idx → EReal)
    (bd g2 b2 : S1x768.Idx → EReal) : S8x2048x768.Idx → EReal := fun j =>
  Cert.Attn.rowOut
    (fun d => X (ix3 (⟨(j 0).val, (j 0).isLt⟩ : Fin 8) (⟨(j 1).val, (j 1).isLt⟩ : Fin 2048) d))
    (fun e => Q (ix3 (⟨(j 0).val, (j 0).isLt⟩ : Fin 8) (⟨(j 1).val, (j 1).isLt⟩ : Fin 2048) e))
    (fun k e => K (ix3 (⟨(j 0).val, (j 0).isLt⟩ : Fin 8) k e))
    (fun k d => Vv (ix3 (⟨(j 0).val, (j 0).isLt⟩ : Fin 8) k d))
    (fun d => g1 (ix2 (0 : Fin 1) d)) (fun d => b1 (ix2 (0 : Fin 1) d)) (fun a b => Wd (ix2 a b))
    (fun d => bd (ix2 (0 : Fin 1) d)) (fun d => g2 (ix2 (0 : Fin 1) d)) (fun d => b2 (ix2 (0 : Fin 1) d))
    (⟨(j 2).val, (j 2).isLt⟩ : Fin 768)

theorem rowsOf_apply (X Q K Vv : S8x2048x768.Idx → EReal) (g1 b1 : S1x768.Idx → EReal) (Wd : S768x768.Idx → EReal)
    (bd g2 b2 : S1x768.Idx → EReal) (j : S8x2048x768.Idx) :
    rowsOf X Q K Vv g1 b1 Wd bd g2 b2 j
      = Cert.Attn.rowOut
          (fun d => X (ix3 (⟨(j 0).val, (j 0).isLt⟩ : Fin 8) (⟨(j 1).val, (j 1).isLt⟩ : Fin 2048) d))
          (fun e => Q (ix3 (⟨(j 0).val, (j 0).isLt⟩ : Fin 8) (⟨(j 1).val, (j 1).isLt⟩ : Fin 2048) e))
          (fun k e => K (ix3 (⟨(j 0).val, (j 0).isLt⟩ : Fin 8) k e))
          (fun k d => Vv (ix3 (⟨(j 0).val, (j 0).isLt⟩ : Fin 8) k d))
          (fun d => g1 (ix2 (0 : Fin 1) d)) (fun d => b1 (ix2 (0 : Fin 1) d)) (fun a b => Wd (ix2 a b))
          (fun d => bd (ix2 (0 : Fin 1) d)) (fun d => g2 (ix2 (0 : Fin 1) d)) (fun d => b2 (ix2 (0 : Fin 1) d))
          (⟨(j 2).val, (j 2).isLt⟩ : Fin 768) := rfl

/-- The output row depends only on its ten arguments and the component. -/
theorem rowOut_congr {x x' q q' : Cert.Attn.V1} {K K' Vv Vv' : Fin 2048 → Cert.Attn.V1} {g1 g1' b1 b1' : Cert.Attn.V1}
    {Wd Wd' : Cert.Attn.M2} {bd bd' g2 g2' b2 b2' : Cert.Attn.V1} {d d' : Fin 768}
    (hx : x = x') (hq : q = q') (hK : K = K') (hV : Vv = Vv') (hg1 : g1 = g1') (hb1 : b1 = b1') (hW : Wd = Wd')
    (hbd : bd = bd') (hg2 : g2 = g2') (hb2 : b2 = b2') (hd : d = d') :
    Cert.Attn.rowOut x q K Vv g1 b1 Wd bd g2 b2 d = Cert.Attn.rowOut x' q' K' Vv' g1' b1' Wd' bd' g2' b2' d' := by
  subst hx hq hK hV hg1 hb1 hW hbd hg2 hb2 hd; rfl

/-- An index of the array is in point t's block iff each coordinate is in the block's range on its axis. -/
theorem mem_blk1_10 (t : Fin cfg1.N) (i : S8x2048x768.Idx) :
    i ∈ ((cfg1.win 10).blk t).view.set ↔ ∀ a : Fin 3, win1_10.index t a * S1x256x768.size a ≤ (i a).val
      ∧ (i a).val < win1_10.index t a * S1x256x768.size a + S1x256x768.size a := by
  show i ∈ ((View.whole main_v15).slice (win1_10.rect t)).set ↔ _
  rw [View.set_slice_whole, Rect.mem_set_unit]
  exact Iff.rfl

/-- Every index (b, r, d) of the array is in the block of the point 8·b + r / 256, which writes its block back. -/
theorem covered1_10 (i : S8x2048x768.Idx) :
    ∃ t : Fin cfg1.N, (cfg1.win 10).flush t = true ∧ i ∈ ((cfg1.win 10).blk t).view.set := by
  have hi0 : (i 0).val < 8 := (i 0).isLt
  have hi1 : (i 1).val < 2048 := (i 1).isLt
  have hi2 : (i 2).val < 768 := (i 2).isLt
  obtain ⟨t, ht⟩ := point_of_block1 ⟨(i 0).val, hi0⟩ ⟨(i 1).val / 256, by omega⟩
  have ht' : t.val = (i 0).val * 8 + (i 1).val / 256 := ht
  obtain ⟨h0, h1, h2, h3, h4, h5, h6, h7, h8, h9, h10⟩ := blocks_at1 t
  obtain ⟨e0, e1, e2⟩ := h10
  refine ⟨t, flush1_10 t, ?_⟩
  rw [mem_blk1_10]
  intro a
  match a with
  | ⟨0, _⟩ =>
    show win1_10.index t 0 * 1 ≤ (i 0).val ∧ (i 0).val < win1_10.index t 0 * 1 + 1
    rw [e0]; omega
  | ⟨1, _⟩ =>
    show win1_10.index t 1 * 256 ≤ (i 1).val ∧ (i 1).val < win1_10.index t 1 * 256 + 256
    rw [e1]; omega
  | ⟨2, _⟩ =>
    show win1_10.index t 2 * 768 ≤ (i 2).val ∧ (i 2).val < win1_10.index t 2 * 768 + 768
    rw [e2]; omega

section Payload

/- The body's arithmetic at an index: the payload of the ten loaded blocks, read at (u, p, d), is component d of the
   output row of the block's row p. -/
variable (hpay : ∀ (v0 : Vec Ideal S1x256x768 .f32) (v2 : Vec Ideal S1x256x768 .bf16) (v4 v6 : Vec Ideal S1x2048x768 .bf16)
    (v39 v43 : Vec Ideal S1x768 .f32) (v48 : Vec Ideal S768x768 .bf16) (v51 v74 v78 : Vec Ideal S1x768 .f32)
    (u : Fin 1) (p : Fin 256) (d : Fin 768),
    k1_pay1 (k1_pay6 (k1_pay4 v0 v2 v4 v6) (k1_pay5 v0 v2 v4 v6) v39 v43 v48 v51 v74) v78 (ix3 u p d)
      = Cert.Attn.rowOut (fun d => v0 (ix3 (0 : Fin 1) p d)) (fun e => v2 (ix3 (0 : Fin 1) p e))
          (fun k e => v4 (ix3 (0 : Fin 1) k e)) (fun k d => v6 (ix3 (0 : Fin 1) k d))
          (fun d => v39 (ix2 (0 : Fin 1) d)) (fun d => v43 (ix2 (0 : Fin 1) d)) (fun a b => v48 (ix2 a b))
          (fun d => v51 (ix2 (0 : Fin 1) d)) (fun d => v74 (ix2 (0 : Fin 1) d)) (fun d => v78 (ix2 (0 : Fin 1) d)) d)

include hpay in
/-- What point t writes back into the output is the point's block of the layer's whole-array function. -/
theorem flushed1_10_eq_of (c : Dev nD) (t : Fin cfg1.N) :
    (dat1 V c).flushed 10 t
      = ((cfg1.win 10).blk t).view.read (Elt Ideal)
          (rowsOf (V c main_arg0) (V c main_v6) (V c main_v7) (V c main_v8) (V c main_v9) (V c main_v10) (V c main_v11)
            (V c main_v12) (V c main_v13) (V c main_v14)) := by
  obtain ⟨h0, h1, h2, h3, h4, h5, h6, h7, h8, h9, h10⟩ := blocks_at1 t
  obtain ⟨e0, e1, e2⟩ := h10
  show (cfg1.win 10).cut (grid1.coords t) ((dat1 V c).after 10 t) = _
  rw [after1_10]
  unfold out1_10
  rw [View.canon_unit_zero no_offsets3]
  simp only [View.ld_unit_zero (S := S1x256x768) no_offsets3, View.ld_unit_zero (S := S1x2048x768) no_offsets3,
    View.ld_unit_zero (S := S1x768) no_offsets2, View.ld_unit_zero (S := S768x768) no_offsets2]
  refine funext fun (y : S1x256x768.Idx) => ?_
  rw [View.read_apply]
  obtain ⟨u, p, d, rfl⟩ : ∃ (u : Fin 1) (p : Fin 256) (d : Fin 768), y = ix3 u p d := ⟨y 0, y 1, y 2, eq_ix3 y⟩
  show k1_pay1 (k1_pay6 (k1_pay4 (iblk1 V c 0 t) (iblk1 V c 1 t) (iblk1 V c 2 t) (iblk1 V c 3 t))
      (k1_pay5 (iblk1 V c 0 t) (iblk1 V c 1 t) (iblk1 V c 2 t) (iblk1 V c 3 t)) (iblk1 V c 4 t) (iblk1 V c 5 t)
      (iblk1 V c 6 t) (iblk1 V c 7 t) (iblk1 V c 8 t)) (iblk1 V c 9 t) (ix3 u p d) = _
  refine (hpay (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) u p d).trans ?_
  refine Eq.trans ?_ (rowsOf_apply (V c main_arg0) (V c main_v6) (V c main_v7) (V c main_v8) (V c main_v9) (V c main_v10)
    (V c main_v11) (V c main_v12) (V c main_v13) (V c main_v14) _).symm
  -- the block's element (u, p, d) sits at batch b, row 256·i + p, component d of the array
  have hu : u.val < 1 := u.isLt
  have r0 : ((((cfg1.win 10).blk t).view.emb (ix3 u p d)) 0).val = t.val / 8 := by
    show win1_10.index t 0 * 1 + 1 * u.val = _; rw [e0]; omega
  have r1 : ((((cfg1.win 10).blk t).view.emb (ix3 u p d)) 1).val = 256 * (t.val % 8) + p.val := by
    show win1_10.index t 1 * 256 + 1 * p.val = _; rw [e1]; omega
  have r2 : ((((cfg1.win 10).blk t).view.emb (ix3 u p d)) 2).val = d.val := by
    show win1_10.index t 2 * 768 + 1 * d.val = _; rw [e2]; omega
  refine rowOut_congr ?_ ?_ ?_ ?_ ?_ ?_ ?_ ?_ ?_ ?_ ?_
  · exact funext fun d' => rows_block1_0 V c t _ _ r0 r1 rfl
  · exact funext fun d' => rows_block1_1 V c t _ _ r0 r1 rfl
  · exact funext fun k => funext fun d' => batch_block1_2 V c t _ _ r0 rfl rfl
  · exact funext fun k => funext fun d' => batch_block1_3 V c t _ _ r0 rfl rfl
  · exact funext fun d' => whole_block1_4 V c t _
  · exact funext fun d' => whole_block1_5 V c t _
  · exact funext fun a => funext fun b => whole_block1_6 V c t _
  · exact funext fun d' => whole_block1_7 V c t _
  · exact funext fun d' => whole_block1_8 V c t _
  · exact funext fun d' => whole_block1_9 V c t _
  · exact Fin.ext r2.symm

include hpay in
/-- THE OUTPUT after the region: the layer's whole-array function of the ten input arrays. -/
theorem arr1_10_of (c : Dev nD) :
    (dat1 V c).arrAt 10 cfg1.N
      = rowsOf (V c main_arg0) (V c main_v6) (V c main_v7) (V c main_v8) (V c main_v9) (V c main_v10) (V c main_v11)
          (V c main_v12) (V c main_v13) (V c main_v14) :=
  (dat1 V c).arrAt_eq_of_cover 10 _ (fun t _ => flushed1_10_eq_of V hpay c t) covered1_10

end Payload

/-- THE OUTPUT after the region: the layer's whole-array function of the ten input arrays, with the body's arithmetic
    read at an index. -/
theorem arr1_10 (c : Dev nD) :
    (dat1 V c).arrAt 10 cfg1.N
      = rowsOf (V c main_arg0) (V c main_v6) (V c main_v7) (V c main_v8) (V c main_v9) (V c main_v10) (V c main_v11)
          (V c main_v12) (V c main_v13) (V c main_v14) :=
  arr1_10_of V Cert.KernelIdeal.AttnPay.out_apply c

end Cert.KernelIdeal.Arrays

end
-- ==== Proof.KernelValue.lean ====
/-
  The kernel program's result as the specification.

  The program's buffers are followed through its four segments: the host operations before the first kernel, the
  first kernel's region, the host operations between the kernels, the second kernel's region. The first region's
  three output arrays are the three ReLU-gated projections of the flattened input; folded back to [8, 2048, 768] they
  are Q, K and V. The second region's output row at (batch, row) is the row function of the specification applied to
  the input's row, Q's row, the batch's K and V, and the parameters. Every host operation only moves entries, so each
  operand read through the fold is an entry of an argument array or of a projection, and the result is the
  late-normalised layer of the specification, index by index.
-/
import proofs.«107328_j81389630259580_2_alg».proof.Proof.Spec
import proofs.«107328_j81389630259580_2_alg».proof.Proof.RowSpec
import proofs.«107328_j81389630259580_2_alg».proof.Proof.HostGlue
import proofs.«107328_j81389630259580_2_alg».proof.Proof.KIKeeps
import proofs.«107328_j81389630259580_2_alg».proof.Proof.KIArrays0
import proofs.«107328_j81389630259580_2_alg».proof.Proof.KIArrays1

noncomputable section

namespace Cert.KernelIdeal.KValue

open Cert.KernelIdeal Cert.KernelIdeal.Gen Cert.KernelIdeal.Hand Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## After the host operations before the first kernel -/

/-- The flattened input at row bi·2048 + s is the input at (bi, s). -/
theorem W1_v0 (bi : Fin 8) (s : Fin 2048) (d : Fin 768) :
    W1 m ρ c (Proc.devRef .tc main_v0) (ix2 (⟨bi.val * 2048 + s.val, by omega⟩ : Fin 16384) d)
      = toT3 (m ((c : Thread nD τ).loc main_arg0)) bi s d :=
  HostGlue.v0_apply' (W0 m ρ c) bi s d

/-- Columns 0 … 767 of the first kernel's weight matrix are Wq … -/
theorem W1_v2_0 (d e : Fin 768) :
    W1 m ρ c (Proc.devRef .tc main_v2) (ix2 d (⟨e.val, by omega⟩ : Fin 2304))
      = toM2 (m ((c : Thread nD τ).loc main_arg1)) d e :=
  HostGlue.v2_apply_0 (W0 m ρ c) d e
/-- … columns 768 … 1535 are Wk … -/
theorem W1_v2_1 (d e : Fin 768) :
    W1 m ρ c (Proc.devRef .tc main_v2) (ix2 d (⟨e.val + 768, by omega⟩ : Fin 2304))
      = toM2 (m ((c : Thread nD τ).loc main_arg3)) d e :=
  HostGlue.v2_apply_1 (W0 m ρ c) d e
/-- … and columns 1536 … 2303 are Wv. -/
theorem W1_v2_2 (d e : Fin 768) :
    W1 m ρ c (Proc.devRef .tc main_v2) (ix2 d (⟨e.val + 1536, by omega⟩ : Fin 2304))
      = toM2 (m ((c : Thread nD τ).loc main_arg5)) d e :=
  HostGlue.v2_apply_2 (W0 m ρ c) d e
/-- Entries 0 … 767 of the first kernel's bias row are bq … -/
theorem W1_v4_0 (e : Fin 768) :
    W1 m ρ c (Proc.devRef .tc main_v4) (ix2 (0 : Fin 1) (⟨e.val, by omega⟩ : Fin 2304))
      = toV1 (m ((c : Thread nD τ).loc main_arg2)) e :=
  HostGlue.v4_apply_0 (W0 m ρ c) e
/-- … entries 768 … 1535 are bk … -/
theorem W1_v4_1 (e : Fin 768) :
    W1 m ρ c (Proc.devRef .tc main_v4) (ix2 (0 : Fin 1) (⟨e.val + 768, by omega⟩ : Fin 2304))
      = toV1 (m ((c : Thread nD τ).loc main_arg4)) e :=
  HostGlue.v4_apply_1 (W0 m ρ c) e
/-- … and entries 1536 … 2303 are bv. -/
theorem W1_v4_2 (e : Fin 768) :
    W1 m ρ c (Proc.devRef .tc main_v4) (ix2 (0 : Fin 1) (⟨e.val + 1536, by omega⟩ : Fin 2304))
      = toV1 (m ((c : Thread nD τ).loc main_arg6)) e :=
  HostGlue.v4_apply_2 (W0 m ρ c) e

/-! ## After the first kernel: its three outputs are the three projections, flattened -/

/-- The first output at row bi·2048 + s is Q at (bi, s). -/
theorem W2_v5_0 (bi : Fin 8) (s : Fin 2048) (e : Fin 768) :
    W2 m ρ c (Proc.devRef .tc main_v5_0) (ix2 (⟨bi.val * 2048 + s.val, by omega⟩ : Fin 16384) e)
      = proj (toT3 (m ((c : Thread nD τ).loc main_arg0))) (toM2 (m ((c : Thread nD τ).loc main_arg1))) (toV1 (m ((c : Thread nD τ).loc main_arg2))) bi s e := by
  refine (congrFun (W2_arr m ρ c 3) _).trans ?_
  refine (congrFun (Arrays.arr0_3 (E1 m ρ) c) _).trans ?_
  refine (Arrays.projOf_zero_apply _ _ _ _).trans ?_
  unfold proj
  refine congrArg₂ (fun u v => max (u + v) zeroW)
    (Finset.sum_congr rfl fun d _ => congrArg₂ (fun u v => u * v) ?_ ?_) ?_
  · exact W1_v0 m ρ c bi s d
  · exact W1_v2_0 m ρ c d e
  · exact W1_v4_0 m ρ c e
/-- The second output at row bi·2048 + s is K at (bi, s). -/
theorem W2_v5_1 (bi : Fin 8) (s : Fin 2048) (e : Fin 768) :
    W2 m ρ c (Proc.devRef .tc main_v5_1) (ix2 (⟨bi.val * 2048 + s.val, by omega⟩ : Fin 16384) e)
      = proj (toT3 (m ((c : Thread nD τ).loc main_arg0))) (toM2 (m ((c : Thread nD τ).loc main_arg3))) (toV1 (m ((c : Thread nD τ).loc main_arg4))) bi s e := by
  refine (congrFun (W2_arr m ρ c 4) _).trans ?_
  refine (congrFun (Arrays.arr0_4 (E1 m ρ) c) _).trans ?_
  refine (Arrays.projOf_apply 768 (by omega) _ _ _ _).trans ?_
  unfold proj
  refine congrArg₂ (fun u v => max (u + v) zeroW)
    (Finset.sum_congr rfl fun d _ => congrArg₂ (fun u v => u * v) ?_ ?_) ?_
  · exact W1_v0 m ρ c bi s d
  · exact W1_v2_1 m ρ c d e
  · exact W1_v4_1 m ρ c e
/-- The third output at row bi·2048 + s is V at (bi, s). -/
theorem W2_v5_2 (bi : Fin 8) (s : Fin 2048) (e : Fin 768) :
    W2 m ρ c (Proc.devRef .tc main_v5_2) (ix2 (⟨bi.val * 2048 + s.val, by omega⟩ : Fin 16384) e)
      = proj (toT3 (m ((c : Thread nD τ).loc main_arg0))) (toM2 (m ((c : Thread nD τ).loc main_arg5))) (toV1 (m ((c : Thread nD τ).loc main_arg6))) bi s e := by
  refine (congrFun (W2_arr m ρ c 5) _).trans ?_
  refine (congrFun (Arrays.arr0_5 (E1 m ρ) c) _).trans ?_
  refine (Arrays.projOf_apply 1536 (by omega) _ _ _ _).trans ?_
  unfold proj
  refine congrArg₂ (fun u v => max (u + v) zeroW)
    (Finset.sum_congr rfl fun d _ => congrArg₂ (fun u v => u * v) ?_ ?_) ?_
  · exact W1_v0 m ρ c bi s d
  · exact W1_v2_2 m ρ c d e
  · exact W1_v4_2 m ρ c e

/-! ## After the host operations between the kernels -/

/-- The first output folded back is Q. -/
theorem W3_v6 (bi : Fin 8) (s : Fin 2048) (e : Fin 768) :
    W3 m ρ c (Proc.devRef .tc main_v6) (ix3 bi s e) = proj (toT3 (m ((c : Thread nD τ).loc main_arg0))) (toM2 (m ((c : Thread nD τ).loc main_arg1))) (toV1 (m ((c : Thread nD τ).loc main_arg2))) bi s e :=
  (HostGlue.v6_apply (W2 m ρ c) bi s e).trans (W2_v5_0 m ρ c bi s e)
/-- The second output folded back is K. -/
theorem W3_v7 (bi : Fin 8) (s : Fin 2048) (e : Fin 768) :
    W3 m ρ c (Proc.devRef .tc main_v7) (ix3 bi s e) = proj (toT3 (m ((c : Thread nD τ).loc main_arg0))) (toM2 (m ((c : Thread nD τ).loc main_arg3))) (toV1 (m ((c : Thread nD τ).loc main_arg4))) bi s e :=
  (HostGlue.v7_apply (W2 m ρ c) bi s e).trans (W2_v5_1 m ρ c bi s e)
/-- The third output folded back is V. -/
theorem W3_v8 (bi : Fin 8) (s : Fin 2048) (e : Fin 768) :
    W3 m ρ c (Proc.devRef .tc main_v8) (ix3 bi s e) = proj (toT3 (m ((c : Thread nD τ).loc main_arg0))) (toM2 (m ((c : Thread nD τ).loc main_arg5))) (toV1 (m ((c : Thread nD τ).loc main_arg6))) bi s e :=
  (HostGlue.v8_apply (W2 m ρ c) bi s e).trans (W2_v5_2 m ρ c bi s e)
/-- Each parameter vector read as a row is the vector. -/
theorem W3_v9 (d : Fin 768) :
    W3 m ρ c (Proc.devRef .tc main_v9) (ix2 (0 : Fin 1) d) = toV1 (m ((c : Thread nD τ).loc main_arg9)) d :=
  (HostGlue.v9_apply (W2 m ρ c) d).trans (congrFun (W2_main_arg9 m ρ c) (ix1 d))
theorem W3_v10 (d : Fin 768) :
    W3 m ρ c (Proc.devRef .tc main_v10) (ix2 (0 : Fin 1) d) = toV1 (m ((c : Thread nD τ).loc main_arg10)) d :=
  (HostGlue.v10_apply (W2 m ρ c) d).trans (congrFun (W2_main_arg10 m ρ c) (ix1 d))
theorem W3_v12 (d : Fin 768) :
    W3 m ρ c (Proc.devRef .tc main_v12) (ix2 (0 : Fin 1) d) = toV1 (m ((c : Thread nD τ).loc main_arg8)) d :=
  (HostGlue.v12_apply (W2 m ρ c) d).trans (congrFun (W2_main_arg8 m ρ c) (ix1 d))
theorem W3_v13 (d : Fin 768) :
    W3 m ρ c (Proc.devRef .tc main_v13) (ix2 (0 : Fin 1) d) = toV1 (m ((c : Thread nD τ).loc main_arg11)) d :=
  (HostGlue.v13_apply (W2 m ρ c) d).trans (congrFun (W2_main_arg11 m ρ c) (ix1 d))
theorem W3_v14 (d : Fin 768) :
    W3 m ρ c (Proc.devRef .tc main_v14) (ix2 (0 : Fin 1) d) = toV1 (m ((c : Thread nD τ).loc main_arg12)) d :=
  (HostGlue.v14_apply (W2 m ρ c) d).trans (congrFun (W2_main_arg12 m ρ c) (ix1 d))
/-- The dense layer's matrix is unchanged by the format change. -/
theorem W3_v11 (a b : Fin 768) :
    W3 m ρ c (Proc.devRef .tc main_v11) (ix2 a b) = toM2 (m ((c : Thread nD τ).loc main_arg7)) a b :=
  (HostGlue.v11_apply (W2 m ρ c) a b).trans (congrFun (W2_main_arg7 m ρ c) (ix2 a b))
/-- The input is still the input. -/
theorem W3_arg0 (bi : Fin 8) (s : Fin 2048) (d : Fin 768) :
    W3 m ρ c (Proc.devRef .tc main_arg0) (ix3 bi s d) = toT3 (m ((c : Thread nD τ).loc main_arg0)) bi s d :=
  congrFun (W3_main_arg0 m ρ c) (ix3 bi s d)

/-! ## The result -/

/-- The second kernel's output at (bi, s, d) as a function of its ten input arrays: component d of the output row
    computed from row s of batch bi of the input and of the query array, batch bi of the key and value arrays, and the
    parameters. -/
def outAt (X Q K Vv : S8x2048x768.Idx → EReal) (g1 b1 : S1x768.Idx → EReal) (Wd : S768x768.Idx → EReal)
    (bd g2 b2 : S1x768.Idx → EReal) (bi : Fin 8) (s : Fin 2048) (d : Fin 768) : EReal :=
  rowOut (fun d => X (ix3 bi s d)) (fun e => Q (ix3 bi s e)) (fun k e => K (ix3 bi k e)) (fun k d => Vv (ix3 bi k d))
    (fun d => g1 (ix2 (0 : Fin 1) d)) (fun d => b1 (ix2 (0 : Fin 1) d)) (fun a b => Wd (ix2 a b))
    (fun d => bd (ix2 (0 : Fin 1) d)) (fun d => g2 (ix2 (0 : Fin 1) d)) (fun d => b2 (ix2 (0 : Fin 1) d)) d

/-- At the buffers the second kernel is entered with, that function is the late-normalised layer of the
    specification. -/
theorem outAt_entry (bi : Fin 8) (s : Fin 2048) (d : Fin 768) :
    outAt (E3 m ρ c main_arg0) (E3 m ρ c main_v6) (E3 m ρ c main_v7) (E3 m ρ c main_v8)
          (E3 m ρ c main_v9) (E3 m ρ c main_v10) (E3 m ρ c main_v11) (E3 m ρ c main_v12) (E3 m ρ c main_v13)
          (E3 m ρ c main_v14) bi s d
      = fullLate (toT3 (m ((c : Thread nD τ).loc main_arg0))) (toM2 (m ((c : Thread nD τ).loc main_arg1))) (toV1 (m ((c : Thread nD τ).loc main_arg2))) (toM2 (m ((c : Thread nD τ).loc main_arg3))) (toV1 (m ((c : Thread nD τ).loc main_arg4))) (toM2 (m ((c : Thread nD τ).loc main_arg5))) (toV1 (m ((c : Thread nD τ).loc main_arg6)))
          (toM2 (m ((c : Thread nD τ).loc main_arg7))) (toV1 (m ((c : Thread nD τ).loc main_arg8))) (toV1 (m ((c : Thread nD τ).loc main_arg9))) (toV1 (m ((c : Thread nD τ).loc main_arg10))) (toV1 (m ((c : Thread nD τ).loc main_arg11))) (toV1 (m ((c : Thread nD τ).loc main_arg12))) bi s d := by
  rw [fullLate_row]
  unfold outAt
  have e0 : (fun d => E3 m ρ c main_arg0 (ix3 bi s d)) = toT3 (m ((c : Thread nD τ).loc main_arg0)) bi s := funext fun d => W3_arg0 m ρ c bi s d
  have e6 : (fun e => E3 m ρ c main_v6 (ix3 bi s e)) = proj (toT3 (m ((c : Thread nD τ).loc main_arg0))) (toM2 (m ((c : Thread nD τ).loc main_arg1))) (toV1 (m ((c : Thread nD τ).loc main_arg2))) bi s := funext fun e => W3_v6 m ρ c bi s e
  have e7 : (fun k e => E3 m ρ c main_v7 (ix3 bi k e)) = proj (toT3 (m ((c : Thread nD τ).loc main_arg0))) (toM2 (m ((c : Thread nD τ).loc main_arg3))) (toV1 (m ((c : Thread nD τ).loc main_arg4))) bi :=
    funext fun k => funext fun e => W3_v7 m ρ c bi k e
  have e8 : (fun k d => E3 m ρ c main_v8 (ix3 bi k d)) = proj (toT3 (m ((c : Thread nD τ).loc main_arg0))) (toM2 (m ((c : Thread nD τ).loc main_arg5))) (toV1 (m ((c : Thread nD τ).loc main_arg6))) bi :=
    funext fun k => funext fun d => W3_v8 m ρ c bi k d
  have e9 : (fun d => E3 m ρ c main_v9 (ix2 (0 : Fin 1) d)) = toV1 (m ((c : Thread nD τ).loc main_arg9)) := funext fun d => W3_v9 m ρ c d
  have e10 : (fun d => E3 m ρ c main_v10 (ix2 (0 : Fin 1) d)) = toV1 (m ((c : Thread nD τ).loc main_arg10)) := funext fun d => W3_v10 m ρ c d
  have e11 : (fun a b => E3 m ρ c main_v11 (ix2 a b)) = toM2 (m ((c : Thread nD τ).loc main_arg7)) := funext fun a => funext fun b => W3_v11 m ρ c a b
  have e12 : (fun d => E3 m ρ c main_v12 (ix2 (0 : Fin 1) d)) = toV1 (m ((c : Thread nD τ).loc main_arg8)) := funext fun d => W3_v12 m ρ c d
  have e13 : (fun d => E3 m ρ c main_v13 (ix2 (0 : Fin 1) d)) = toV1 (m ((c : Thread nD τ).loc main_arg11)) := funext fun d => W3_v13 m ρ c d
  have e14 : (fun d => E3 m ρ c main_v14 (ix2 (0 : Fin 1) d)) = toV1 (m ((c : Thread nD τ).loc main_arg12)) := funext fun d => W3_v14 m ρ c d
  exact congrArg (fun f : V1 => f d)
    (show rowOut _ _ _ _ _ _ _ _ _ _ = rowOut _ _ _ _ _ _ _ _ _ _ by rw [e0, e6, e7, e8, e9, e10, e11, e12, e13, e14])

/-- The program's result is the late-normalised layer of the specification, given what the second region leaves in
    its output array: at every (bi, s, d) the output function of the ten arrays the region is entered with. -/
theorem value_of
    (h10 : ∀ (bi : Fin 8) (s : Fin 2048) (d : Fin 768),
      ((dat1 (E3 m ρ) c).arrAt 10 cfg1.N : S8x2048x768.Idx → EReal) (ix3 bi s d)
        = outAt (E3 m ρ c main_arg0) (E3 m ρ c main_v6) (E3 m ρ c main_v7) (E3 m ρ c main_v8)
          (E3 m ρ c main_v9) (E3 m ρ c main_v10) (E3 m ρ c main_v11) (E3 m ρ c main_v12) (E3 m ρ c main_v13)
          (E3 m ρ c main_v14) bi s d) :
    W4 m ρ c (Proc.devRef .tc main_v15)
      = ofT3 (fullLate (toT3 (m ((c : Thread nD τ).loc main_arg0))) (toM2 (m ((c : Thread nD τ).loc main_arg1))) (toV1 (m ((c : Thread nD τ).loc main_arg2))) (toM2 (m ((c : Thread nD τ).loc main_arg3))) (toV1 (m ((c : Thread nD τ).loc main_arg4))) (toM2 (m ((c : Thread nD τ).loc main_arg5))) (toV1 (m ((c : Thread nD τ).loc main_arg6)))
          (toM2 (m ((c : Thread nD τ).loc main_arg7))) (toV1 (m ((c : Thread nD τ).loc main_arg8))) (toV1 (m ((c : Thread nD τ).loc main_arg9))) (toV1 (m ((c : Thread nD τ).loc main_arg10))) (toV1 (m ((c : Thread nD τ).loc main_arg11))) (toV1 (m ((c : Thread nD τ).loc main_arg12)))) := by
  refine funext fun (j : S8x2048x768.Idx) => ?_
  obtain ⟨bi, s, d, rfl⟩ : ∃ (bi : Fin 8) (s : Fin 2048) (d : Fin 768), j = ix3 bi s d := ⟨j 0, j 1, j 2, eq_ix3 j⟩
  refine (congrFun (W4_arr m ρ c 10) _).trans ?_
  refine (h10 bi s d).trans ?_
  exact outAt_entry m ρ c bi s d

/-- The same from the second region's output array given as the whole-array function of its ten input arrays. -/
theorem value_of_rows
    (harr : (dat1 (E3 m ρ) c).arrAt 10 cfg1.N
      = Arrays.rowsOf (E3 m ρ c main_arg0) (E3 m ρ c main_v6) (E3 m ρ c main_v7) (E3 m ρ c main_v8)
          (E3 m ρ c main_v9) (E3 m ρ c main_v10) (E3 m ρ c main_v11) (E3 m ρ c main_v12) (E3 m ρ c main_v13)
          (E3 m ρ c main_v14)) :
    W4 m ρ c (Proc.devRef .tc main_v15)
      = ofT3 (fullLate (toT3 (m ((c : Thread nD τ).loc main_arg0))) (toM2 (m ((c : Thread nD τ).loc main_arg1))) (toV1 (m ((c : Thread nD τ).loc main_arg2))) (toM2 (m ((c : Thread nD τ).loc main_arg3))) (toV1 (m ((c : Thread nD τ).loc main_arg4))) (toM2 (m ((c : Thread nD τ).loc main_arg5))) (toV1 (m ((c : Thread nD τ).loc main_arg6)))
          (toM2 (m ((c : Thread nD τ).loc main_arg7))) (toV1 (m ((c : Thread nD τ).loc main_arg8))) (toV1 (m ((c : Thread nD τ).loc main_arg9))) (toV1 (m ((c : Thread nD τ).loc main_arg10))) (toV1 (m ((c : Thread nD τ).loc main_arg11))) (toV1 (m ((c : Thread nD τ).loc main_arg12)))) :=
  value_of m ρ c fun bi s d => congrFun harr (ix3 bi s d)

/-- THE PROGRAM'S RESULT: the late-normalised layer of the specification at the argument arrays. -/
theorem value :
    W4 m ρ c (Proc.devRef .tc main_v15)
      = ofT3 (fullLate (toT3 (m ((c : Thread nD τ).loc main_arg0))) (toM2 (m ((c : Thread nD τ).loc main_arg1))) (toV1 (m ((c : Thread nD τ).loc main_arg2))) (toM2 (m ((c : Thread nD τ).loc main_arg3))) (toV1 (m ((c : Thread nD τ).loc main_arg4))) (toM2 (m ((c : Thread nD τ).loc main_arg5))) (toV1 (m ((c : Thread nD τ).loc main_arg6)))
          (toM2 (m ((c : Thread nD τ).loc main_arg7))) (toV1 (m ((c : Thread nD τ).loc main_arg8))) (toV1 (m ((c : Thread nD τ).loc main_arg9))) (toV1 (m ((c : Thread nD τ).loc main_arg10))) (toV1 (m ((c : Thread nD τ).loc main_arg11))) (toV1 (m ((c : Thread nD τ).loc main_arg12)))) :=
  value_of_rows m ρ c (Arrays.arr1_10 (E3 m ρ) c)

end Cert.KernelIdeal.KValue

end
-- ==== Proof.RefSideA.lean ====
/-
  The reference's layout operations and reductions, each read at an index given by coordinates.

  The arrays are [8, 2048, 768] (batch, row, feature), [8, 2048, 2048] (batch, query row, key row), the
  per-row columns [8, 2048] and [8, 2048, 1], and the parameter vectors [768]. A parameter vector is laid along
  the feature axis and repeated over batches and rows; a per-row value is kept as a column and repeated along
  the last axis; a scalar is repeated everywhere. A sum over the last axis, started from the word 0, is the
  plain sum of the row; a maximum over the last axis, started from -∞, is the row's maximum.
-/
import proofs.«107328_j81389630259580_2_alg».proof.Proof.Gen.ReferenceIdeal
import proofs.«107328_j81389630259580_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.RefSide

open Cert.ReferenceIdeal Cert.ReferenceIdeal.Gen Idealize.ShloMosaic Idealize.ShloMosaic.ValueIdx Cert.Attn

variable {α : Type}

/-- A [768] vector laid along the last axis and repeated over batches and rows: at (a, s, d) it is entry d. -/
theorem bias_apply (x : S768.Idx → α) (a : Fin 8) (s : Fin 2048) (d : Fin 768) :
    broadcastInDim S8x2048x768 ![0, 1, 2] bcast_S1x1x768_S8x2048x768_0_1_2
      (broadcastInDim S1x1x768 ![2] bcast_S768_S1x1x768_2 x) (ix3 a s d) = x (ix1 d) := by
  rw [broadcastInDim_apply _ bcast_S1x1x768_S8x2048x768_0_1_2 _ (ix3 a s d) (ix3 (0 : Fin 1) (0 : Fin 1) d) (fun t => match t with
      | ⟨0, _⟩ => by show 0 = if (1 : Nat) = 1 then 0 else a.val; rw [if_pos rfl]
      | ⟨1, _⟩ => by show 0 = if (1 : Nat) = 1 then 0 else s.val; rw [if_pos rfl]
      | ⟨2, _⟩ => by show d.val = if (768 : Nat) = 1 then 0 else d.val; rw [if_neg (by decide)]),
    broadcastInDim_apply _ bcast_S768_S1x1x768_2 x (ix3 (0 : Fin 1) (0 : Fin 1) d) (ix1 d) (fun t => match t with
      | ⟨0, _⟩ => by show d.val = if (768 : Nat) = 1 then 0 else d.val; rw [if_neg (by decide)])]

/-- A per-row value kept as a column [8, 2048, 1]: at (a, s, 0) it is the value of row (a, s). -/
theorem keep_apply (y : S8x2048.Idx → α) (a : Fin 8) (s : Fin 2048) :
    broadcastInDim S8x2048x1 ![0, 1] bcast_S8x2048_S8x2048x1_0_1 y (ix3 a s (0 : Fin 1)) = y (ix2 a s) :=
  broadcastInDim_apply _ bcast_S8x2048_S8x2048x1_0_1 y _ (ix2 a s) (fun t => match t with
    | ⟨0, _⟩ => by show a.val = if (8 : Nat) = 1 then 0 else a.val; rw [if_neg (by decide)]
    | ⟨1, _⟩ => by show s.val = if (2048 : Nat) = 1 then 0 else s.val; rw [if_neg (by decide)])

/-- A column repeated along a last axis of 768: at (a, s, d) it is the column's entry for row (a, s). -/
theorem col768_apply (y : S8x2048x1.Idx → α) (a : Fin 8) (s : Fin 2048) (d : Fin 768) :
    broadcastInDim S8x2048x768 ![0, 1, 2] bcast_S8x2048x1_S8x2048x768_0_1_2 y (ix3 a s d) = y (ix3 a s (0 : Fin 1)) :=
  broadcastInDim_apply _ bcast_S8x2048x1_S8x2048x768_0_1_2 y _ (ix3 a s (0 : Fin 1)) (fun t => match t with
    | ⟨0, _⟩ => by show a.val = if (8 : Nat) = 1 then 0 else a.val; rw [if_neg (by decide)]
    | ⟨1, _⟩ => by show s.val = if (2048 : Nat) = 1 then 0 else s.val; rw [if_neg (by decide)]
    | ⟨2, _⟩ => by show 0 = if (1 : Nat) = 1 then 0 else d.val; rw [if_pos rfl])

/-- A column repeated along a last axis of 2048. -/
theorem col2048_apply (y : S8x2048x1.Idx → α) (a : Fin 8) (s : Fin 2048) (k : Fin 2048) :
    broadcastInDim S8x2048x2048 ![0, 1, 2] bcast_S8x2048x1_S8x2048x2048_0_1_2 y (ix3 a s k) = y (ix3 a s (0 : Fin 1)) :=
  broadcastInDim_apply _ bcast_S8x2048x1_S8x2048x2048_0_1_2 y _ (ix3 a s (0 : Fin 1)) (fun t => match t with
    | ⟨0, _⟩ => by show a.val = if (8 : Nat) = 1 then 0 else a.val; rw [if_neg (by decide)]
    | ⟨1, _⟩ => by show s.val = if (2048 : Nat) = 1 then 0 else s.val; rw [if_neg (by decide)]
    | ⟨2, _⟩ => by show 0 = if (1 : Nat) = 1 then 0 else k.val; rw [if_pos rfl])

/-- The sum over the last axis of a [8, 2048, 768] array, started from the word 0, is the row's plain sum. -/
theorem sum768_apply (y : FVec Ideal S8x2048x768 .f32) (a : Fin 8) (s : Fin 2048) :
    Host.reduceAdd (F := Ideal) y (constant (F := Ideal) S_ .f32 0x00000000#32) reducesTo_S8x2048x768_S8x2048_d2 h_S_ (ix2 a s)
      = ∑ d : Fin 768, y (ix3 a s d) := by
  simp only [Host.reduceAdd, Ideal.hostReduceAdd_def]
  rw [Ideal.hostReduceAdd_single reducesTo_S8x2048x768_S8x2048_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  exact congrArg y (funext fun t => Fin.ext (by match t with | ⟨0, _⟩ => rfl | ⟨1, _⟩ => rfl | ⟨2, _⟩ => rfl))

/-- The same over the last axis of a [8, 2048, 2048] array. -/
theorem sum2048_apply (y : FVec Ideal S8x2048x2048 .f32) (a : Fin 8) (s : Fin 2048) :
    Host.reduceAdd (F := Ideal) y (constant (F := Ideal) S_ .f32 0x00000000#32) reducesTo_S8x2048x2048_S8x2048_d2 h_S_ (ix2 a s)
      = ∑ k : Fin 2048, y (ix3 a s k) := by
  simp only [Host.reduceAdd, Ideal.hostReduceAdd_def]
  rw [Ideal.hostReduceAdd_single reducesTo_S8x2048x2048_S8x2048_d2 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  exact congrArg y (funext fun t => Fin.ext (by match t with | ⟨0, _⟩ => rfl | ⟨1, _⟩ => rfl | ⟨2, _⟩ => rfl))

/-- The maximum over the last axis of a [8, 2048, 2048] array, started from -∞, is the row's maximum. -/
theorem max2048_apply (y : FVec Ideal S8x2048x2048 .f32) (a : Fin 8) (s : Fin 2048) :
    Host.reduce FloatOps.maximumf y (constant (F := Ideal) S_ .f32 0xFF800000#32) reducesTo_S8x2048x2048_S8x2048_d2 h_S_ (ix2 a s)
      = rowMax (fun k => y (ix3 a s k)) := by
  rw [Host.reduce_eq_fold_single FloatOps.maximumf y _ reducesTo_S8x2048x2048_S8x2048_d2 (by decide) h_S_]
  have hf : (y ∘ (by decide : S8x2048x2048.Reduces [2] S8x2048).lift (ix2 a s)) = fun k : Fin 2048 => y (ix3 a s k) :=
    funext fun k => congrArg y (funext fun t => Fin.ext (by match t with | ⟨0, _⟩ => rfl | ⟨1, _⟩ => rfl | ⟨2, _⟩ => rfl))
  exact congrArg (fun f => Finset.fold max negInf f (Finset.univ : Finset (Fin 2048))) hf

end Cert.RefSide

end
-- ==== Proof.RefSideB.lean ====
/-
  The reference up to the first residual, read at coordinates.

  Each of Q, K, V is max (X·W + b) 0: a product contracted over the feature axis, the bias laid along the
  feature axis, and a maximum against the constant 0. The scores contract Q and K over the feature axis, batch by
  batch. The softmax subtracts the row's maximum (the larger of -∞ and the maximum folded from -∞, which is that
  maximum), exponentiates, sums the row from 0 and divides every entry by the sum; only then comes the product
  with V over the key axis, and the residual X + attention.
-/
import proofs.«107328_j81389630259580_2_alg».proof.Proof.RefReadP
import proofs.«107328_j81389630259580_2_alg».proof.Proof.RefSideA

noncomputable section

namespace Cert.RefSide

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Attn

/-- The three kinds of argument array: [8, 2048, 768], [768, 768] and [768]. -/
abbrev A3 : Type := (⟨S8x2048x768, .f32⟩ : BufTy).Contents (Elt Ideal)
abbrev A2 : Type := (⟨S768x768, .f32⟩ : BufTy).Contents (Elt Ideal)
abbrev A1 : Type := (⟨S768, .f32⟩ : BufTy).Contents (Elt Ideal)

/-! ## The projections -/

/-- The bias of a projection at (a, s, e) is its entry e. -/
theorem bias2_apply (b : A1) (a : Fin 8) (s : Fin 2048) (e : Fin 768) :
    val_main_v2 (F := Ideal) b (ix3 a s e) = b (ix1 e) := bias_apply b a s e

/-- The constant the ReLU compares with is the word 0 everywhere. -/
theorem zero3_apply (i : S8x2048x768.Idx) : val_main_call0_v0 (F := Ideal) i = zeroW :=
  broadcastInDim_scalar_apply bcast_S_S8x2048x768 _ i

/-- A projection at (a, s, e): max (Σ_d X[a,s,d] · W[d,e] + b[e]) 0. -/
theorem proj_apply (x : A3) (w : A2) (b : A1) (a : Fin 8) (s : Fin 2048) (e : Fin 768) :
    val_main_v4 (F := Ideal) x w b (ix3 a s e) = proj (toT3 x) (toM2 w) (toV1 b) a s e := by
  rw [val_main_v4_apply, val_main_v3_apply, val_main_v0_apply, bias2_apply, zero3_apply]
  have hl : ∀ k : Fin 768, lidx_main_v0 (ix3 a s e) k = ix3 a s k := fun k => funext fun t => match t with | ⟨0, _⟩ => rfl | ⟨1, _⟩ => rfl | ⟨2, _⟩ => rfl
  have hr : ∀ k : Fin 768, ridx_main_v0 (ix3 a s e) k = ix2 k e := fun k => funext fun t => match t with | ⟨0, _⟩ => rfl | ⟨1, _⟩ => rfl
  simp only [hl, hr, Ideal.maximumf_def, Ideal.addf_def]
  rfl

/-- The second and third projections are the first one's function of their own weights. -/
theorem projK_eq (x : A3) (w : A2) (b : A1) : val_main_v9 (F := Ideal) x w b = val_main_v4 (F := Ideal) x w b := rfl
theorem projV_eq (x : A3) (w : A2) (b : A1) : val_main_v14 (F := Ideal) x w b = val_main_v4 (F := Ideal) x w b := rfl

/-! ## Scores and softmax -/

section Attention

variable (x0 : A3) (x1 : A2) (x2 : A1) (x3 : A2) (x4 : A1) (x5 : A2) (x6 : A1)

/-- Q, K, V of the specification at these arguments. -/
abbrev Qs : T3 := proj (toT3 x0) (toM2 x1) (toV1 x2)
abbrev Ks : T3 := proj (toT3 x0) (toM2 x3) (toV1 x4)
abbrev Vs : T3 := proj (toT3 x0) (toM2 x5) (toV1 x6)

/-- The score of query row q against key row k. -/
theorem score_apply (a : Fin 8) (q k : Fin 2048) :
    val_main_v15 (F := Ideal) x0 x1 x2 x3 x4 (ix3 a q k) = score (Qs x0 x1 x2) (Ks x0 x3 x4) a q k := by
  rw [val_main_v15_apply, projK_eq]
  have hl : ∀ e : Fin 768, lidx_main_v15 (ix3 a q k) e = ix3 a q e := fun e => funext fun t => match t with | ⟨0, _⟩ => rfl | ⟨1, _⟩ => rfl | ⟨2, _⟩ => rfl
  have hr : ∀ e : Fin 768, ridx_main_v15 (ix3 a q k) e = ix3 a k e := fun e => funext fun t => match t with | ⟨0, _⟩ => rfl | ⟨1, _⟩ => rfl | ⟨2, _⟩ => rfl
  simp only [hl, hr, proj_apply]
  rfl

/-- The folded maximum of a score row. -/
theorem fold_apply (a : Fin 8) (q : Fin 2048) :
    val_main_v16 (F := Ideal) x0 x1 x2 x3 x4 (ix2 a q) = rowMax (score (Qs x0 x1 x2) (Ks x0 x3 x4) a q) := by
  refine (max2048_apply (val_main_v15 (F := Ideal) x0 x1 x2 x3 x4) a q).trans ?_
  simp only [score_apply]

/-- The constant -∞ the folded maximum is compared with. -/
theorem negInf2_apply (i : S8x2048.Idx) : val_main_v17 (F := Ideal) i = negInf :=
  broadcastInDim_scalar_apply bcast_S_S8x2048 _ i

/-- The larger of -∞ and the folded maximum is the folded maximum: the fold starts from -∞. -/
theorem rowmax_apply (a : Fin 8) (q : Fin 2048) :
    val_main_v18 (F := Ideal) x0 x1 x2 x3 x4 (ix2 a q) = rowMax (score (Qs x0 x1 x2) (Ks x0 x3 x4) a q) := by
  rw [val_main_v18_apply, negInf2_apply, fold_apply, Ideal.maximumf_def]
  exact max_eq_right ((Finset.le_fold_max negInf).2 (Or.inl le_rfl))

/-- The row maximum repeated along the key axis. -/
theorem rowmaxB_apply (a : Fin 8) (q k : Fin 2048) :
    val_main_v20 (F := Ideal) x0 x1 x2 x3 x4 (ix3 a q k) = rowMax (score (Qs x0 x1 x2) (Ks x0 x3 x4) a q) :=
  (col2048_apply (val_main_v19 (F := Ideal) x0 x1 x2 x3 x4) a q k).trans
    ((keep_apply (val_main_v18 (F := Ideal) x0 x1 x2 x3 x4) a q).trans (rowmax_apply x0 x1 x2 x3 x4 a q))

/-- The shifted exponential. -/
theorem ex_apply (a : Fin 8) (q k : Fin 2048) :
    val_main_v22 (F := Ideal) x0 x1 x2 x3 x4 (ix3 a q k) = ex (Qs x0 x1 x2) (Ks x0 x3 x4) a q k := by
  rw [val_main_v22_apply, val_main_v21_apply, score_apply, rowmaxB_apply, Ideal.hostUnary_exp_def, Ideal.subf_def]
  rfl

/-- The row's sum of shifted exponentials. -/
theorem den_apply (a : Fin 8) (q : Fin 2048) :
    val_main_v23 (F := Ideal) x0 x1 x2 x3 x4 (ix2 a q) = den (Qs x0 x1 x2) (Ks x0 x3 x4) a q := by
  refine (sum2048_apply (val_main_v22 (F := Ideal) x0 x1 x2 x3 x4) a q).trans ?_
  simp only [ex_apply]
  rfl

/-- The sum repeated along the key axis. -/
theorem denB_apply (a : Fin 8) (q k : Fin 2048) :
    val_main_v25 (F := Ideal) x0 x1 x2 x3 x4 (ix3 a q k) = den (Qs x0 x1 x2) (Ks x0 x3 x4) a q :=
  (col2048_apply (val_main_v24 (F := Ideal) x0 x1 x2 x3 x4) a q k).trans
    ((keep_apply (val_main_v23 (F := Ideal) x0 x1 x2 x3 x4) a q).trans (den_apply x0 x1 x2 x3 x4 a q))

/-- The normalised softmax entry. -/
theorem soft_apply (a : Fin 8) (q k : Fin 2048) :
    val_main_v26 (F := Ideal) x0 x1 x2 x3 x4 (ix3 a q k)
      = Ideal.div (ex (Qs x0 x1 x2) (Ks x0 x3 x4) a q k) (den (Qs x0 x1 x2) (Ks x0 x3 x4) a q) := by
  rw [val_main_v26_apply, ex_apply, denB_apply, Ideal.hostDivf_def]

/-! ## Attention and the residual -/

/-- The attention row: the normalised softmax times V, summed over the key axis. -/
theorem attn_apply (a : Fin 8) (q : Fin 2048) (d : Fin 768) :
    val_main_v27 (F := Ideal) x0 x1 x2 x3 x4 x5 x6 (ix3 a q d)
      = attnEarly (Qs x0 x1 x2) (Ks x0 x3 x4) (Vs x0 x5 x6) a q d := by
  rw [val_main_v27_apply, projV_eq]
  have hl : ∀ k : Fin 2048, lidx_main_v27 (ix3 a q d) k = ix3 a q k := fun k => funext fun t => match t with | ⟨0, _⟩ => rfl | ⟨1, _⟩ => rfl | ⟨2, _⟩ => rfl
  have hr : ∀ k : Fin 2048, ridx_main_v27 (ix3 a q d) k = ix3 a k d := fun k => funext fun t => match t with | ⟨0, _⟩ => rfl | ⟨1, _⟩ => rfl | ⟨2, _⟩ => rfl
  simp only [hl, hr, soft_apply, proj_apply]
  rfl

/-- The residual X + attention. -/
theorem resid_apply (a : Fin 8) (q : Fin 2048) (d : Fin 768) :
    val_main_v28 (F := Ideal) x0 x1 x2 x3 x4 x5 x6 (ix3 a q d)
      = toT3 x0 a q d + attnEarly (Qs x0 x1 x2) (Ks x0 x3 x4) (Vs x0 x5 x6) a q d := by
  rw [val_main_v28_apply, attn_apply, Ideal.addf_def]
  rfl

end Attention

end Cert.RefSide

end
-- ==== Proof.RefSideC.lean ====
/-
  The reference after the first residual, read at coordinates, and its run.

  A LayerNorm of a row y of 768 features: the mean is the sum of the row, started from 0, divided by 768; the
  deviations y - mean are squared as a product, summed from 0 and divided by 768; ε is added, the reciprocal
  square root taken, and the result is (y - mean) · rsqrt · g + b with g and b laid along the feature axis.
  Between the two LayerNorms the row x goes through the dense layer as (x + x·Wd) + bd. Put together, the
  program's result is the layer with the softmax normalised before the product with V and the three-term sum
  bracketed (x + x·Wd) + bd.
-/
import proofs.«107328_j81389630259580_2_alg».proof.Proof.RefSideB

noncomputable section

namespace Cert.RefSide

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Attn

section Tail

variable (x0 : A3) (x1 : A2) (x2 : A1) (x3 : A2) (x4 : A1) (x5 : A2) (x6 : A1) (x7 : A2) (x8 x9 x10 x11 x12 : A1)

/-! ## The first LayerNorm -/

/-- The residual row (a, s): X + attention. -/
abbrev Y1 (a : Fin 8) (s : Fin 2048) : V1 :=
  fun d => toT3 x0 a s d + attnEarly (Qs x0 x1 x2) (Ks x0 x3 x4) (Vs x0 x5 x6) a s d

theorem resid1_apply (a : Fin 8) (s : Fin 2048) (d : Fin 768) :
    val_main_v28 (F := Ideal) x0 x1 x2 x3 x4 x5 x6 (ix3 a s d) = Y1 x0 x1 x2 x3 x4 x5 x6 a s d := resid_apply x0 x1 x2 x3 x4 x5 x6 a s d

/-- The divisor 768 and the ε of this LayerNorm, constant columns. -/
theorem ln1nA_apply (i : S8x2048x1.Idx) : val_main_v31 (F := Ideal) i = n768 :=
  broadcastInDim_scalar_apply bcast_S_S8x2048x1 _ i
theorem ln1nB_apply (i : S8x2048x1.Idx) : val_main_v38 (F := Ideal) i = n768 :=
  broadcastInDim_scalar_apply bcast_S_S8x2048x1 _ i
theorem ln1eps_apply (i : S8x2048x1.Idx) : val_main_v42 (F := Ideal) i = epsW :=
  broadcastInDim_scalar_apply bcast_S_S8x2048x1 _ i

/-- The row's mean, kept as a column. -/
theorem ln1mean_apply (a : Fin 8) (s : Fin 2048) :
    val_main_v32 (F := Ideal) x0 x1 x2 x3 x4 x5 x6 (ix3 a s (0 : Fin 1)) = mean (Y1 x0 x1 x2 x3 x4 x5 x6 a s) := by
  rw [val_main_v32_apply, ln1nA_apply, Ideal.hostDivf_def]
  unfold mean
  refine congrArg (fun z => Ideal.div z n768) ?_
  refine (keep_apply (val_main_v29 (F := Ideal) x0 x1 x2 x3 x4 x5 x6) a s).trans ?_
  refine (sum768_apply (val_main_v28 (F := Ideal) x0 x1 x2 x3 x4 x5 x6) a s).trans ?_
  exact Finset.sum_congr rfl fun d _ => resid1_apply x0 x1 x2 x3 x4 x5 x6 a s d

/-- The mean repeated along the feature axis (the program repeats it twice, for the variance and for the centring). -/
theorem ln1meanB_apply (a : Fin 8) (s : Fin 2048) (d : Fin 768) :
    val_main_v33 (F := Ideal) x0 x1 x2 x3 x4 x5 x6 (ix3 a s d) = mean (Y1 x0 x1 x2 x3 x4 x5 x6 a s) :=
  (col768_apply (val_main_v32 (F := Ideal) x0 x1 x2 x3 x4 x5 x6) a s d).trans (ln1mean_apply x0 x1 x2 x3 x4 x5 x6 a s)
theorem ln1meanC_apply (a : Fin 8) (s : Fin 2048) (d : Fin 768) :
    val_main_v40 (F := Ideal) x0 x1 x2 x3 x4 x5 x6 (ix3 a s d) = mean (Y1 x0 x1 x2 x3 x4 x5 x6 a s) :=
  (col768_apply (val_main_v32 (F := Ideal) x0 x1 x2 x3 x4 x5 x6) a s d).trans (ln1mean_apply x0 x1 x2 x3 x4 x5 x6 a s)

/-- The mean of the squared deviations plus ε, as a column. -/
theorem ln1var_apply (a : Fin 8) (s : Fin 2048) :
    val_main_v43 (F := Ideal) x0 x1 x2 x3 x4 x5 x6 (ix3 a s (0 : Fin 1))
      = Ideal.div (∑ j : Fin 768, (Y1 x0 x1 x2 x3 x4 x5 x6 a s j - mean (Y1 x0 x1 x2 x3 x4 x5 x6 a s)) * (Y1 x0 x1 x2 x3 x4 x5 x6 a s j - mean (Y1 x0 x1 x2 x3 x4 x5 x6 a s))) n768 + epsW := by
  rw [val_main_v43_apply, val_main_v39_apply, ln1nB_apply, ln1eps_apply, Ideal.addf_def, Ideal.hostDivf_def]
  refine congrArg (fun z => Ideal.div z n768 + epsW) ?_
  refine (keep_apply (val_main_v36 (F := Ideal) x0 x1 x2 x3 x4 x5 x6) a s).trans ?_
  refine (sum768_apply (val_main_v35 (F := Ideal) x0 x1 x2 x3 x4 x5 x6) a s).trans ?_
  refine Finset.sum_congr rfl fun d _ => ?_
  rw [val_main_v35_apply, val_main_v34_apply, resid1_apply x0 x1 x2 x3 x4 x5 x6, ln1meanB_apply, Ideal.mulf_def, Ideal.subf_def]

/-- The reciprocal square root of it, repeated along the feature axis. -/
theorem ln1rs_apply (a : Fin 8) (s : Fin 2048) (d : Fin 768) :
    val_main_v45 (F := Ideal) x0 x1 x2 x3 x4 x5 x6 (ix3 a s d)
      = Ideal.rsqrt (Ideal.div (∑ j : Fin 768, (Y1 x0 x1 x2 x3 x4 x5 x6 a s j - mean (Y1 x0 x1 x2 x3 x4 x5 x6 a s)) * (Y1 x0 x1 x2 x3 x4 x5 x6 a s j - mean (Y1 x0 x1 x2 x3 x4 x5 x6 a s))) n768 + epsW) := by
  refine (col768_apply (val_main_v44 (F := Ideal) x0 x1 x2 x3 x4 x5 x6) a s d).trans ?_
  rw [val_main_v44_apply, ln1var_apply, Ideal.hostUnary_rsqrt_def]

/-- Scale and shift, laid along the feature axis. -/
theorem ln1g_apply (g : A1) (a : Fin 8) (s : Fin 2048) (d : Fin 768) :
    val_main_v48 (F := Ideal) g (ix3 a s d) = g (ix1 d) := bias_apply g a s d
theorem ln1b_apply (b : A1) (a : Fin 8) (s : Fin 2048) (d : Fin 768) :
    val_main_v51 (F := Ideal) b (ix3 a s d) = b (ix1 d) := bias_apply b a s d

/-- The LayerNorm of the row at feature d. -/
theorem ln1_apply (a : Fin 8) (s : Fin 2048) (d : Fin 768) :
    val_main_v52 (F := Ideal) x0 x1 x2 x3 x4 x5 x6 x9 x10 (ix3 a s d) = norm (Y1 x0 x1 x2 x3 x4 x5 x6 a s) (toV1 x9) (toV1 x10) d := by
  rw [val_main_v52_apply, val_main_v49_apply, val_main_v46_apply, val_main_v41_apply, resid1_apply x0 x1 x2 x3 x4 x5 x6, ln1meanC_apply,
    ln1rs_apply, ln1g_apply, ln1b_apply, Ideal.addf_def, Ideal.mulf_def, Ideal.mulf_def, Ideal.subf_def]
  rfl

/-! ## The dense layer -/

/-- The first LayerNorm's row, and the row after the dense layer: (x + x·Wd) + bd. -/
abbrev X1 (a : Fin 8) (s : Fin 2048) : V1 := norm (Y1 x0 x1 x2 x3 x4 x5 x6 a s) (toV1 x9) (toV1 x10)
abbrev Y2 (a : Fin 8) (s : Fin 2048) : V1 :=
  fun d => (X1 x0 x1 x2 x3 x4 x5 x6 x9 x10 a s d + ffn (X1 x0 x1 x2 x3 x4 x5 x6 x9 x10 a s) (toM2 x7) d) + toV1 x8 d

theorem bd_apply (b : A1) (a : Fin 8) (s : Fin 2048) (d : Fin 768) :
    val_main_v56 (F := Ideal) b (ix3 a s d) = b (ix1 d) := bias_apply b a s d

theorem dense_apply (a : Fin 8) (s : Fin 2048) (d : Fin 768) :
    val_main_v57 (F := Ideal) x0 x1 x2 x3 x4 x5 x6 x7 x8 x9 x10 (ix3 a s d) = Y2 x0 x1 x2 x3 x4 x5 x6 x7 x8 x9 x10 a s d := by
  rw [val_main_v57_apply, val_main_v54_apply, val_main_v53_apply, ln1_apply, bd_apply]
  have hl : ∀ k : Fin 768, lidx_main_v53 (ix3 a s d) k = ix3 a s k := fun k => funext fun t => match t with | ⟨0, _⟩ => rfl | ⟨1, _⟩ => rfl | ⟨2, _⟩ => rfl
  have hr : ∀ k : Fin 768, ridx_main_v53 (ix3 a s d) k = ix2 k d := fun k => funext fun t => match t with | ⟨0, _⟩ => rfl | ⟨1, _⟩ => rfl
  simp only [hl, hr, ln1_apply, Ideal.addf_def]
  rfl

/-! ## The second LayerNorm -/

/-- The divisor 768 and the ε of this LayerNorm, constant columns. -/
theorem ln2nA_apply (i : S8x2048x1.Idx) : val_main_v60 (F := Ideal) i = n768 :=
  broadcastInDim_scalar_apply bcast_S_S8x2048x1 _ i
theorem ln2nB_apply (i : S8x2048x1.Idx) : val_main_v67 (F := Ideal) i = n768 :=
  broadcastInDim_scalar_apply bcast_S_S8x2048x1 _ i
theorem ln2eps_apply (i : S8x2048x1.Idx) : val_main_v71 (F := Ideal) i = epsW :=
  broadcastInDim_scalar_apply bcast_S_S8x2048x1 _ i

/-- The row's mean, kept as a column. -/
theorem ln2mean_apply (a : Fin 8) (s : Fin 2048) :
    val_main_v61 (F := Ideal) x0 x1 x2 x3 x4 x5 x6 x7 x8 x9 x10 (ix3 a s (0 : Fin 1)) = mean (Y2 x0 x1 x2 x3 x4 x5 x6 x7 x8 x9 x10 a s) := by
  rw [val_main_v61_apply, ln2nA_apply, Ideal.hostDivf_def]
  unfold mean
  refine congrArg (fun z => Ideal.div z n768) ?_
  refine (keep_apply (val_main_v58 (F := Ideal) x0 x1 x2 x3 x4 x5 x6 x7 x8 x9 x10) a s).trans ?_
  refine (sum768_apply (val_main_v57 (F := Ideal) x0 x1 x2 x3 x4 x5 x6 x7 x8 x9 x10) a s).trans ?_
  exact Finset.sum_congr rfl fun d _ => dense_apply x0 x1 x2 x3 x4 x5 x6 x7 x8 x9 x10 a s d

/-- The mean repeated along the feature axis (the program repeats it twice, for the variance and for the centring). -/
theorem ln2meanB_apply (a : Fin 8) (s : Fin 2048) (d : Fin 768) :
    val_main_v62 (F := Ideal) x0 x1 x2 x3 x4 x5 x6 x7 x8 x9 x10 (ix3 a s d) = mean (Y2 x0 x1 x2 x3 x4 x5 x6 x7 x8 x9 x10 a s) :=
  (col768_apply (val_main_v61 (F := Ideal) x0 x1 x2 x3 x4 x5 x6 x7 x8 x9 x10) a s d).trans (ln2mean_apply x0 x1 x2 x3 x4 x5 x6 x7 x8 x9 x10 a s)
theorem ln2meanC_apply (a : Fin 8) (s : Fin 2048) (d : Fin 768) :
    val_main_v69 (F := Ideal) x0 x1 x2 x3 x4 x5 x6 x7 x8 x9 x10 (ix3 a s d) = mean (Y2 x0 x1 x2 x3 x4 x5 x6 x7 x8 x9 x10 a s) :=
  (col768_apply (val_main_v61 (F := Ideal) x0 x1 x2 x3 x4 x5 x6 x7 x8 x9 x10) a s d).trans (ln2mean_apply x0 x1 x2 x3 x4 x5 x6 x7 x8 x9 x10 a s)

/-- The mean of the squared deviations plus ε, as a column. -/
theorem ln2var_apply (a : Fin 8) (s : Fin 2048) :
    val_main_v72 (F := Ideal) x0 x1 x2 x3 x4 x5 x6 x7 x8 x9 x10 (ix3 a s (0 : Fin 1))
      = Ideal.div (∑ j : Fin 768, (Y2 x0 x1 x2 x3 x4 x5 x6 x7 x8 x9 x10 a s j - mean (Y2 x0 x1 x2 x3 x4 x5 x6 x7 x8 x9 x10 a s)) * (Y2 x0 x1 x2 x3 x4 x5 x6 x7 x8 x9 x10 a s j - mean (Y2 x0 x1 x2 x3 x4 x5 x6 x7 x8 x9 x10 a s))) n768 + epsW := by
  rw [val_main_v72_apply, val_main_v68_apply, ln2nB_apply, ln2eps_apply, Ideal.addf_def, Ideal.hostDivf_def]
  refine congrArg (fun z => Ideal.div z n768 + epsW) ?_
  refine (keep_apply (val_main_v65 (F := Ideal) x0 x1 x2 x3 x4 x5 x6 x7 x8 x9 x10) a s).trans ?_
  refine (sum768_apply (val_main_v64 (F := Ideal) x0 x1 x2 x3 x4 x5 x6 x7 x8 x9 x10) a s).trans ?_
  refine Finset.sum_congr rfl fun d _ => ?_
  rw [val_main_v64_apply, val_main_v63_apply, dense_apply x0 x1 x2 x3 x4 x5 x6 x7 x8 x9 x10, ln2meanB_apply, Ideal.mulf_def, Ideal.subf_def]

/-- The reciprocal square root of it, repeated along the feature axis. -/
theorem ln2rs_apply (a : Fin 8) (s : Fin 2048) (d : Fin 768) :
    val_main_v74 (F := Ideal) x0 x1 x2 x3 x4 x5 x6 x7 x8 x9 x10 (ix3 a s d)
      = Ideal.rsqrt (Ideal.div (∑ j : Fin 768, (Y2 x0 x1 x2 x3 x4 x5 x6 x7 x8 x9 x10 a s j - mean (Y2 x0 x1 x2 x3 x4 x5 x6 x7 x8 x9 x10 a s)) * (Y2 x0 x1 x2 x3 x4 x5 x6 x7 x8 x9 x10 a s j - mean (Y2 x0 x1 x2 x3 x4 x5 x6 x7 x8 x9 x10 a s))) n768 + epsW) := by
  refine (col768_apply (val_main_v73 (F := Ideal) x0 x1 x2 x3 x4 x5 x6 x7 x8 x9 x10) a s d).trans ?_
  rw [val_main_v73_apply, ln2var_apply, Ideal.hostUnary_rsqrt_def]

/-- Scale and shift, laid along the feature axis. -/
theorem ln2g_apply (g : A1) (a : Fin 8) (s : Fin 2048) (d : Fin 768) :
    val_main_v77 (F := Ideal) g (ix3 a s d) = g (ix1 d) := bias_apply g a s d
theorem ln2b_apply (b : A1) (a : Fin 8) (s : Fin 2048) (d : Fin 768) :
    val_main_v80 (F := Ideal) b (ix3 a s d) = b (ix1 d) := bias_apply b a s d

/-- The LayerNorm of the row at feature d. -/
theorem ln2_apply (a : Fin 8) (s : Fin 2048) (d : Fin 768) :
    val_main_v81 (F := Ideal) x0 x1 x2 x3 x4 x5 x6 x7 x8 x9 x10 x11 x12 (ix3 a s d) = norm (Y2 x0 x1 x2 x3 x4 x5 x6 x7 x8 x9 x10 a s) (toV1 x11) (toV1 x12) d := by
  rw [val_main_v81_apply, val_main_v78_apply, val_main_v75_apply, val_main_v70_apply, dense_apply x0 x1 x2 x3 x4 x5 x6 x7 x8 x9 x10, ln2meanC_apply,
    ln2rs_apply, ln2g_apply, ln2b_apply, Ideal.addf_def, Ideal.mulf_def, Ideal.mulf_def, Ideal.subf_def]
  rfl

/-! ## The whole program -/

/-- The program's result at (a, s, d) is the layer of the specification there. -/
theorem final_apply (a : Fin 8) (s : Fin 2048) (d : Fin 768) :
    val_main_v81 (F := Ideal) x0 x1 x2 x3 x4 x5 x6 x7 x8 x9 x10 x11 x12 (ix3 a s d) = fullEarly (toT3 x0) (toM2 x1) (toV1 x2) (toM2 x3) (toV1 x4) (toM2 x5) (toV1 x6) (toM2 x7) (toV1 x8) (toV1 x9) (toV1 x10) (toV1 x11) (toV1 x12) a s d :=
  (ln2_apply x0 x1 x2 x3 x4 x5 x6 x7 x8 x9 x10 x11 x12 a s d).trans rfl

end Tail

/-- The run's result term is the layer of the specification, as an array. -/
theorem res_early (m' : (ℓ : Loc nD τ sig) → Buf (Elt Ideal) ℓ) (c : Dev nD) :
    Cert.ReferenceIdeal.Value.res_main_v81 (F := Ideal) m' c
      = ofT3 (fullEarly (toT3 (m' ((c.tc : Thread nD τ).loc main_arg0))) (toM2 (m' ((c.tc : Thread nD τ).loc main_arg1))) (toV1 (m' ((c.tc : Thread nD τ).loc main_arg2))) (toM2 (m' ((c.tc : Thread nD τ).loc main_arg3))) (toV1 (m' ((c.tc : Thread nD τ).loc main_arg4))) (toM2 (m' ((c.tc : Thread nD τ).loc main_arg5))) (toV1 (m' ((c.tc : Thread nD τ).loc main_arg6))) (toM2 (m' ((c.tc : Thread nD τ).loc main_arg7))) (toV1 (m' ((c.tc : Thread nD τ).loc main_arg8))) (toV1 (m' ((c.tc : Thread nD τ).loc main_arg9))) (toV1 (m' ((c.tc : Thread nD τ).loc main_arg10))) (toV1 (m' ((c.tc : Thread nD τ).loc main_arg11))) (toV1 (m' ((c.tc : Thread nD τ).loc main_arg12)))) := by
  refine (val_main_v81_eq (F := Ideal) m' c).trans ?_
  funext i
  have hi : i = ix3 (⟨(i 0).val, (i 0).isLt⟩ : Fin 8) (⟨(i 1).val, (i 1).isLt⟩ : Fin 2048) (⟨(i 2).val, (i 2).isLt⟩ : Fin 768) :=
    funext fun t => match t with | ⟨0, _⟩ => rfl | ⟨1, _⟩ => rfl | ⟨2, _⟩ => rfl
  exact (congrArg (val_main_v81 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))) hi).trans
    (final_apply (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) _ _ _)

end Cert.RefSide

end
-- ==== Proof.RefSide.lean ====
/-
  The reference's run, stated with the specification.

  Every weakly fair execution of the reference terminates with its result array holding, at every coordinate
  (batch, row, feature), the transformer layer of the specification in its EARLY spelling — the softmax normalised
  before the product with V, the dense layer's three-term sum bracketed (x + x·Wd) + bd — of the thirteen argument
  arrays, and with those arrays unchanged.
-/
import proofs.«107328_j81389630259580_2_alg».proof.Proof.RefSideC

noncomputable section

namespace Cert.RefSide

open Idealize.ShloMosaic Idealize.ShloMosaic.TcCoe Idealize.SL.Sem

theorem run_early (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v81)
        = Cert.Attn.ofT3 (Cert.Attn.fullEarly
          (Cert.Attn.toT3 (m' ((c.tc : Thread Cert.ReferenceIdeal.nD Cert.ReferenceIdeal.τ).loc Cert.ReferenceIdeal.main_arg0)))
          (Cert.Attn.toM2 (m' ((c.tc : Thread Cert.ReferenceIdeal.nD Cert.ReferenceIdeal.τ).loc Cert.ReferenceIdeal.main_arg1)))
          (Cert.Attn.toV1 (m' ((c.tc : Thread Cert.ReferenceIdeal.nD Cert.ReferenceIdeal.τ).loc Cert.ReferenceIdeal.main_arg2)))
          (Cert.Attn.toM2 (m' ((c.tc : Thread Cert.ReferenceIdeal.nD Cert.ReferenceIdeal.τ).loc Cert.ReferenceIdeal.main_arg3)))
          (Cert.Attn.toV1 (m' ((c.tc : Thread Cert.ReferenceIdeal.nD Cert.ReferenceIdeal.τ).loc Cert.ReferenceIdeal.main_arg4)))
          (Cert.Attn.toM2 (m' ((c.tc : Thread Cert.ReferenceIdeal.nD Cert.ReferenceIdeal.τ).loc Cert.ReferenceIdeal.main_arg5)))
          (Cert.Attn.toV1 (m' ((c.tc : Thread Cert.ReferenceIdeal.nD Cert.ReferenceIdeal.τ).loc Cert.ReferenceIdeal.main_arg6)))
          (Cert.Attn.toM2 (m' ((c.tc : Thread Cert.ReferenceIdeal.nD Cert.ReferenceIdeal.τ).loc Cert.ReferenceIdeal.main_arg7)))
          (Cert.Attn.toV1 (m' ((c.tc : Thread Cert.ReferenceIdeal.nD Cert.ReferenceIdeal.τ).loc Cert.ReferenceIdeal.main_arg8)))
          (Cert.Attn.toV1 (m' ((c.tc : Thread Cert.ReferenceIdeal.nD Cert.ReferenceIdeal.τ).loc Cert.ReferenceIdeal.main_arg9)))
          (Cert.Attn.toV1 (m' ((c.tc : Thread Cert.ReferenceIdeal.nD Cert.ReferenceIdeal.τ).loc Cert.ReferenceIdeal.main_arg10)))
          (Cert.Attn.toV1 (m' ((c.tc : Thread Cert.ReferenceIdeal.nD Cert.ReferenceIdeal.τ).loc Cert.ReferenceIdeal.main_arg11)))
          (Cert.Attn.toV1 (m' ((c.tc : Thread Cert.ReferenceIdeal.nD Cert.ReferenceIdeal.τ).loc Cert.ReferenceIdeal.main_arg12))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  (θ_run (Cert.ReferenceIdeal.defs (F := Ideal)) _ _).mono (fun _ h c => ⟨(h c).1.trans (res_early m' c), (h c).2⟩)
    (Cert.ReferenceIdeal.Value.run (F := Ideal) m' ρ')

end Cert.RefSide

end
-- ==== Proof.LibFinite.lean ====
/-
  Finiteness of extended reals.

  An extended real is FINITE when it is a real number (neither +∞ nor −∞).  Sums, differences, products, maxima and
  minima of finite extended reals are finite, and so is a finite sum of them; a finite extended real divided by a
  nonzero real is the real quotient; the reciprocal square root of a positive real is a positive real.  The maximum
  of a finite extended real with zero is a non-negative real, and a non-negative real plus a positive real is a
  positive real, so the reciprocal square root of "variance plus epsilon" is a positive real.

  For whole arrays: an array gathered from an array of finite entries has finite entries (each is one of the
  operand's); a scatter-add of finite updates into an array of finite entries has finite entries (each is an operand
  entry plus a finite sum of updates); a contraction of two arrays of finite entries has finite entries (each is a
  finite sum of products); a host sum with a finite initial value of an array of finite entries has finite entries.
  The integer index operands play no part.

  Three float patterns: 0x47435000 denotes 50000, 0x00000000 denotes 0, and 0x3727C5AC (the single-precision number
  nearest 10⁻⁵) denotes a positive real.
-/
import Mathlib
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.BatchNorm

open Idealize.ShloMosaic

/-! ## The predicate -/

/-- An extended real is finite when it is (the image of) a real number. -/
def IsReal (x : EReal) : Prop := ∃ r : ℝ, x = (r : EReal)

/-- A real number, read as an extended real, is finite. -/
theorem isReal_coe (r : ℝ) : IsReal (r : EReal) := ⟨r, rfl⟩

/-- Zero is finite. -/
theorem isReal_zero : IsReal (0 : EReal) := ⟨0, rfl⟩

/-- One is finite. -/
theorem isReal_one : IsReal (1 : EReal) := ⟨1, rfl⟩

/-- Finite means: neither +∞ nor −∞. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- A finite extended real is the image of its real part. -/
theorem IsReal.eq_coe_toReal {x : EReal} (hx : IsReal x) : x = ((x.toReal : ℝ) : EReal) := by
  obtain ⟨r, rfl⟩ := hx
  rw [EReal.toReal_coe]

/-- A family of finite extended reals is the image of a family of reals. -/
theorem exists_real_family {ι : Type*} {x : ι → EReal} (hx : ∀ i, IsReal (x i)) :
    ∃ f : ι → ℝ, ∀ i, x i = ((f i : ℝ) : EReal) :=
  ⟨fun i => (x i).toReal, fun i => (hx i).eq_coe_toReal⟩

/-! ## Closure under the arithmetic operations -/

/-- The sum of two finite extended reals is finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The negation of a finite extended real is finite. -/
theorem IsReal.neg {x : EReal} (hx : IsReal x) : IsReal (-x) := by
  obtain ⟨a, rfl⟩ := hx
  exact ⟨-a, (EReal.coe_neg a).symm⟩

/-- The difference of two finite extended reals is finite. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two finite extended reals is finite. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The maximum of two finite extended reals is finite. -/
theorem isReal_max {x y : EReal} (hx : IsReal x) (hy : IsReal y) : IsReal (max x y) := by
  rcases max_choice x y with h | h <;> rw [h] <;> assumption

/-- The minimum of two finite extended reals is finite. -/
theorem isReal_min {x y : EReal} (hx : IsReal x) (hy : IsReal y) : IsReal (min x y) := by
  rcases min_choice x y with h | h <;> rw [h] <;> assumption

/-- The maximum of a finite extended real with zero is finite. -/
theorem isReal_max_zero {x : EReal} (hx : IsReal x) : IsReal (max x 0) := isReal_max hx isReal_zero

/-- The maximum of two reals, read as extended reals, is the real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum of a finite extended real with zero is a non-negative real. -/
theorem exists_nonneg_max_zero {x : EReal} (hx : IsReal x) :
    ∃ v : ℝ, 0 ≤ v ∧ max x 0 = (v : EReal) := by
  obtain ⟨a, rfl⟩ := hx
  refine ⟨max a 0, le_max_right a 0, ?_⟩
  rw [← EReal.coe_zero, max_coe_coe]

/-- The maximum with zero is never below zero. -/
theorem zero_le_max_zero (x : EReal) : 0 ≤ max x 0 := le_max_right x 0

/-! ## Finite sums -/

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert k s hk ih => rw [Finset.sum_insert hk, Finset.sum_insert hk, EReal.coe_add, ih]

/-- A finite sum of finite extended reals is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert k s hk ih =>
    rw [Finset.sum_insert hk]
    exact (hf k (Finset.mem_insert_self k s)).add (ih fun i hi => hf i (Finset.mem_insert_of_mem hi))

/-- A sum over a whole finite index type of finite extended reals is finite. -/
theorem isReal_sum_univ {ι : Type*} [Fintype ι] (f : ι → EReal) (hf : ∀ i, IsReal (f i)) :
    IsReal (∑ i, f i) :=
  isReal_sum Finset.univ f fun i _ => hf i

/-- The same with the sum started at zero, the form a host sum with initial value zero takes. -/
theorem isReal_zero_add_sum {ι : Type*} (s : Finset ι) (f : ι → EReal) (hf : ∀ i ∈ s, IsReal (f i)) :
    IsReal ((0 : EReal) + ∑ i ∈ s, f i) :=
  isReal_zero.add (isReal_sum s f hf)

/-! ## Division by a nonzero real -/

/-- A real divided by a nonzero real, as extended reals, is the real quotient. -/
theorem div_coe_coe (a : ℝ) {r : ℝ} (hr : r ≠ 0) :
    Ideal.div (a : EReal) (r : EReal) = ((a / r : ℝ) : EReal) := by
  rw [Ideal.div_coe hr, ← EReal.coe_mul, mul_one_div]

/-- A finite extended real divided by a nonzero real is finite. -/
theorem IsReal.div_coe {x : EReal} (hx : IsReal x) {r : ℝ} (hr : r ≠ 0) : IsReal (Ideal.div x (r : EReal)) := by
  obtain ⟨a, rfl⟩ := hx
  exact ⟨a / r, div_coe_coe a hr⟩

/-- A finite extended real divided by a nonzero finite extended real is finite. -/
theorem IsReal.div {x y : EReal} (hx : IsReal x) (hy : IsReal y) (hy0 : y ≠ 0) : IsReal (Ideal.div x y) := by
  obtain ⟨b, rfl⟩ := hy
  exact hx.div_coe (fun h => hy0 (by rw [h, EReal.coe_zero]))

/-! ## The reciprocal square root of a positive real -/

/-- The reciprocal square root of a positive real r is the real 1 / √r. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- … and 1 / √r is positive. -/
theorem inv_sqrt_pos {r : ℝ} (hr : 0 < r) : 0 < (Real.sqrt r)⁻¹ :=
  inv_pos.mpr (Real.sqrt_pos.mpr hr)

/-- The reciprocal square root of a positive real is a positive real. -/
theorem exists_pos_rsqrt {x : EReal} (hx : ∃ r : ℝ, 0 < r ∧ x = (r : EReal)) :
    ∃ q : ℝ, 0 < q ∧ Ideal.rsqrt x = (q : EReal) := by
  obtain ⟨r, hr, rfl⟩ := hx
  exact ⟨(Real.sqrt r)⁻¹, inv_sqrt_pos hr, rsqrt_coe_of_pos hr⟩

/-- In particular it is finite. -/
theorem isReal_rsqrt_of_pos {x : EReal} (hx : ∃ r : ℝ, 0 < r ∧ x = (r : EReal)) : IsReal (Ideal.rsqrt x) := by
  obtain ⟨q, _, hq⟩ := exists_pos_rsqrt hx
  exact ⟨q, hq⟩

/-! ## Variance plus epsilon -/

/-- A non-negative real plus a positive real is a positive real. -/
theorem exists_pos_add {x e : EReal} (hx : ∃ v : ℝ, 0 ≤ v ∧ x = (v : EReal)) (he : ∃ r : ℝ, 0 < r ∧ e = (r : EReal)) :
    ∃ p : ℝ, 0 < p ∧ x + e = (p : EReal) := by
  obtain ⟨v, hv, rfl⟩ := hx
  obtain ⟨r, hr, rfl⟩ := he
  exact ⟨v + r, by linarith, (EReal.coe_add v r).symm⟩

/-- So the reciprocal square root of a non-negative real plus a positive real is a positive real. -/
theorem exists_pos_rsqrt_add {x e : EReal} (hx : ∃ v : ℝ, 0 ≤ v ∧ x = (v : EReal))
    (he : ∃ r : ℝ, 0 < r ∧ e = (r : EReal)) :
    ∃ q : ℝ, 0 < q ∧ Ideal.rsqrt (x + e) = (q : EReal) :=
  exists_pos_rsqrt (exists_pos_add hx he)

/-- For a finite x and a positive real e, the reciprocal square root of max x 0 + e is a positive real. -/
theorem exists_pos_rsqrt_max_zero_add {x e : EReal} (hx : IsReal x) (he : ∃ r : ℝ, 0 < r ∧ e = (r : EReal)) :
    ∃ q : ℝ, 0 < q ∧ Ideal.rsqrt (max x 0 + e) = (q : EReal) :=
  exists_pos_rsqrt_add (exists_nonneg_max_zero hx) he

/-! ## Three float patterns -/

/-- The single-precision pattern 0x47435000 denotes 50000. -/
theorem ofBits_50000 : Ideal.ofBits .f32 0x47435000#32 = ((50000 : ℝ) : EReal) := by
  simp [Ideal.ofBits, Ideal.ieee, -EReal.coe_mul]; norm_num

/-- The single-precision pattern 0x00000000 denotes 0. -/
theorem ofBits_zero : Ideal.ofBits .f32 0x00000000#32 = 0 := Ideal.ofBits_zero_f32

/-- The single-precision pattern 0x3727C5AC (the number nearest 10⁻⁵) denotes the real 10995116 · 2⁻⁴⁰. -/
theorem ofBits_eps_eq : Ideal.ofBits .f32 0x3727C5AC#32 = (((10995116 : ℝ) * (2 : ℝ) ^ (-40 : ℤ) : ℝ) : EReal) := by
  simp [Ideal.ofBits, Ideal.ieee, -EReal.coe_mul]

/-- … a positive real. -/
theorem ofBits_eps : ∃ e : ℝ, 0 < e ∧ Ideal.ofBits .f32 0x3727C5AC#32 = (e : EReal) :=
  ⟨(10995116 : ℝ) * (2 : ℝ) ^ (-40 : ℤ), by positivity, ofBits_eps_eq⟩

/-- 50000 is not zero. -/
theorem fifty_thousand_ne_zero : (50000 : ℝ) ≠ 0 := by norm_num

/-! ## Whole arrays -/

section Arrays

/-- Entry by entry, the host's quotient of two float arrays is the quotient of the entries. -/
theorem host_divf_apply {s : Shape} {φ : FTy} (x y : FVec Ideal s φ) (i : s.Idx) :
    Host.divf (F := Ideal) x y i = Ideal.div (x i) (y i) := rfl

/-- Entry by entry, the host's reciprocal square root of a float array is that of the entry. -/
theorem host_rsqrt_apply {s : Shape} {φ : FTy} (x : FVec Ideal s φ) (i : s.Idx) :
    Host.rsqrt (F := Ideal) x i = Ideal.rsqrt (x i) := rfl

/-- An array gathered from an array of finite entries has finite entries, whatever the start indices. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add of finite updates into an array of finite entries has finite entries, whatever the scatter
    indices: each entry is the operand's plus a finite sum of updates. -/
theorem isReal_hostScatterAdd {s si u : Shape} {w : Nat} (d : ScatterDims s si u) (x : s.Idx → EReal) (idx : IVec si w)
    (upd : u.Idx → EReal) (hx : ∀ i, IsReal (x i)) (hu : ∀ j, IsReal (upd j)) (i : s.Idx) :
    IsReal (Ideal.hostScatterAdd d x idx upd i) :=
  (hx i).add (isReal_sum _ _ fun j _ => hu j)

/-- The same for the host operation as a program spells it. -/
theorem isReal_scatterAdd {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd (F := Ideal) d x idx upd i) :=
  isReal_hostScatterAdd d x idx upd hx hu i

/-- A contraction of two arrays of finite entries has finite entries: each is a finite sum of products. -/
theorem isReal_dotGeneral {sl sr so : Shape} {φ₁ φ₂ : FTy} (d : DotDims sl sr so) (prec : Option ContractPrecision)
    (sched : HostSchedule) (lhs : FVec Ideal sl φ₁) (rhs : FVec Ideal sr φ₂) (hl : ∀ i, IsReal (lhs i))
    (hr : ∀ i, IsReal (rhs i)) (j : so.Idx) : IsReal (FloatOps.dotGeneral d prec sched lhs rhs j) := by
  rw [Ideal.dotGeneral_apply]
  exact isReal_sum _ _ fun k _ => (hl _).mul (hr _)

/-- The same for the host operation as a program spells it. -/
theorem isReal_host_dotGeneral {sl sr so : Shape} {φ₁ φ₂ : FTy} (d : DotDims sl sr so) (prec : Option ContractPrecision)
    (lhs : FVec Ideal sl φ₁) (rhs : FVec Ideal sr φ₂) (hl : ∀ i, IsReal (lhs i))
    (hr : ∀ i, IsReal (rhs i)) (j : so.Idx) : IsReal (Host.dotGeneral (F := Ideal) d prec lhs rhs j) :=
  isReal_dotGeneral d prec .single lhs rhs hl hr j

/-- A host sum, from a finite initial value, of an array of finite entries has finite entries. -/
theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

/-- A matrix product into an accumulator, all three arrays of finite entries, has finite entries: each is the
    accumulator's entry plus a finite sum of products. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ j, IsReal (acc j)) (j : so.Idx) :
    IsReal (FloatOps.matmul d prec lhs rhs acc j) := by
  rw [Ideal.matmul_apply]
  exact (ha j).add (isReal_sum _ _ fun k _ => (hl _).mul (hr _))

/-- A sum along axes of an array of finite entries has finite entries. -/
theorem isReal_reduceAdd {s t : Shape} {axes : List (Fin s.rank)} (h : s.Reduces axes t) (x : s.Idx → EReal)
    (hx : ∀ i, IsReal (x i)) (j : t.Idx) : IsReal (Ideal.reduceAdd h x j) :=
  isReal_sum _ _ fun i _ => hx i

end Arrays

/-! ## One entry of a batch normalisation -/

/-- (x − μ) · c · g + b is finite when x, μ, c, g and b are. -/
theorem isReal_normalised {x mu c g b : EReal} (hx : IsReal x) (hmu : IsReal mu) (hc : IsReal c) (hg : IsReal g)
    (hb : IsReal b) : IsReal ((x - mu) * c * g + b) :=
  (((hx.sub hmu).mul hc).mul hg).add hb

end Cert.Lib.BatchNorm

end
-- ==== Proof.Law.lean ====
/-
  The two spellings of the layer agree on real inputs.

  If X, Wq, bq, Wk, bk have real entries then so have Q and K (a maximum with 0 of a finite sum of products plus a real),
  hence every score; a row's maximum, folded from -∞ over 2048 real scores, is real (it is below +∞ because every
  score is, and above -∞ because it is at least the first score); so every shifted exponential e_k = exp (s_k - max) is
  a positive real and their sum l is a positive real L. Dividing by l is then multiplying by the non-negative real 1/L,
  and a non-negative real factor distributes over a finite sum of extended reals whatever the summands are, so
      (Σ_k e_k · v_k) / l = Σ_k (e_k / l) · v_k
  for arbitrary v. The values V, the residuals, the LayerNorms and the dense layer are the same on both sides; the
  three-term sum is re-bracketed by associativity of addition, which holds on all extended reals.
-/
import proofs.«107328_j81389630259580_2_alg».proof.Proof.Spec
import proofs.«107328_j81389630259580_2_alg».proof.Proof.LibFinite

noncomputable section

open scoped BigOperators

namespace Cert.Attn

open Idealize.ShloMosaic Cert.Lib.BatchNorm

/-- The zero word denotes 0 and the -∞ word denotes ⊥. -/
theorem zeroW_eq : zeroW = 0 := Ideal.ofBits_zero_f32
theorem negInf_eq : negInf = ⊥ := by simp [negInf, Ideal.ofBits, Ideal.ieee]

/-- A projection of real data is real. -/
theorem real3_proj {X : T3} {W : M2} {b : V1} (hX : Real3 X) (hW : Real2 W) (hb : Real1 b) : Real3 (proj X W b) := by
  intro bi s e
  show IsReal (max ((∑ d : Fin 768, X bi s d * W d e) + b e) zeroW)
  rw [zeroW_eq]
  exact isReal_max_zero (IsReal.add (isReal_sum_univ _ fun d => IsReal.mul (hX bi s d) (hW d e)) (hb e))

/-- A score of real rows is real. -/
theorem isReal_score {Q K : T3} (hQ : Real3 Q) (hK : Real3 K) (bi : Fin 8) (q k : Fin 2048) : IsReal (score Q K bi q k) :=
  isReal_sum_univ _ fun e => IsReal.mul (hQ bi q e) (hK bi k e)

/-- The maximum of a row of reals, folded from -∞, is real. -/
theorem isReal_rowMax {s : Fin 2048 → EReal} (hs : ∀ k, IsReal (s k)) : IsReal (rowMax s) := by
  rw [isReal_iff]
  unfold rowMax
  rw [negInf_eq]
  constructor
  · refine ne_of_lt ?_
    rw [Finset.fold_max_lt]
    exact ⟨bot_lt_top, fun k _ => by obtain ⟨r, hr⟩ := hs k; rw [hr]; exact EReal.coe_lt_top r⟩
  · refine ne_of_gt ?_
    rw [Finset.lt_fold_max]
    exact Or.inr ⟨0, Finset.mem_univ _, by obtain ⟨r, hr⟩ := hs 0; rw [hr]; exact EReal.bot_lt_coe r⟩

/-- Each shifted exponential of real scores is a positive real. -/
theorem ex_pos {Q K : T3} (hQ : Real3 Q) (hK : Real3 K) (bi : Fin 8) (q k : Fin 2048) :
    ∃ r : ℝ, 0 < r ∧ ex Q K bi q k = (r : EReal) := by
  obtain ⟨a, ha⟩ := isReal_score hQ hK bi q k
  obtain ⟨b, hb⟩ := isReal_rowMax (fun k => isReal_score hQ hK bi q k)
  refine ⟨Real.exp (a - b), Real.exp_pos _, ?_⟩
  unfold ex
  rw [ha, hb, ← EReal.coe_sub, Ideal.exp_coe]

/-- So the row's sum is a positive real. -/
theorem den_pos {Q K : T3} (hQ : Real3 Q) (hK : Real3 K) (bi : Fin 8) (q : Fin 2048) :
    ∃ L : ℝ, 0 < L ∧ den Q K bi q = (L : EReal) := by
  choose f hf0 hf using fun k => ex_pos hQ hK bi q k
  refine ⟨∑ k : Fin 2048, f k, Finset.sum_pos (fun k _ => hf0 k) ⟨0, Finset.mem_univ _⟩, ?_⟩
  unfold den
  rw [coe_sum]
  exact Finset.sum_congr rfl fun k _ => hf k

/-- A non-negative real factor distributes over a finite sum of extended reals. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert k s hk ih =>
    rw [Finset.sum_insert hk, Finset.sum_insert hk,
      EReal.right_distrib_of_nonneg_of_ne_top (EReal.coe_nonneg.mpr hc) (EReal.coe_ne_top c), ih]

/-- Normalising the softmax after or before the product with V is the same when Q and K are real. -/
theorem attnLate_eq_attnEarly {Q K : T3} (hQ : Real3 Q) (hK : Real3 K) (V : T3) : attnLate Q K V = attnEarly Q K V := by
  funext bi q d
  obtain ⟨L, hL, hden⟩ := den_pos hQ hK bi q
  unfold attnLate attnEarly
  rw [hden]
  simp only [Ideal.div_coe hL.ne']
  rw [sum_mul_coe_of_nonneg _ _ (one_div_nonneg.mpr hL.le)]
  exact Finset.sum_congr rfl fun k _ => mul_right_comm _ _ _

/-- The layer after attention does not depend on how its three-term sum is bracketed. -/
theorem tailLate_eq_tailEarly (X A : T3) (g1 b1 : V1) (Wd : M2) (bd g2 b2 : V1) :
    tailLate X A g1 b1 Wd bd g2 b2 = tailEarly X A g1 b1 Wd bd g2 b2 := by
  funext bi s
  unfold tailLate tailEarly
  refine congrArg (fun y => norm y g2 b2) ?_
  funext d
  exact (add_assoc _ _ _).symm

/-- The whole layer: the two spellings agree when X, Wq, bq, Wk, bk are real. -/
theorem fullLate_eq_fullEarly (X : T3) (Wq : M2) (bq : V1) (Wk : M2) (bk : V1) (Wv : M2) (bv : V1) (Wd : M2)
    (bd g1 b1 g2 b2 : V1) (hX : Real3 X) (hWq : Real2 Wq) (hbq : Real1 bq) (hWk : Real2 Wk) (hbk : Real1 bk) :
    fullLate X Wq bq Wk bk Wv bv Wd bd g1 b1 g2 b2 = fullEarly X Wq bq Wk bk Wv bv Wd bd g1 b1 g2 b2 := by
  unfold fullLate fullEarly
  rw [attnLate_eq_attnEarly (real3_proj hX hWq hbq) (real3_proj hX hWk hbk)]
  exact tailLate_eq_tailEarly _ _ _ _ _ _ _ _

end Cert.Attn

end
-- ==== Proof.PreReal.lean ====
/-
  From the precondition to "every entry is a real number".

  The precondition computes, for each float argument A, the conjunction over all of its entries of
  |A[i]| < +∞, and takes the conjunction of the thirteen results. Here a float is an extended real and |x| is
  max x (-x), which is +∞ at both infinities; so an entry with |x| < +∞ is neither +∞ nor -∞: it is a real
  number. Under the precondition, therefore, every entry of the first five arguments — the input X and the
  weight and bias of the query and of the key projection — is a real number.
-/
import proofs.«107328_j81389630259580_2_alg».proof.Defs
import proofs.«107328_j81389630259580_2_alg».proof.Proof.Gen.Pre_finite_inputs
import proofs.«107328_j81389630259580_2_alg».proof.Proof.Spec
import Idealize.ShloMosaic.Lib.ReduceAll
import Idealize.ShloMosaic.Lib.IdealHost

noncomputable section

namespace Cert.PreReal

open Idealize.ShloMosaic Idealize.ShloMosaic.ValueIdx Idealize.SL.Sem

/-- The f32 word 0x7F800000 (sign 0, exponent all ones, fraction 0) denotes +∞. -/
theorem ofBits_inf_f32 : Ideal.ofBits .f32 0x7F800000#32 = (⊤ : EReal) := by
  simp [Ideal.ofBits, Ideal.ieee]

/-- An extended real whose absolute value max x (-x) is below +∞ is a real number: at -∞ and at +∞ the
    absolute value is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "less than" of two extended reals gives the word 1 only when it holds. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- The scalar shape has one index. -/
instance : Subsingleton (⟨0, ![]⟩ : Shape).Idx := ⟨fun a b => funext fun d => d.elim0⟩

/-- At any shape: if the conjunction over all entries of |x[i]| < +∞ (the +∞ word broadcast from a scalar)
    is 1, every entry of x is a real number. -/
theorem real_of_all_lt {S : Shape} {axes : List (Fin S.rank)} (x : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (e : Host.reduce IntOp.andi
          (cmpf .olt (Host.absf x)
            (broadcastInDim S ![] hb (constant (F := Ideal) (⟨0, ![]⟩ : Shape) .f32 0x7F800000#32)))
          (constantI (⟨0, ![]⟩ : Shape) 1 1#1) hr hu ix0 = 1#1) (i : S.Idx) :
    ∃ r : ℝ, x i = (r : EReal) := by
  have h1 := Host.reduce_andi_all _ _ hr hu ix0 e i
  rw [cmpf_apply, broadcastInDim_scalar_apply, constant_apply, ofBits_inf_f32] at h1
  exact real_of_abs_lt_top (x i) (lt_of_cmp_olt _ _ h1)

theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Attn.Real3 (Cert.Attn.toT3 (m ((c.tc : Thread Cert.KernelIdeal.nD Cert.KernelIdeal.τ).loc Cert.KernelIdeal.main_arg0)))
    ∧ Cert.Attn.Real2 (Cert.Attn.toM2 (m ((c.tc : Thread _ _).loc Cert.KernelIdeal.main_arg1)))
    ∧ Cert.Attn.Real1 (Cert.Attn.toV1 (m ((c.tc : Thread _ _).loc Cert.KernelIdeal.main_arg2)))
    ∧ Cert.Attn.Real2 (Cert.Attn.toM2 (m ((c.tc : Thread _ _).loc Cert.KernelIdeal.main_arg3)))
    ∧ Cert.Attn.Real1 (Cert.Attn.toV1 (m ((c.tc : Thread _ _).loc Cert.KernelIdeal.main_arg4))) := by
  -- the predicate at the scalar's one index, unfolded to the conjunction of the thirteen reductions
  have hc := congrFun (h c) ix0
  dsimp only [Cert.Pre_finite_inputs.fn, Cert.Pre_finite_inputs.fn_part1, Cert.Pre_finite_inputs.fn_part2,
    Cert.Pre_finite_inputs.fn_part3, andi] at hc
  simp only [IntOp.andi_eq_one] at hc
  obtain ⟨⟨⟨⟨⟨⟨⟨⟨⟨⟨⟨⟨h0, h1⟩, h2⟩, h3⟩, h4⟩, -⟩, -⟩, -⟩, -⟩, -⟩, -⟩, -⟩, -⟩ := hc
  exact ⟨fun a b d => real_of_all_lt _ _ _ _ h0 (ix3 a b d),
    fun a b => real_of_all_lt _ _ _ _ h1 (ix2 a b),
    fun a => real_of_all_lt _ _ _ _ h2 (ix1 a),
    fun a b => real_of_all_lt _ _ _ _ h3 (ix2 a b),
    fun a => real_of_all_lt _ _ _ _ h4 (ix1 a)⟩

end Cert.PreReal

end
-- ==== Proof.Algebraic.lean ====
/-
  The algebraic claim: from memories that agree on the thirteen arguments, the idealized kernel program and the
  idealized reference end with the same [8, 2048, 768] result.

  The kernel program's result buffer ends at the late-normalised spelling of the layer (its run, then its two kernels'
  blocks read back as whole arrays through the host reshapes and concatenations); the reference's at the early-normalised
  spelling (its run, read stage by stage). The precondition makes X, Wq, bq, Wk, bk real, which is what the two
  spellings need to agree (the softmax's denominator is then a positive real); the remaining arguments may be anything.
-/
import proofs.«107328_j81389630259580_2_alg».proof.Defs
import proofs.«107328_j81389630259580_2_alg».proof.Proof.Gen.KernelIdeal
import proofs.«107328_j81389630259580_2_alg».proof.Proof.Gen.ReferenceIdeal
import proofs.«107328_j81389630259580_2_alg».proof.Proof.Gen.Pre_finite_inputs
import proofs.«107328_j81389630259580_2_alg».proof.Proof.KIRun
import proofs.«107328_j81389630259580_2_alg».proof.Proof.KernelValue
import proofs.«107328_j81389630259580_2_alg».proof.Proof.RefSide
import proofs.«107328_j81389630259580_2_alg».proof.Proof.Law
import proofs.«107328_j81389630259580_2_alg».proof.Proof.PreReal

noncomputable section

namespace Cert.Proof.Algebraic

open Idealize.ShloMosaic Idealize.ShloMosaic.TcCoe Idealize.SL.Sem Cert.Attn

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => ofT3 (fullEarly
      (toT3 (m' ((c.tc : Thread Cert.ReferenceIdeal.nD Cert.ReferenceIdeal.τ).loc Cert.ReferenceIdeal.main_arg0)))
      (toM2 (m' ((c.tc : Thread Cert.ReferenceIdeal.nD Cert.ReferenceIdeal.τ).loc Cert.ReferenceIdeal.main_arg1)))
      (toV1 (m' ((c.tc : Thread Cert.ReferenceIdeal.nD Cert.ReferenceIdeal.τ).loc Cert.ReferenceIdeal.main_arg2)))
      (toM2 (m' ((c.tc : Thread Cert.ReferenceIdeal.nD Cert.ReferenceIdeal.τ).loc Cert.ReferenceIdeal.main_arg3)))
      (toV1 (m' ((c.tc : Thread Cert.ReferenceIdeal.nD Cert.ReferenceIdeal.τ).loc Cert.ReferenceIdeal.main_arg4)))
      (toM2 (m' ((c.tc : Thread Cert.ReferenceIdeal.nD Cert.ReferenceIdeal.τ).loc Cert.ReferenceIdeal.main_arg5)))
      (toV1 (m' ((c.tc : Thread Cert.ReferenceIdeal.nD Cert.ReferenceIdeal.τ).loc Cert.ReferenceIdeal.main_arg6)))
      (toM2 (m' ((c.tc : Thread Cert.ReferenceIdeal.nD Cert.ReferenceIdeal.τ).loc Cert.ReferenceIdeal.main_arg7)))
      (toV1 (m' ((c.tc : Thread Cert.ReferenceIdeal.nD Cert.ReferenceIdeal.τ).loc Cert.ReferenceIdeal.main_arg8)))
      (toV1 (m' ((c.tc : Thread Cert.ReferenceIdeal.nD Cert.ReferenceIdeal.τ).loc Cert.ReferenceIdeal.main_arg9)))
      (toV1 (m' ((c.tc : Thread Cert.ReferenceIdeal.nD Cert.ReferenceIdeal.τ).loc Cert.ReferenceIdeal.main_arg10)))
      (toV1 (m' ((c.tc : Thread Cert.ReferenceIdeal.nD Cert.ReferenceIdeal.τ).loc Cert.ReferenceIdeal.main_arg11)))
      (toV1 (m' ((c.tc : Thread Cert.ReferenceIdeal.nD Cert.ReferenceIdeal.τ).loc Cert.ReferenceIdeal.main_arg12)))), ?_, Cert.RefSide.run_early m' ρ'⟩
  refine (θ_run (Cert.KernelIdeal.defs (F := Ideal)) _ _).mono (fun r h c => ?_) (Cert.KernelIdeal.Hand.run (F := Ideal) m ρ)
  obtain ⟨e0, e1, e2, e3, e4, e5, e6, e7, e8, e9, e10, e11, e12⟩ := hagree c
  obtain ⟨h0, h1, h2, h3, h4⟩ := Cert.PreReal.real_of_pre m hpre c
  refine ⟨?_,
    (h c _ (Cert.KernelIdeal.Hand.mem_uc Cert.KernelIdeal.main_arg0 (by decide))).trans (Cert.KernelIdeal.Hand.W4_main_arg0 m ρ c),
    (h c _ (Cert.KernelIdeal.Hand.mem_uc Cert.KernelIdeal.main_arg1 (by decide))).trans (Cert.KernelIdeal.Hand.W4_main_arg1 m ρ c),
    (h c _ (Cert.KernelIdeal.Hand.mem_uc Cert.KernelIdeal.main_arg2 (by decide))).trans (Cert.KernelIdeal.Hand.W4_main_arg2 m ρ c),
    (h c _ (Cert.KernelIdeal.Hand.mem_uc Cert.KernelIdeal.main_arg3 (by decide))).trans (Cert.KernelIdeal.Hand.W4_main_arg3 m ρ c),
    (h c _ (Cert.KernelIdeal.Hand.mem_uc Cert.KernelIdeal.main_arg4 (by decide))).trans (Cert.KernelIdeal.Hand.W4_main_arg4 m ρ c),
    (h c _ (Cert.KernelIdeal.Hand.mem_uc Cert.KernelIdeal.main_arg5 (by decide))).trans (Cert.KernelIdeal.Hand.W4_main_arg5 m ρ c),
    (h c _ (Cert.KernelIdeal.Hand.mem_uc Cert.KernelIdeal.main_arg6 (by decide))).trans (Cert.KernelIdeal.Hand.W4_main_arg6 m ρ c),
    (h c _ (Cert.KernelIdeal.Hand.mem_uc Cert.KernelIdeal.main_arg7 (by decide))).trans (Cert.KernelIdeal.Hand.W4_main_arg7 m ρ c),
    (h c _ (Cert.KernelIdeal.Hand.mem_uc Cert.KernelIdeal.main_arg8 (by decide))).trans (Cert.KernelIdeal.Hand.W4_main_arg8 m ρ c),
    (h c _ (Cert.KernelIdeal.Hand.mem_uc Cert.KernelIdeal.main_arg9 (by decide))).trans (Cert.KernelIdeal.Hand.W4_main_arg9 m ρ c),
    (h c _ (Cert.KernelIdeal.Hand.mem_uc Cert.KernelIdeal.main_arg10 (by decide))).trans (Cert.KernelIdeal.Hand.W4_main_arg10 m ρ c),
    (h c _ (Cert.KernelIdeal.Hand.mem_uc Cert.KernelIdeal.main_arg11 (by decide))).trans (Cert.KernelIdeal.Hand.W4_main_arg11 m ρ c),
    (h c _ (Cert.KernelIdeal.Hand.mem_uc Cert.KernelIdeal.main_arg12 (by decide))).trans (Cert.KernelIdeal.Hand.W4_main_arg12 m ρ c)⟩
  beta_reduce
  rw [e0, e1, e2, e3, e4, e5, e6, e7, e8, e9, e10, e11, e12]
  exact ((h c _ (Cert.KernelIdeal.Hand.mem_uc Cert.KernelIdeal.main_v15 (by decide))).trans (Cert.KernelIdeal.KValue.value m ρ c)).trans
    (congrArg ofT3 (fullLate_eq_fullEarly _ _ _ _ _ _ _ _ _ _ _ _ _ h0 h1 h2 h3 h4))

end Cert.Proof.Algebraic

end
-- ==== Proof.lean ====
/-
  The certificate: a transformer layer (ReLU-gated Q, K, V projections, softmax attention normalised after the product
  with V, two LayerNorms around a dense layer) computed by two Pallas kernels among host reshapes, concatenations and
  conversions, against its jnp reference.

  * The three frames: each program runs to the end, faults nowhere and leaves its thirteen argument arrays as launched.
    The two kernel programs' runs are built from their two regions' body triples (every body loads whole blocks, computes,
    stores whole blocks) and the fold of buffer contents through @main (Proof/K0, K1, KRun and KI0, KI1, KIRun);
    the reference's is its run with the result dropped.
  * The idealization rewrote nothing, so its claim is trivial.
  * The algebraic claim (Proof/Algebraic.lean): at the extended reals the kernel program computes the layer with the
    softmax normalised after the product with V and the reference with it normalised before; on real X, Wq, bq, Wk, bk
    the softmax's denominator is a positive real and the two agree (Proof/Spec.lean, Proof/Law.lean).
-/
import proofs.«107328_j81389630259580_2_alg».proof.Defs
import proofs.«107328_j81389630259580_2_alg».proof.Proof.Gen.Kernel
import proofs.«107328_j81389630259580_2_alg».proof.Proof.Gen.KernelIdeal
import proofs.«107328_j81389630259580_2_alg».proof.Proof.Gen.ReferenceIdeal
import proofs.«107328_j81389630259580_2_alg».proof.Proof.Gen.Pre_finite_inputs
import proofs.«107328_j81389630259580_2_alg».proof.Proof.Frames
import proofs.«107328_j81389630259580_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial,
    Cert.Proof.Algebraic.algebraic⟩

end Cert.Proof

end
